-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S3x96x96 : Shape := ⟨3, ![3, 96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S3x96x96 : S_.BroadcastsInDim S3x96x96 (![] : Fin 0 → Fin S3x96x96.rank)
  reducesTo_S3x96x96_S_d0_1_2 : S3x96x96.ReducesTo [0, 1, 2] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S50000x96 .f32) (main_arg1 : IVec S2x800000 32) (main_arg2 : FVec F S3x96x96 .f32) (main_arg3 : FVec F S96 .f32) (main_arg4 : FVec F S96 .f32) (main_arg5 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S3x96x96 .f32 := Host.absf main_arg2
  let main_cst_0 : FVec F S_ .f32 := constant S_ .f32 0x7F800000#32
  let main_v5 : FVec F S3x96x96 .f32 := broadcastInDim S3x96x96 ![] bcast_S_S3x96x96 main_cst_0
  let main_v6 : IVec S3x96x96 1 := cmpf .olt main_v4 main_v5
  let main_c_1 : IVec S_ 1 := constantI S_ 1 1#1
  let main_v7 : IVec S_ 1 := (fun x v => Host.reduce IntOp.andi x v reducesTo_S3x96x96_S_d0_1_2 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_v13 main_v16
-- ==== Kernel.lean ====
abbrev S50000x96 : Shape := ⟨2, ![50000, 96]⟩
abbrev S2x800000 : Shape := ⟨2, ![2, 800000]⟩
abbrev S3x96x96 : Shape := ⟨3, ![3, 96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S1x96 : Shape := ⟨2, ![1, 96]⟩
abbrev S5000x96 : Shape := ⟨2, ![5000, 96]⟩
abbrev S1x96x96 : Shape := ⟨3, ![1, 96, 96]⟩
abbrev S96x96 : Shape := ⟨2, ![96, 96]⟩

abbrev nBuf : Space → Nat
  | .hbm => 104
  | .vmem => 22
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S3x96x96, .f32⟩
  | .hbm, ⟨3, _⟩ => ⟨S96, .f32⟩
  | .hbm, ⟨4, _⟩ => ⟨S96, .f32⟩
  | .hbm, ⟨5, _⟩ => ⟨S96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S1x800000, .i32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S800000, .i1⟩
  | .hbm, ⟨18, _⟩ => ⟨S_, .f32⟩
  | .hbm, ⟨19, _⟩ => ⟨S_, .f32⟩
  | .hbm, ⟨20, _⟩ => ⟨S800000, .f32⟩
  | .hbm, ⟨21, _⟩ => ⟨S800000, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S800000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S800000, .f32⟩
  | .hbm, ⟨50, _⟩ => ⟨S800000, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000, .f32⟩
  | .hbm, ⟨60, _⟩ => ⟨S800000, .f32⟩
  | .hbm, ⟨61, _⟩ => ⟨S800000x1, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x96, .f32⟩
  | .hbm, ⟨71, _⟩ => ⟨S800000x96, .f32⟩
  | .hbm, ⟨72, _⟩ => ⟨S800000x96, .f32⟩
  | .hbm, ⟨73, _⟩ => ⟨S_, .f32⟩
  | .hbm, ⟨74, _⟩ => ⟨S50000x96, .f32⟩
  | .hbm, ⟨75, _⟩ => ⟨S800000x1, .i32⟩
  | .hbm, ⟨76, _⟩ => ⟨S50000x96, .f32⟩
  | .hbm, ⟨77, _⟩ => ⟨S800000x1, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x96, .f32⟩
  | .hbm, ⟨87, _⟩ => ⟨S800000x96, .f32⟩
  | .hbm, ⟨88, _⟩ => ⟨S800000x96, .f32⟩
  | .hbm, ⟨89, _⟩ => ⟨S_, .f32⟩
  | .hbm, ⟨90, _⟩ => ⟨S50000x96, .f32⟩
  | .hbm, ⟨91, _⟩ => ⟨S800000x1, .i32⟩
  | .hbm, ⟨92, _⟩ => ⟨S50000x96, .f32⟩
  | .hbm, ⟨93, _⟩ => ⟨S_, .f32⟩
  | .hbm, ⟨94, _⟩ => ⟨S50000x96, .f32⟩
  | .hbm, ⟨95, _⟩ => ⟨S50000x96, .f32⟩
  | .hbm, ⟨96, _⟩ => ⟨S50000x96, .f32⟩
  | .hbm, ⟨97, _⟩ => ⟨S1x96, .f32⟩
  | .hbm, ⟨98, _⟩ => ⟨S1x96, .f32⟩
  | .hbm, ⟨99, _⟩ => ⟨S1x96, .f32⟩
  | .hbm, ⟨100, _⟩ => ⟨S50000x96, .f32⟩
  | .hbm, ⟨101, _⟩ => ⟨S1x96, .f32⟩
  | .hbm, ⟨102, _⟩ => ⟨S1x96, .f32⟩
  | .hbm, ⟨103, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S3x96x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S1x96, .f32⟩
  | .local _ .vmem, ⟨11, _⟩ => ⟨S1x96, .f32⟩
  | .local _ .vmem, ⟨12, _⟩ => ⟨S1x96, .f32⟩
  | .local _ .vmem, ⟨13, _⟩ => ⟨S1x96, .f32⟩
  | .local _ .vmem, ⟨14, _⟩ => ⟨S5000x96, .f32⟩
  | .local _ .vmem, ⟨15, _⟩ => ⟨S5000x96, .f32⟩
  | .local _ .vmem, ⟨16, _⟩ => ⟨S1x96, .f32⟩
  | .local _ .vmem, ⟨17, _⟩ => ⟨S1x96, .f32⟩
  | .local _ .vmem, ⟨18, _⟩ => ⟨S1x96, .f32⟩
  | .local _ .vmem, ⟨19, _⟩ => ⟨S1x96, .f32⟩
  | .local _ .vmem, ⟨20, _⟩ => ⟨S5000x96, .f32⟩
  | .local _ .vmem, ⟨21, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73_0 : Ref sig .tc := ⟨.hbm, 100, rfl⟩
abbrev main_v73_1 : Ref sig .tc := ⟨.hbm, 101, rfl⟩
abbrev main_v73_2 : Ref sig .tc := ⟨.hbm, 102, rfl⟩
abbrev main_v74 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_29 : BitVec 32 := 0#32
  let v47 : BitVec 1 := Scalar.cmpi .ne v46 c0_i32_29
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S1x800000_1 : S800000.BroadcastsInDim S1x800000 (![1] : Fin 1 → Fin S1x800000.rank)
  concatenates_S1x800000_S1x800000_S2x800000_d0 : Shape.Concatenates [S1x800000, S1x800000] S2x800000 0
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S96_S1x96 : S96.ShapeCasts S1x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  shapeCasts_S5000x96_S5000x96 : S5000x96.ShapeCasts S5000x96
  inb_S3x96x96_S1x96x96_0_0_0 : ∀ a, (![0, 0, 0] : Fin 3 → Nat) a + S1x96x96.size a ≤ S3x96x96.size a
  h_S1x96x96 : 0 < S1x96x96.numel
  shapeCasts_S1x96x96_S96x96 : S1x96x96.ShapeCasts S96x96
  inb_S3x96x96_S1x96x96_1_0_0 : ∀ a, (![1, 0, 0] : Fin 3 → Nat) a + S1x96x96.size a ≤ S3x96x96.size a
  inb_S3x96x96_S1x96x96_2_0_0 : ∀ a, (![2, 0, 0] : Fin 3 → Nat) a + S1x96x96.size a ≤ S3x96x96.size a
  broadcasts_S1x96_S5000x96 : S1x96.Broadcasts S5000x96
  reduces_S5000x96_S96 : S5000x96.Reduces [0] S96
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x96x96.size a ≤ S3x96x96.size a
  hwx0_3 : ∀ i : grid0.Coords, EltTy.bits .f32 = 32 ∨ (Rect.block (s := S3x96x96) S3x96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x96.size a ≤ S1x96.size a
  hwx0_7 : ∀ i : grid0.Coords, EltTy.bits .f32 = 32 ∨ (Rect.block (s := S1x96) S1x96.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v69) S5000x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v70) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v73_0) S5000x96.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v73_1) S1x96.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v73_2) S1x96.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v73_0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73_1) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v73_2) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v72) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v74) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S3x96x96 : Shape := ⟨3, ![3, 96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x96x96 : Shape := ⟨3, ![1, 96, 96]⟩
abbrev S96x96 : Shape := ⟨2, ![96, 96]⟩
abbrev S800000x96 : Shape := ⟨2, ![800000, 96]⟩
abbrev S1x96 : Shape := ⟨2, ![1, 96]⟩

abbrev nBuf : Space → Nat
  | .hbm => 152
  | .vmem => 0
  | .smem => 0
  | _ => 0

abbrev hbmTy0_0 (i : Nat) : BufTy := match i % 128 with
  | 0 => ⟨S50000x96, .f32⟩
  | 1 => ⟨S2x800000, .i32⟩
  | 2 => ⟨S3x96x96, .f32⟩
  | 3 => ⟨S96, .f32⟩
  | 4 => ⟨S96, .f32⟩
  | 5 => ⟨S96, .f32⟩
  | 6 => ⟨S1x800000, .i32⟩
  | 7 => ⟨S800000, .i32⟩
  | 8 => ⟨S1x800000, .i32⟩
  | 9 => ⟨S800000, .i32⟩
  | 10 => ⟨S1x800000, .i32⟩
  | 11 => ⟨S800000, .i32⟩
  | 12 => ⟨S1x800000, .i32⟩
  | 13 => ⟨S800000, .i32⟩
  | 14 => ⟨S800000, .i1⟩
  | 15 => ⟨S_, .f32⟩
  | 16 => ⟨S_, .f32⟩
  | 17 => ⟨S800000, .f32⟩
  | 18 => ⟨S800000, .f32⟩
  | 19 => ⟨S800000, .f32⟩
  | 20 => ⟨S_, .f32⟩
  | 21 => ⟨S50000, .f32⟩
  | 22 => ⟨S800000x1, .i32⟩
  | 23 => ⟨S800000, .f32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S800000, .f32⟩
  | 58 => ⟨S1x96x96, .f32⟩
  | 59 => ⟨S96x96, .f32⟩
  | 60 => ⟨S50000x96, .f32⟩
  | 61 => ⟨S800000x1, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x96, .f32⟩
  | 71 => ⟨S800000x96, .f32⟩
  | 72 => ⟨S800000x96, .f32⟩
  | 73 => ⟨S_, .f32⟩
  | 74 => ⟨S50000x96, .f32⟩
  | 75 => ⟨S800000x1, .i32⟩
  | 76 => ⟨S50000x96, .f32⟩
  | 77 => ⟨S1x96x96, .f32⟩
  | 78 => ⟨S96x96, .f32⟩
  | 79 => ⟨S50000x96, .f32⟩
  | 80 => ⟨S50000x96, .f32⟩
  | 81 => ⟨S800000x1, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x96, .f32⟩
  | 91 => ⟨S800000x96, .f32⟩
  | 92 => ⟨S800000x96, .f32⟩
  | 93 => ⟨S_, .f32⟩
  | 94 => ⟨S50000x96, .f32⟩
  | 95 => ⟨S800000x1, .i32⟩
  | 96 => ⟨S50000x96, .f32⟩
  | 97 => ⟨S_, .f32⟩
  | 98 => ⟨S50000x96, .f32⟩
  | 99 => ⟨S50000x96, .f32⟩
  | 100 => ⟨S50000x96, .f32⟩
  | 101 => ⟨S1x96x96, .f32⟩
  | 102 => ⟨S96x96, .f32⟩
  | 103 => ⟨S50000x96, .f32⟩
  | 104 => ⟨S50000x96, .f32⟩
  | 105 => ⟨S1x96, .f32⟩
  | 106 => ⟨S50000x96, .f32⟩
  | 107 => ⟨S50000x96, .f32⟩
  | 108 => ⟨S_, .f32⟩
  | 109 => ⟨S96, .f32⟩
  | 110 => ⟨S_, .f32⟩
  | 111 => ⟨S96, .f32⟩
  | 112 => ⟨S96, .f32⟩
  | 113 => ⟨S_, .i32⟩
  | 114 => ⟨S_, .f32⟩
  | 115 => ⟨S96, .f32⟩
  | 116 => ⟨S1x96, .f32⟩
  | 117 => ⟨S_, .f32⟩
  | 118 => ⟨S1x96, .f32⟩
  | 119 => ⟨S1x96, .f32⟩
  | 120 => ⟨S50000x96, .f32⟩
  | 121 => ⟨S50000x96, .f32⟩
  | 122 => ⟨S50000x96, .f32⟩
  | 123 => ⟨S_, .f32⟩
  | 124 => ⟨S_, .f32⟩
  | 125 => ⟨S_, .f32⟩
  | 126 => ⟨S_, .f32⟩
  | 127 => ⟨S96, .f32⟩
  | _ => ⟨S50000x96, .f32⟩

abbrev hbmTy0_1 (i : Nat) : BufTy := match i % 128 with
  | 0 => ⟨S96, .f32⟩
  | 1 => ⟨S96, .f32⟩
  | 2 => ⟨S_, .f32⟩
  | 3 => ⟨S_, .i1⟩
  | 4 => ⟨S_, .f32⟩
  | 5 => ⟨S_, .f32⟩
  | 6 => ⟨S96, .f32⟩
  | 7 => ⟨S96, .f32⟩
  | 8 => ⟨S1x96, .f32⟩
  | 9 => ⟨S50000x96, .f32⟩
  | 10 => ⟨S50000x96, .f32⟩
  | 11 => ⟨S_, .f32⟩
  | 12 => ⟨S96, .f32⟩
  | 13 => ⟨S96, .f32⟩
  | 14 => ⟨S96, .f32⟩
  | 15 => ⟨S1x96, .f32⟩
  | 16 => ⟨S50000x96, .f32⟩
  | 17 => ⟨S50000x96, .f32⟩
  | 18 => ⟨S1x96, .f32⟩
  | 19 => ⟨S50000x96, .f32⟩
  | 20 => ⟨S50000x96, .f32⟩
  | 21 => ⟨S1x96, .f32⟩
  | 22 => ⟨S50000x96, .f32⟩
  | 23 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_c_17 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_cst_3 : Ref sig .tc := ⟨.hbm, 130, rfl⟩
abbrev main_call2_v12 : Ref sig .tc := ⟨.hbm, 131, rfl⟩
abbrev main_call2_cst_4 : Ref sig .tc := ⟨.hbm, 132, rfl⟩
abbrev main_call2_call0_v0 : Ref sig .tc := ⟨.hbm, 133, rfl⟩
abbrev main_call2_call0_v1 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_18 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x96x96_S1x96x96_0_0_0 : S3x96x96.Slices ![0, 0, 0] S1x96x96
  shapeCasts_S1x96x96_S96x96 : S1x96x96.ShapeCasts S96x96
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  slices_S3x96x96_S1x96x96_1_0_0 : S3x96x96.Slices ![1, 0, 0] S1x96x96
  slices_S3x96x96_S1x96x96_2_0_0 : S3x96x96.Slices ![2, 0, 0] S1x96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  bcast_S_S1x96 : S_.BroadcastsInDim S1x96 (![] : Fin 0 → Fin S1x96.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.Kernel.R0Runs.lean ====
import proofs.«166066_j71159018160656_1_alg».proof.Proof.Gen.Kernel.Launch
import proofs.«166066_j71159018160656_1_alg».proof.Proof.Gen.Kernel.Skeleton
import proofs.«166066_j71159018160656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the combine-and-statistics kernel), at the contents `V` the region is entered with -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form -/

/-- The first conditional (the accumulators are zeroed): the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional (mean and variance are stored): the grid coordinate is 9. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The staging and scratch memrefs -/

abbrev VO0_5 : View sig .tc .vmem S5000x96 .f32 := (Memref.whole cc0_stg5_0 : Memref sig .tc .vmem S5000x96 .f32).view
abbrev VO0_6 : View sig .tc .vmem S1x96 .f32 := (Memref.whole cc0_stg6_0 : Memref sig .tc .vmem S1x96 .f32).view
abbrev VO0_7 : View sig .tc .vmem S1x96 .f32 := (Memref.whole cc0_stg7_0 : Memref sig .tc .vmem S1x96 .f32).view
abbrev ms0_0 (t : Fin cfg0.N) : Memref sig .tc .vmem S5000x96 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x96 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x96 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x96x96 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x96 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x96 .f32 := win0_7.stage (cfg0.slots t 7)
abbrev hs0_7 (t : Fin cfg0.N) : (ms0_7 t).IsWhole := hstage0_7 ((cfg0.slots t 7).cast nbuf0_7)
/-- The two accumulators: the running column sum and the running column sum of squares. -/
abbrev scM0_0 : Memref sig .tc .vmem S1x96 .f32 := Memref.whole cc0_scratch0
abbrev scM0_1 : Memref sig .tc .vmem S1x96 .f32 := Memref.whole cc0_scratch1
abbrev VS0_0 : View sig .tc .vmem S1x96 .f32 := scM0_0.view
abbrev VS0_1 : View sig .tc .vmem S1x96 .f32 := scM0_1.view

/-- The second region's staging buffers, each at some contents: the part of the core's scoped memory this region never touches. -/
def stgRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's class invariant, spelt out: the two accumulators owned at some contents, the other region's staging
    buffers at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ stgRest0 (F := F) c) ∗ (∃ r, prngReg c r)) := by
  unfold Pipeline.ΦA stgRest0; rw [scopedRest0_eq]; simp only [scM0_0, scM0_1, owns_whole]; try rfl

end Cert.Kernel.Hand

end
-- ==== Proof.Kernel.R0RunA.lean ====
import proofs.«166066_j71159018160656_1_alg».proof.Proof.Kernel.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's whole run in case A (first point: the accumulators are zeroed, mean and variance are not stored), on whole
    memrefs: the five inputs at their contents, the block output at anything, the two statistics outputs at contents handed back untouched,
    the two accumulators at anything; the pieces each stored buffer ends with (last first) are given with the run. -/
noncomputable def kernelRun0_A (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) :
    Σ' (L5 : List (View.Piece (Elt F) S5000x96 .f32)) (L6 : List (View.Piece (Elt F) S1x96 .f32)) (L7 : List (View.Piece (Elt F) S1x96 .f32)) (LS0 : List (View.Piece (Elt F) S1x96 .f32)), { LS1 : List (View.Piece (Elt F) S1x96 .f32) //
      ∀ (xi6 : Vec F S1x96 .f32) (xi7 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__combine_stats_kernel_eq_skeleton]; unfold cc0__combine_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, Hs0⟩, ⟨%ds1, %fs1, -, Hs1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [Hs0]; · iexists _; iexact Hs0
    iexists _; iexact Hs1

end Cert.Kernel.Hand

end
-- ==== Proof.Kernel.R0RunB.lean ====
import proofs.«166066_j71159018160656_1_alg».proof.Proof.Kernel.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's whole run in case B (an inner point: neither conditional is taken), on whole
    memrefs: the five inputs at their contents, the block output at anything, the two statistics outputs at contents handed back untouched,
    the two accumulators at what the point before left; the pieces each stored buffer ends with (last first) are given with the run. -/
noncomputable def kernelRun0_B (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    Σ' (L5 : List (View.Piece (Elt F) S5000x96 .f32)) (L6 : List (View.Piece (Elt F) S1x96 .f32)) (L7 : List (View.Piece (Elt F) S1x96 .f32)) (LS0 : List (View.Piece (Elt F) S1x96 .f32)), { LS1 : List (View.Piece (Elt F) S1x96 .f32) //
      ∀ (xi6 : Vec F S1x96 .f32) (xi7 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__combine_stats_kernel_eq_skeleton]; unfold cc0__combine_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, Hs0⟩, ⟨%fs1, %hfs1, Hs1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [Hs0]; · iexists _; iexact Hs0
    iexists _; iexact Hs1

end Cert.Kernel.Hand

end
-- ==== Proof.Kernel.R0RunC.lean ====
import proofs.«166066_j71159018160656_1_alg».proof.Proof.Kernel.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's whole run in case C (last point: mean and variance are stored), on whole
    memrefs: the five inputs at their contents, the block output at anything, the two statistics outputs at anything,
    the two accumulators at what the point before left; the pieces each stored buffer ends with (last first) are given with the run. -/
noncomputable def kernelRun0_C (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    Σ' (L5 : List (View.Piece (Elt F) S5000x96 .f32)) (L6 : List (View.Piece (Elt F) S1x96 .f32)) (L7 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__combine_stats_kernel_eq_skeleton]; unfold cc0__combine_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, Hs0⟩, ⟨%fs1, %hfs1, Hs1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [Hs0]; · iexists _; iexact Hs0
    iexists _; iexact Hs1

end Cert.Kernel.Hand

end
-- ==== Proof.Kernel.R0Frame.lean ====
import proofs.«166066_j71159018160656_1_alg».proof.Proof.Kernel.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the outputs and the accumulators -/

/-- Case A's pieces for output 5 tile its block, so they cover it. -/
theorem cover0_A_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) (y : S5000x96.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S5000x96.size (by sl_kernel_rfl) y

/-- What case A leaves in output 5's staging buffer: its pieces read back. -/
def out0_A_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) : Vec F S5000x96 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

/-- What case A leaves in output 6's staging buffer: its pieces read back (none: the case stores nothing there; a placeholder nothing consults). -/
def out0_A_6 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) : Vec F S1x96 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3 x4).2.1)

/-- What case A leaves in output 7's staging buffer: its pieces read back (none: the case stores nothing there; a placeholder nothing consults). -/
def out0_A_7 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) : Vec F S1x96 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4).2.2.1)

/-- Case A's pieces for accumulator 0 cover it. -/
theorem scover0_A_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) (y : S1x96.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.1 S1x96.size (by sl_kernel_rfl) y

/-- What case A leaves in accumulator 0: its pieces read back. -/
def sout0_A_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) : Vec F S1x96 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.2.2.1)

/-- Case A's pieces for accumulator 1 cover it. -/
theorem scover0_A_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) (y : S1x96.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.2.1 S1x96.size (by sl_kernel_rfl) y

/-- What case A leaves in accumulator 1: its pieces read back. -/
def sout0_A_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) : Vec F S1x96 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.2.2.1)

/-- Case B's pieces for output 5 tile its block, so they cover it. -/
theorem cover0_B_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S5000x96.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S5000x96.size (by sl_kernel_rfl) y

/-- What case B leaves in output 5's staging buffer: its pieces read back. -/
def out0_B_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S5000x96 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)

/-- What case B leaves in output 6's staging buffer: its pieces read back (none: the case stores nothing there; a placeholder nothing consults). -/
def out0_B_6 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)

/-- What case B leaves in output 7's staging buffer: its pieces read back (none: the case stores nothing there; a placeholder nothing consults). -/
def out0_B_7 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case B's pieces for accumulator 0 cover it. -/
theorem scover0_B_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x96.size (by sl_kernel_rfl) y

/-- What case B leaves in accumulator 0: its pieces read back. -/
def sout0_B_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's pieces for accumulator 1 cover it. -/
theorem scover0_B_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x96.size (by sl_kernel_rfl) y

/-- What case B leaves in accumulator 1: its pieces read back. -/
def sout0_B_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- Case C's pieces for output 5 tile its block, so they cover it. -/
theorem cover0_C_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S5000x96.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S5000x96.size (by sl_kernel_rfl) y

/-- What case C leaves in output 5's staging buffer: its pieces read back. -/
def out0_C_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S5000x96 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)

/-- Case C's pieces for output 6 tile its block, so they cover it. -/
theorem cover0_C_6 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x96.size (by sl_kernel_rfl) y

/-- What case C leaves in output 6's staging buffer: its pieces read back. -/
def out0_C_6 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)

/-- Case C's pieces for output 7 tile its block, so they cover it. -/
theorem cover0_C_7 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x96.size (by sl_kernel_rfl) y

/-- What case C leaves in output 7's staging buffer: its pieces read back. -/
def out0_C_7 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's pieces for accumulator 0 cover it. -/
theorem scover0_C_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x96.size (by sl_kernel_rfl) y

/-- What case C leaves in accumulator 0: its pieces read back. -/
def sout0_C_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's pieces for accumulator 1 cover it. -/
theorem scover0_C_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x96.size (by sl_kernel_rfl) y

/-- What case C leaves in accumulator 1: its pieces read back. -/
def sout0_C_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## What the outputs and the accumulators hold after each point -/

/-- After the body at position `n`: the outputs' staging buffers (5, 6, 7) and then the two accumulators — the first point
    is case A; the last is case C, over what the point before left in the accumulators; the others are case B, likewise. -/
def outsAt0 (c : Dev nD) : (n : ℕ) → n < cfg0.N → Vec F S5000x96 .f32 × Vec F S1x96 .f32 × Vec F S1x96 .f32 × Vec F S1x96 .f32 × Vec F S1x96 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : n + 1 = 9 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val = 0) (h1 : ¬t.val = 9) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 9) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 9) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class's; afterwards the two accumulators at what the
    point before left in them, the other region's staging buffers at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ stgRest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ stgRest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ stgRest0 (F := F) c) ∗ (∃ r, prngReg c r)) := by
  cases n with
  | zero => exact absurd rfl hz
  | succ n => rfl

/-! ## The pipeline's proof data -/

/-- The proof data of region 0 on core `c`: the arrays as the region finds them; after the body at point `t` each input's
    buffer at its block and the outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' memrefs hold their blocks; the closed forms select the case; the invariant hands the body
    the accumulators (at anything at the first point, at what the point before left otherwise) and takes them back at this
    point's contents; the other region's staging buffers, the generator register and the core's debts pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  by_cases h0 : t.val = 0
  · by_cases h1 : t.val = 9
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold out0_A_5 sout0_A_0 sout0_A_1; (try dsimp only)
      rw [PhiS_castSucc V c t, PhiS_zero V c _ _ h0, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]; · iexists _; iexact H6
      iexists _; iexact H7

  · by_cases h1 : t.val = 9
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_5 out0_C_6 out0_C_7 sout0_C_0 sout0_C_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold out0_B_5 sout0_B_0 sout0_B_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 10 := N_0; omega)

end Cert.Kernel.Hand

end
-- ==== Proof.Kernel.R1Frame.lean ====
import proofs.«166066_j71159018160656_1_alg».proof.Proof.Gen.Kernel.Launch
import proofs.«166066_j71159018160656_1_alg».proof.Proof.Gen.Kernel.Skeleton
import proofs.«166066_j71159018160656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter this half is stated at
variable (V : (c : Dev nD) → (b : Ref sig .tc) → Buf (Elt F) ((c : Thread nD τ).loc b))

/-! # The second region of @main: the normalisation kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where it is not fetched the block index
    has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where it is not fetched the block index
    has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where it is not fetched the block index
    has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where it is not fetched the block index
    has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where it is not fetched the block index
    has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x96 := Rect.unit (s := S5000x96) ![0, 0] S5000x96.size inb_S5000x96_S5000x96_0_0
abbrev r1_1 : Rect S1x96 := Rect.unit (s := S1x96) ![0, 0] S1x96.size inb_S1x96_S1x96_0_0

/-! ## What the body leaves in the output window's buffer -/

/-- Window 5's staging buffer after the body, from the input windows' blocks: its one store as a piece. -/
def out1_5 (x0 : Vec F S5000x96 .f32) (x1 x2 x3 x4 : Vec F S1x96 .f32) : Vec F S5000x96 .f32 :=
  View.canon [⟨r1_0, k1_pay1 (View.ld x1 r1_1) (View.ld x2 r1_1) (View.ld x3 r1_1) (View.ld x4 r1_1) (View.ld x0 r1_0)⟩]

/-- The store tiles the buffer, so it covers it. -/
theorem cover1_5 (p0 : Vec F S5000x96 .f32) (y : S5000x96.Idx) :
    ∃ pc ∈ ([⟨r1_0, p0⟩] : List (View.Piece (Elt F) S5000x96 .f32)), y ∈ pc.1.set :=
  View.cover_of_tiled [⟨r1_0, p0⟩] S5000x96.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg0 : Memref sig .tc .vmem S5000x96 .f32) (harg0 : arg0.IsWhole)
    (arg1 : Memref sig .tc .vmem S1x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S5000x96 .f32) (harg5 : arg5.IsWhole)
    (x0 : Vec F S5000x96 .f32) (x1 x2 x3 x4 : Vec F S1x96 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__bn_kernel i arg0 harg0 arg1 harg1 arg2 harg2 arg3 harg3 arg4 harg4 arg5 harg5) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kernel.Run.lean ====
import proofs.«166066_j71159018160656_1_alg».proof.Proof.Gen.Kernel.Launch
import proofs.«166066_j71159018160656_1_alg».proof.Proof.Gen.Kernel.Skeleton
import proofs.«166066_j71159018160656_1_alg».proof.Proof.Gen.Kernel.Points
import proofs.«166066_j71159018160656_1_alg».proof.Proof.Gen.Kernel.Regions
import proofs.«166066_j71159018160656_1_alg».proof.Proof.Kernel.R0Frame
import proofs.«166066_j71159018160656_1_alg».proof.Proof.Kernel.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's segments from the launch to the return

## The buffer contents at each segment boundary: a fold through @main -/

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After each of the five host stretches in turn; the last is region 0's entry. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, each output's write-backs
    folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents, region 1's entry). -/
abbrev V6 : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references (region 1's exit contents). -/
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ### The arguments end as launched: no host operation and no region writes one (a region reads it through an
    input window or bypasses it), so the fold at an argument's buffer walks back to the launch memory -/

/-- A buffer none of the five host stretches writes holds at region 0's entry what it held at launch. -/
theorem W5_of (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m ρ c (Proc.devRef .tc r) = m ((c : Thread nD τ).loc r) :=
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := (W6_arr m ρ c 0).trans (((dat0 (V5 m ρ) c).arrAt_in 0 rfl _).trans (A_eq0 (V5 m ρ) c 0))
    _ = m ((c : Thread nD τ).loc main_arg0) := W5_of m ρ c main_arg0 (by decide) (by decide) (by decide) (by decide) (by decide)
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = m ((c : Thread nD τ).loc main_arg1) := W5_of m ρ c main_arg1 (by decide) (by decide) (by decide) (by decide) (by decide)
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := (W6_arr m ρ c 3).trans (((dat0 (V5 m ρ) c).arrAt_in 3 rfl _).trans (A_eq0 (V5 m ρ) c 3))
    _ = m ((c : Thread nD τ).loc main_arg2) := W5_of m ρ c main_arg2 (by decide) (by decide) (by decide) (by decide) (by decide)
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = m ((c : Thread nD τ).loc main_arg3) := W5_of m ρ c main_arg3 (by decide) (by decide) (by decide) (by decide) (by decide)
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = m ((c : Thread nD τ).loc main_arg4) := W5_of m ρ c main_arg4 (by decide) (by decide) (by decide) (by decide) (by decide)
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = m ((c : Thread nD τ).loc main_arg5) := W5_of m ρ c main_arg5 (by decide) (by decide) (by decide) (by decide) (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-! ## The regions as segments -/

-- the library's region lemma is stated over the pinned configuration `pin pcs a p`, which is this region's by definition
set_option backward.isDefEq.respectTransparency.types false in
/-- Region 0 over the thread state: entered from every unscoped buffer at `W5`, left at `W6`. Its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V5 m ρ) c).Φ 0 from rfl]
    refine BIBase.Entails.trans ?_ (hin0 (V5 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V5 m ρ) c).Φ (Fin.last cfg0.N) from rfl]
    refine BIBase.Entails.trans (hout0 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's region lemma is stated over the pinned configuration `pin pcs a p`, which is this region's by definition
set_option backward.isDefEq.respectTransparency.types false in
/-- Region 1 over the thread state: entered from every unscoped buffer at `W6`, left at `W7`. Its arrays split
    out of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 7 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ) ]
/-- @main is the run of the segments. -/
theorem main_run (c : Dev nD) : main (F := F) c = Pipeline.Seg.run (segs m ρ) := (main_chain c).trans (by chain_rfl)

-- the launch theorem's conclusion is this statement once the segments' definitions are opened
set_option backward.isDefEq.respectTransparency.types false in
/-- The run: at the compiled mesh, from any memory with zero counters, every weakly fair execution of @main on the
    TensorCores terminates, nothing faulting, and every final state has every unscoped buffer at the last boundary's
    contents `W7`. -/
theorem run : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- The frame: every argument array ends as launched, each read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run m ρ)

end Cert.Kernel.Hand

end
-- ==== Proof.KernelIdeal.R0Runs.lean ====
import proofs.«166066_j71159018160656_1_alg».proof.Proof.Gen.KernelIdeal.Launch
import proofs.«166066_j71159018160656_1_alg».proof.Proof.Gen.KernelIdeal.Skeleton
import proofs.«166066_j71159018160656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 0 (the combine-and-statistics kernel), at the contents `V` the region is entered with -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form -/

/-- The first conditional (the accumulators are zeroed): the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional (mean and variance are stored): the grid coordinate is 9. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The staging and scratch memrefs -/

abbrev VO0_5 : View sig .tc .vmem S5000x96 .f32 := (Memref.whole cc0_stg5_0 : Memref sig .tc .vmem S5000x96 .f32).view
abbrev VO0_6 : View sig .tc .vmem S1x96 .f32 := (Memref.whole cc0_stg6_0 : Memref sig .tc .vmem S1x96 .f32).view
abbrev VO0_7 : View sig .tc .vmem S1x96 .f32 := (Memref.whole cc0_stg7_0 : Memref sig .tc .vmem S1x96 .f32).view
abbrev ms0_0 (t : Fin cfg0.N) : Memref sig .tc .vmem S5000x96 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x96 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x96 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x96x96 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x96 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x96 .f32 := win0_7.stage (cfg0.slots t 7)
abbrev hs0_7 (t : Fin cfg0.N) : (ms0_7 t).IsWhole := hstage0_7 ((cfg0.slots t 7).cast nbuf0_7)
/-- The two accumulators: the running column sum and the running column sum of squares. -/
abbrev scM0_0 : Memref sig .tc .vmem S1x96 .f32 := Memref.whole cc0_scratch0
abbrev scM0_1 : Memref sig .tc .vmem S1x96 .f32 := Memref.whole cc0_scratch1
abbrev VS0_0 : View sig .tc .vmem S1x96 .f32 := scM0_0.view
abbrev VS0_1 : View sig .tc .vmem S1x96 .f32 := scM0_1.view

/-- The second region's staging buffers, each at some contents: the part of the core's scoped memory this region never touches. -/
def stgRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's class invariant, spelt out: the two accumulators owned at some contents, the other region's staging
    buffers at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ stgRest0 (F := F) c) ∗ (∃ r, prngReg c r)) := by
  unfold Pipeline.ΦA stgRest0; rw [scopedRest0_eq]; simp only [scM0_0, scM0_1, owns_whole]; try rfl

end Cert.KernelIdeal.Hand

end
-- ==== Proof.KernelIdeal.R0RunA.lean ====
import proofs.«166066_j71159018160656_1_alg».proof.Proof.KernelIdeal.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's whole run in case A (first point: the accumulators are zeroed, mean and variance are not stored), on whole
    memrefs: the five inputs at their contents, the block output at anything, the two statistics outputs at contents handed back untouched,
    the two accumulators at anything; the pieces each stored buffer ends with (last first) are the witness the run finds. -/
noncomputable def kernelRun0_A (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) :
    Σ' (L5 : List (View.Piece (Elt F) S5000x96 .f32)) (L6 : List (View.Piece (Elt F) S1x96 .f32)) (L7 : List (View.Piece (Elt F) S1x96 .f32)) (LS0 : List (View.Piece (Elt F) S1x96 .f32)), { LS1 : List (View.Piece (Elt F) S1x96 .f32) //
      ∀ (xi6 : Vec F S1x96 .f32) (xi7 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__combine_stats_kernel_eq_skeleton]; unfold cc0__combine_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, Hs0⟩, ⟨%ds1, %fs1, -, Hs1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [Hs0]; · iexists _; iexact Hs0
    iexists _; iexact Hs1

end Cert.KernelIdeal.Hand

end
-- ==== Proof.KernelIdeal.R0RunB.lean ====
import proofs.«166066_j71159018160656_1_alg».proof.Proof.KernelIdeal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's whole run in case B (an inner point: neither conditional is taken), on whole
    memrefs: the five inputs at their contents, the block output at anything, the two statistics outputs at contents handed back untouched,
    the two accumulators at what the point before left; the pieces each stored buffer ends with (last first) are the witness the run finds. -/
noncomputable def kernelRun0_B (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    Σ' (L5 : List (View.Piece (Elt F) S5000x96 .f32)) (L6 : List (View.Piece (Elt F) S1x96 .f32)) (L7 : List (View.Piece (Elt F) S1x96 .f32)) (LS0 : List (View.Piece (Elt F) S1x96 .f32)), { LS1 : List (View.Piece (Elt F) S1x96 .f32) //
      ∀ (xi6 : Vec F S1x96 .f32) (xi7 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__combine_stats_kernel_eq_skeleton]; unfold cc0__combine_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, Hs0⟩, ⟨%fs1, %hfs1, Hs1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [Hs0]; · iexists _; iexact Hs0
    iexists _; iexact Hs1

end Cert.KernelIdeal.Hand

end
-- ==== Proof.KernelIdeal.R0RunC.lean ====
import proofs.«166066_j71159018160656_1_alg».proof.Proof.KernelIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's whole run in case C (last point: mean and variance are stored), on whole
    memrefs: the five inputs at their contents, the block output at anything, the two statistics outputs at anything,
    the two accumulators at what the point before left; the pieces each stored buffer ends with (last first) are the witness the run finds. -/
noncomputable def kernelRun0_C (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    Σ' (L5 : List (View.Piece (Elt F) S5000x96 .f32)) (L6 : List (View.Piece (Elt F) S1x96 .f32)) (L7 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__combine_stats_kernel_eq_skeleton]; unfold cc0__combine_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, Hs0⟩, ⟨%fs1, %hfs1, Hs1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [Hs0]; · iexists _; iexact Hs0
    iexists _; iexact Hs1

end Cert.KernelIdeal.Hand

end
-- ==== Proof.KernelIdeal.R0Frame.lean ====
import proofs.«166066_j71159018160656_1_alg».proof.Proof.KernelIdeal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What each case leaves in the outputs and the accumulators -/

/-- Case A's pieces for output 5 tile its block, so they cover it. -/
theorem cover0_A_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) (y : S5000x96.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S5000x96.size (by sl_kernel_rfl) y

/-- What case A leaves in output 5's staging buffer: its pieces read back. -/
def out0_A_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) : Vec F S5000x96 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

/-- What case A leaves in output 6's staging buffer: its pieces read back (none: the case stores nothing there; a placeholder nothing consults). -/
def out0_A_6 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) : Vec F S1x96 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3 x4).2.1)

/-- What case A leaves in output 7's staging buffer: its pieces read back (none: the case stores nothing there; a placeholder nothing consults). -/
def out0_A_7 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) : Vec F S1x96 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4).2.2.1)

/-- Case A's pieces for accumulator 0 cover it. -/
theorem scover0_A_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) (y : S1x96.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.1 S1x96.size (by sl_kernel_rfl) y

/-- What case A leaves in accumulator 0: its pieces read back. -/
def sout0_A_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) : Vec F S1x96 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.2.2.1)

/-- Case A's pieces for accumulator 1 cover it. -/
theorem scover0_A_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) (y : S1x96.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.2.1 S1x96.size (by sl_kernel_rfl) y

/-- What case A leaves in accumulator 1: its pieces read back. -/
def sout0_A_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) : Vec F S1x96 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.2.2.1)

/-- Case B's pieces for output 5 tile its block, so they cover it. -/
theorem cover0_B_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S5000x96.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S5000x96.size (by sl_kernel_rfl) y

/-- What case B leaves in output 5's staging buffer: its pieces read back. -/
def out0_B_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S5000x96 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)

/-- What case B leaves in output 6's staging buffer: its pieces read back (none: the case stores nothing there; a placeholder nothing consults). -/
def out0_B_6 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)

/-- What case B leaves in output 7's staging buffer: its pieces read back (none: the case stores nothing there; a placeholder nothing consults). -/
def out0_B_7 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case B's pieces for accumulator 0 cover it. -/
theorem scover0_B_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x96.size (by sl_kernel_rfl) y

/-- What case B leaves in accumulator 0: its pieces read back. -/
def sout0_B_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's pieces for accumulator 1 cover it. -/
theorem scover0_B_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x96.size (by sl_kernel_rfl) y

/-- What case B leaves in accumulator 1: its pieces read back. -/
def sout0_B_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- Case C's pieces for output 5 tile its block, so they cover it. -/
theorem cover0_C_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S5000x96.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S5000x96.size (by sl_kernel_rfl) y

/-- What case C leaves in output 5's staging buffer: its pieces read back. -/
def out0_C_5 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S5000x96 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)

/-- Case C's pieces for output 6 tile its block, so they cover it. -/
theorem cover0_C_6 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x96.size (by sl_kernel_rfl) y

/-- What case C leaves in output 6's staging buffer: its pieces read back. -/
def out0_C_6 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)

/-- Case C's pieces for output 7 tile its block, so they cover it. -/
theorem cover0_C_7 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x96.size (by sl_kernel_rfl) y

/-- What case C leaves in output 7's staging buffer: its pieces read back. -/
def out0_C_7 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's pieces for accumulator 0 cover it. -/
theorem scover0_C_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x96.size (by sl_kernel_rfl) y

/-- What case C leaves in accumulator 0: its pieces read back. -/
def sout0_C_0 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's pieces for accumulator 1 cover it. -/
theorem scover0_C_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) (y : S1x96.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x96.size (by sl_kernel_rfl) y

/-- What case C leaves in accumulator 1: its pieces read back. -/
def sout0_C_1 (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) : Vec F S1x96 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## What the outputs and the accumulators hold after each point -/

/-- After the body at position `n`: the outputs' staging buffers (5, 6, 7) and then the two accumulators — the first point
    is case A; the last is case C, over what the point before left in the accumulators; the others are case B, likewise. -/
def outsAt0 (c : Dev nD) : (n : ℕ) → n < cfg0.N → Vec F S5000x96 .f32 × Vec F S1x96 .f32 × Vec F S1x96 .f32 × Vec F S1x96 .f32 × Vec F S1x96 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : n + 1 = 9 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val = 0) (h1 : ¬t.val = 9) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 9) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 9) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class's; afterwards the two accumulators at what the
    point before left in them, the other region's staging buffers at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ stgRest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ stgRest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ stgRest0 (F := F) c) ∗ (∃ r, prngReg c r)) := by
  cases n with
  | zero => exact absurd rfl hz
  | succ n => rfl

/-! ## The pipeline's proof data -/

/-- The proof data of region 0 on core `c`: the arrays as the region finds them; after the body at point `t` each input's
    buffer at its block and the outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' memrefs hold their blocks; the closed forms select the case; the invariant hands the body
    the accumulators (at anything at the first point, at what the point before left otherwise) and takes them back at this
    point's contents; the other region's staging buffers, the generator register and the core's debts pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  by_cases h0 : t.val = 0
  · by_cases h1 : t.val = 9
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold out0_A_5 sout0_A_0 sout0_A_1; (try dsimp only)
      rw [PhiS_castSucc V c t, PhiS_zero V c _ _ h0, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]; · iexists _; iexact H6
      iexists _; iexact H7

  · by_cases h1 : t.val = 9
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_5 out0_C_6 out0_C_7 sout0_C_0 sout0_C_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold out0_B_5 sout0_B_0 sout0_B_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 10 := N_0; omega)

end Cert.KernelIdeal.Hand

end
-- ==== Proof.KernelIdeal.R1Frame.lean ====
import proofs.«166066_j71159018160656_1_alg».proof.Proof.Gen.KernelIdeal.Launch
import proofs.«166066_j71159018160656_1_alg».proof.Proof.Gen.KernelIdeal.Skeleton
import proofs.«166066_j71159018160656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
-- the TensorCore's buffer contents when the region is entered: the parameter this half is stated at
variable (V : (c : Dev nD) → (b : Ref sig .tc) → Buf (Elt F) ((c : Thread nD τ).loc b))

/-! # The second region of @main: the normalisation kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where it is not fetched the block index
    has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where it is not fetched the block index
    has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where it is not fetched the block index
    has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where it is not fetched the block index
    has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where it is not fetched the block index
    has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x96 := Rect.unit (s := S5000x96) ![0, 0] S5000x96.size inb_S5000x96_S5000x96_0_0
abbrev r1_1 : Rect S1x96 := Rect.unit (s := S1x96) ![0, 0] S1x96.size inb_S1x96_S1x96_0_0

/-! ## What the body leaves in the output window's buffer -/

/-- Window 5's staging buffer after the body, from the input windows' blocks: its one store as a piece. -/
def out1_5 (x0 : Vec F S5000x96 .f32) (x1 x2 x3 x4 : Vec F S1x96 .f32) : Vec F S5000x96 .f32 :=
  View.canon [⟨r1_0, k1_pay1 (View.ld x1 r1_1) (View.ld x2 r1_1) (View.ld x3 r1_1) (View.ld x4 r1_1) (View.ld x0 r1_0)⟩]

/-- The store tiles the buffer, so it covers it. -/
theorem cover1_5 (p0 : Vec F S5000x96 .f32) (y : S5000x96.Idx) :
    ∃ pc ∈ ([⟨r1_0, p0⟩] : List (View.Piece (Elt F) S5000x96 .f32)), y ∈ pc.1.set :=
  View.cover_of_tiled [⟨r1_0, p0⟩] S5000x96.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg0 : Memref sig .tc .vmem S5000x96 .f32) (harg0 : arg0.IsWhole)
    (arg1 : Memref sig .tc .vmem S1x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S5000x96 .f32) (harg5 : arg5.IsWhole)
    (x0 : Vec F S5000x96 .f32) (x1 x2 x3 x4 : Vec F S1x96 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__bn_kernel i arg0 harg0 arg1 harg1 arg2 harg2 arg3 harg3 arg4 harg4 arg5 harg5) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdeal.Run.lean ====
import proofs.«166066_j71159018160656_1_alg».proof.Proof.Gen.KernelIdeal.Launch
import proofs.«166066_j71159018160656_1_alg».proof.Proof.Gen.KernelIdeal.Skeleton
import proofs.«166066_j71159018160656_1_alg».proof.Proof.Gen.KernelIdeal.Points
import proofs.«166066_j71159018160656_1_alg».proof.Proof.Gen.KernelIdeal.Regions
import proofs.«166066_j71159018160656_1_alg».proof.Proof.KernelIdeal.R0Frame
import proofs.«166066_j71159018160656_1_alg».proof.Proof.KernelIdeal.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The run: @main's segments from the launch to the return

## The buffer contents at each segment boundary: a fold through @main -/

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After each of the five host stretches in turn; the last is region 0's entry. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, each output's write-backs
    folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents, region 1's entry). -/
abbrev V6 : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references (region 1's exit contents). -/
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ### The arguments end as launched: no host operation and no region writes one (a region reads it through an
    input window or bypasses it), so the fold at an argument's buffer walks back to the launch memory -/

/-- A buffer none of the five host stretches writes holds at region 0's entry what it held at launch. -/
theorem W5_of (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m ρ c (Proc.devRef .tc r) = m ((c : Thread nD τ).loc r) :=
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := (W6_arr m ρ c 0).trans (((dat0 (V5 m ρ) c).arrAt_in 0 rfl _).trans (A_eq0 (V5 m ρ) c 0))
    _ = m ((c : Thread nD τ).loc main_arg0) := W5_of m ρ c main_arg0 (by decide) (by decide) (by decide) (by decide) (by decide)
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = m ((c : Thread nD τ).loc main_arg1) := W5_of m ρ c main_arg1 (by decide) (by decide) (by decide) (by decide) (by decide)
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := (W6_arr m ρ c 3).trans (((dat0 (V5 m ρ) c).arrAt_in 3 rfl _).trans (A_eq0 (V5 m ρ) c 3))
    _ = m ((c : Thread nD τ).loc main_arg2) := W5_of m ρ c main_arg2 (by decide) (by decide) (by decide) (by decide) (by decide)
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = m ((c : Thread nD τ).loc main_arg3) := W5_of m ρ c main_arg3 (by decide) (by decide) (by decide) (by decide) (by decide)
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = m ((c : Thread nD τ).loc main_arg4) := W5_of m ρ c main_arg4 (by decide) (by decide) (by decide) (by decide) (by decide)
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = m ((c : Thread nD τ).loc main_arg5) := W5_of m ρ c main_arg5 (by decide) (by decide) (by decide) (by decide) (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-! ## The regions as segments -/

-- the library's region lemma is stated over the pinned configuration `pin pcs a p`, which is this region's by definition
set_option backward.isDefEq.respectTransparency.types false in
/-- Region 0 over the thread state: entered from every unscoped buffer at `W5`, left at `W6`. Its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V5 m ρ) c).Φ 0 from rfl]
    refine BIBase.Entails.trans ?_ (hin0 (V5 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V5 m ρ) c).Φ (Fin.last cfg0.N) from rfl]
    refine BIBase.Entails.trans (hout0 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's region lemma is stated over the pinned configuration `pin pcs a p`, which is this region's by definition
set_option backward.isDefEq.respectTransparency.types false in
/-- Region 1 over the thread state: entered from every unscoped buffer at `W6`, left at `W7`. Its arrays split
    out of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 7 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ) ]
/-- @main is the run of the segments. -/
theorem main_run (c : Dev nD) : main (F := F) c = Pipeline.Seg.run (segs m ρ) := (main_chain c).trans (by chain_rfl)

-- the launch theorem's conclusion is this statement once the segments' definitions are opened
set_option backward.isDefEq.respectTransparency.types false in
/-- The run: at the compiled mesh, from any memory with zero counters, every weakly fair execution of @main on the
    TensorCores terminates, nothing faulting, and every final state has every unscoped buffer at the last boundary's
    contents `W7`. -/
theorem run : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- The frame: every argument array ends as launched, each read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run m ρ)

end Cert.KernelIdeal.Hand

end
-- ==== Proof.KernelIdeal.R1Value.lean ====
import proofs.«166066_j71159018160656_1_alg».proof.Proof.KernelIdeal.R1Frame
import Idealize.ShloMosaic.Lib.Pipeline.Value
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! # The second region's output array as one function of the region-entry contents

The normalisation kernel's body is pointwise over its row block and reads four whole one-row arrays, so the array its
write-backs leave is one function of the arrays the region finds, index by index. -/

theorem offsZero : (![0, 0] : Fin 2 → Nat) = fun _ => 0 := funext fun a => by fin_cases a <;> rfl

/-- The normalised array: at row `n`, column `q`: `((o n q − μ q) · rsqrt (v q + ε)) · g q + b q`. -/
def G1 (o : S50000x96.Idx → EReal) (μ v g b : S1x96.Idx → EReal) : S50000x96.Idx → EReal := fun i =>
  ((o i - μ (ix2 (0 : Fin 1) (i 1))) * Ideal.rsqrt (v (ix2 (0 : Fin 1) (i 1)) + Ideal.ofBits .f32 0x3727C5AC#32)) * g (ix2 (0 : Fin 1) (i 1))
    + b (ix2 (0 : Fin 1) (i 1))

theorem G1_apply (o : S50000x96.Idx → EReal) (μ v g b : S1x96.Idx → EReal) (n : Fin 50000) (q : Fin 96) :
    G1 o μ v g b (ix2 n q)
      = ((o (ix2 n q) - μ (ix2 (0 : Fin 1) q)) * Ideal.rsqrt (v (ix2 (0 : Fin 1) q) + Ideal.ofBits .f32 0x3727C5AC#32)) * g (ix2 (0 : Fin 1) q)
        + b (ix2 (0 : Fin 1) q) := rfl

/-- The body's payload at row `p`, column `q` of the block. -/
theorem bnPay_apply (x1 x2 x3 x4 : Vec Ideal S1x96 .f32) (x0 : Vec Ideal S5000x96 .f32) (p : Fin 5000) (q : Fin 96) :
    k1_pay1 x1 x2 x3 x4 x0 (ix2 p q)
      = ((x0 (ix2 p q) - x1 (ix2 (0 : Fin 1) q)) * Ideal.rsqrt (x2 (ix2 (0 : Fin 1) q) + Ideal.ofBits .f32 0x3727C5AC#32)) * x3 (ix2 (0 : Fin 1) q)
        + x4 (ix2 (0 : Fin 1) q) := by
  have hb : ∀ v : Vec Ideal S1x96 .f32, broadcastTo S5000x96 v broadcasts_S1x96_S5000x96 (ix2 p q) = v (ix2 (0 : Fin 1) q) :=
    fun v => broadcastTo_1b_ab_apply v broadcasts_S1x96_S5000x96 p q
  unfold k1_pay1
  simp only [shapeCast_self, addf_apply, mulf_apply, subf_apply, hb]
  rfl

/-- The payload of a block of `o` whose columns are the array's columns is that block of `G1`. -/
theorem bnPay_G1 (o : S50000x96.Idx → EReal) (μ v g b : S1x96.Idx → EReal) (emb : S5000x96.Idx → S50000x96.Idx)
    (hemb : ∀ j, (emb j 1).val = (j 1).val) :
    k1_pay1 (F := Ideal) μ v g b (fun j => o (emb j)) = fun j => G1 o μ v g b (emb j) := by
  funext j
  obtain ⟨p, q, rfl⟩ : ∃ (p : Fin 5000) (q : Fin 96), j = ix2 p q := ⟨j 0, j 1, eq_ix2 j⟩
  rw [bnPay_apply]
  have hq : (emb (ix2 p q) 1 : Fin 96) = q := Fin.ext (hemb (ix2 p q))
  unfold G1
  rw [hq]

variable (V : (c : Dev nD) → (b : Ref sig .tc) → Buf (Elt Ideal) ((c : Thread nD τ).loc b))

/-- The printed index maps, decided over the grid: the row-block windows are at block (t, 0), the one-row windows at
    block (0, 0). -/
theorem idx_facts1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Each one-row window's block is its whole array. -/
theorem iblk1_1 (c : Dev nD) (t : Fin cfg1.N) : (iblk1 V c 1 t : S1x96.Idx → EReal) = V c main_v73_1 := by
  obtain ⟨-, -, -, -, e0, e1, -⟩ := idx_facts1 t
  funext x; unfold iblk1; rw [View.read_apply]
  show (V c main_v73_1 : S1x96.Idx → EReal) (((cfg1.win 1).blk t).view.emb x) = (V c main_v73_1 : S1x96.Idx → EReal) x
  refine congrArg _ (funext fun a => Fin.ext ?_)
  match a with
  | ⟨0, _⟩ => show win1_1.index t (0 : Fin 2) * 1 + 1 * (x 0).val = (x 0).val; rw [e0]; omega
  | ⟨1, _⟩ => show win1_1.index t (1 : Fin 2) * 96 + 1 * (x 1).val = (x 1).val; rw [e1]; omega
theorem iblk1_2 (c : Dev nD) (t : Fin cfg1.N) : (iblk1 V c 2 t : S1x96.Idx → EReal) = V c main_v73_2 := by
  obtain ⟨-, -, -, -, -, -, e0, e1, -⟩ := idx_facts1 t
  funext x; unfold iblk1; rw [View.read_apply]
  show (V c main_v73_2 : S1x96.Idx → EReal) (((cfg1.win 2).blk t).view.emb x) = (V c main_v73_2 : S1x96.Idx → EReal) x
  refine congrArg _ (funext fun a => Fin.ext ?_)
  match a with
  | ⟨0, _⟩ => show win1_2.index t (0 : Fin 2) * 1 + 1 * (x 0).val = (x 0).val; rw [e0]; omega
  | ⟨1, _⟩ => show win1_2.index t (1 : Fin 2) * 96 + 1 * (x 1).val = (x 1).val; rw [e1]; omega
theorem iblk1_3 (c : Dev nD) (t : Fin cfg1.N) : (iblk1 V c 3 t : S1x96.Idx → EReal) = V c main_v71 := by
  obtain ⟨-, -, -, -, -, -, -, -, e0, e1, -⟩ := idx_facts1 t
  funext x; unfold iblk1; rw [View.read_apply]
  show (V c main_v71 : S1x96.Idx → EReal) (((cfg1.win 3).blk t).view.emb x) = (V c main_v71 : S1x96.Idx → EReal) x
  refine congrArg _ (funext fun a => Fin.ext ?_)
  match a with
  | ⟨0, _⟩ => show win1_3.index t (0 : Fin 2) * 1 + 1 * (x 0).val = (x 0).val; rw [e0]; omega
  | ⟨1, _⟩ => show win1_3.index t (1 : Fin 2) * 96 + 1 * (x 1).val = (x 1).val; rw [e1]; omega
theorem iblk1_4 (c : Dev nD) (t : Fin cfg1.N) : (iblk1 V c 4 t : S1x96.Idx → EReal) = V c main_v72 := by
  obtain ⟨-, -, -, -, -, -, -, -, -, -, e0, e1⟩ := idx_facts1 t
  funext x; unfold iblk1; rw [View.read_apply]
  show (V c main_v72 : S1x96.Idx → EReal) (((cfg1.win 4).blk t).view.emb x) = (V c main_v72 : S1x96.Idx → EReal) x
  refine congrArg _ (funext fun a => Fin.ext ?_)
  match a with
  | ⟨0, _⟩ => show win1_4.index t (0 : Fin 2) * 1 + 1 * (x 0).val = (x 0).val; rw [e0]; omega
  | ⟨1, _⟩ => show win1_4.index t (1 : Fin 2) * 96 + 1 * (x 1).val = (x 1).val; rw [e1]; omega

/-- The input row block at point `t` sits where the output's does. -/
theorem iblk1_0 (c : Dev nD) (t : Fin cfg1.N) :
    (iblk1 V c 0 t : S5000x96.Idx → EReal) = fun j => (V c main_v73_0 : S50000x96.Idx → EReal) (((cfg1.win 5).blk t).view.emb j) := by
  obtain ⟨e0, e1, e2, e3, -⟩ := idx_facts1 t
  funext j; unfold iblk1; rw [View.read_apply]
  show (V c main_v73_0 : S50000x96.Idx → EReal) (((cfg1.win 0).blk t).view.emb j) = (V c main_v73_0 : S50000x96.Idx → EReal) (((cfg1.win 5).blk t).view.emb j)
  refine congrArg _ (funext fun a => Fin.ext ?_)
  match a with
  | ⟨0, _⟩ => show win1_0.index t (0 : Fin 2) * 5000 + 1 * (j 0).val = win1_5.index t (0 : Fin 2) * 5000 + 1 * (j 0).val; rw [e0, e2]
  | ⟨1, _⟩ => show win1_0.index t (1 : Fin 2) * 96 + 1 * (j 1).val = win1_5.index t (1 : Fin 2) * 96 + 1 * (j 1).val; rw [e1, e3]

/-- What point `t` writes back is block `t` of `G1` of the arrays as the region finds them. -/
theorem flushed1_5_eq (c : Dev nD) (t : Fin cfg1.N) :
    (dat1 V c).flushed 5 t = ((cfg1.win 5).blk t).view.read (Elt Ideal)
      (G1 (V c main_v73_0) (V c main_v73_1) (V c main_v73_2) (V c main_v71) (V c main_v72)) := by
  show (cfg1.win 5).cut (grid1.coords t) ((dat1 V c).after 5 t) = _
  rw [after1_5]
  unfold out1_5
  rw [View.canon_unit_zero offsZero]
  simp only [View.ld_unit_zero (S := S5000x96) offsZero, View.ld_unit_zero (S := S1x96) offsZero]
  rw [iblk1_1 V c t, iblk1_2 V c t, iblk1_3 V c t, iblk1_4 V c t, iblk1_0 V c t]
  obtain ⟨e0, e1, -⟩ := idx_facts1 t
  funext j
  show k1_pay1 (V c main_v73_1) (V c main_v73_2) (V c main_v71) (V c main_v72)
      (fun j => (V c main_v73_0 : S50000x96.Idx → EReal) (((cfg1.win 5).blk t).view.emb j)) j
    = G1 (V c main_v73_0) (V c main_v73_1) (V c main_v73_2) (V c main_v71) (V c main_v72) (((cfg1.win 5).blk t).view.emb j)
  refine congrFun (bnPay_G1 (V c main_v73_0) (V c main_v73_1) (V c main_v73_2) (V c main_v71) (V c main_v72)
    (((cfg1.win 5).blk t).view.emb) fun y => ?_) j
  show win1_5.index t (1 : Fin 2) * 96 + 1 * (y 1).val = (y 1).val
  rw [e1]; omega

/-- An index of the array is in point `t`'s block iff each coordinate is in the block's range on its axis. -/
theorem mem_blk1_5 (t : Fin cfg1.N) (i : S50000x96.Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v74).slice (win1_5.rect t)).set ↔ _
  rw [View.set_slice_whole, Rect.mem_set_unit]
  exact Iff.rfl

/-- Row `r` of the array is in the block of point `r / 5000`, which writes back. -/
theorem covered1_5 (i : S50000x96.Idx) : ∃ t : Fin cfg1.N, (cfg1.win 5).flush t = true ∧ i ∈ ((cfg1.win 5).blk t).view.set := by
  have hi0 : (i 0).val < 50000 := (i 0).isLt
  have hi1 : (i 1).val < 96 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, -⟩ := idx_facts1 t
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 96 ≤ (i 1).val ∧ (i 1).val < win1_5.index t (1 : Fin 2) * 96 + 96; rw [e1]; omega

/-- The output array after the region: `G1` of the arrays the region finds. -/
theorem final1_5 (c : Dev nD) : (dat1 V c).arrAt 5 cfg1.N
    = G1 (V c main_v73_0) (V c main_v73_1) (V c main_v73_2) (V c main_v71) (V c main_v72) :=
  (dat1 V c).arrAt_eq_of_cover 5 (G1 (V c main_v73_0) (V c main_v73_1) (V c main_v73_2) (V c main_v71) (V c main_v72))
    (fun t _ => flushed1_5_eq V c t) covered1_5

end Cert.KernelIdeal.Hand

end
-- ==== Proof.KernelIdeal.R0Pieces.lean ====
import proofs.«166066_j71159018160656_1_alg».proof.Proof.KernelIdeal.R0Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The values of the pieces the runs of region 0 found -/

theorem hz2 : (![0, 0] : Fin 2 → Nat) = fun _ => 0 := funext fun a => by fin_cases a <;> rfl

/-- The three weight slabs: rows `k` of the whole [3,96,96] block, as [1,96,96] blocks. -/
def slab0 (x3 : Vec F S3x96x96 .f32) : Vec F S1x96x96 .f32 := View.ld x3 (Rect.unit (s := S3x96x96) ![0, 0, 0] S1x96x96.size inb_S3x96x96_S1x96x96_0_0_0)
def slab1 (x3 : Vec F S3x96x96 .f32) : Vec F S1x96x96 .f32 := View.ld x3 (Rect.unit (s := S3x96x96) ![1, 0, 0] S1x96x96.size inb_S3x96x96_S1x96x96_1_0_0)
def slab2 (x3 : Vec F S3x96x96 .f32) : Vec F S1x96x96 .f32 := View.ld x3 (Rect.unit (s := S3x96x96) ![2, 0, 0] S1x96x96.size inb_S3x96x96_S1x96x96_2_0_0)

theorem slab0_apply (x3 : Vec F S3x96x96 .f32) (a b : Fin 96) : slab0 x3 (ix3 (0 : Fin 1) a b) = x3 (ix3 (0 : Fin 3) a b) := by
  unfold slab0
  refine congrArg x3 (funext fun d => Fin.ext ?_)
  match d with
  | ⟨0, _⟩ => rfl
  | ⟨1, _⟩ => exact (Nat.zero_add _).trans (Nat.one_mul _)
  | ⟨2, _⟩ => exact (Nat.zero_add _).trans (Nat.one_mul _)
theorem slab1_apply (x3 : Vec F S3x96x96 .f32) (a b : Fin 96) : slab1 x3 (ix3 (0 : Fin 1) a b) = x3 (ix3 (1 : Fin 3) a b) := by
  unfold slab1
  refine congrArg x3 (funext fun d => Fin.ext ?_)
  match d with
  | ⟨0, _⟩ => rfl
  | ⟨1, _⟩ => exact (Nat.zero_add _).trans (Nat.one_mul _)
  | ⟨2, _⟩ => exact (Nat.zero_add _).trans (Nat.one_mul _)
theorem slab2_apply (x3 : Vec F S3x96x96 .f32) (a b : Fin 96) : slab2 x3 (ix3 (0 : Fin 1) a b) = x3 (ix3 (2 : Fin 3) a b) := by
  unfold slab2
  refine congrArg x3 (funext fun d => Fin.ext ?_)
  match d with
  | ⟨0, _⟩ => rfl
  | ⟨1, _⟩ => exact (Nat.zero_add _).trans (Nat.one_mul _)
  | ⟨2, _⟩ => exact (Nat.zero_add _).trans (Nat.one_mul _)

/-- The block result: the three products summed, plus the bias row. -/
def blkOf (x0 x1 x2 : Vec F S5000x96 .f32) (x3 : Vec F S3x96x96 .f32) (x4 : Vec F S1x96 .f32) : FVec F S5000x96 .f32 :=
  k0_pay7 x0 x1 x2 (slab0 x3) (slab1 x3) (slab2 x3) x4

/-! ## Case A (the first point) -/

theorem out0_A_5_eq (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) :
    out0_A_5 c i arg1 harg1 arg2 harg2 arg3 harg3 arg4 harg4 arg5 harg5 arg6 harg6 arg7 harg7 arg8 harg8 arg9 harg9 arg10 harg10 hc0 hc1 x0 x1 x2 x3 x4 = (blkOf x0 x1 x2 x3 x4) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero (S := S5000x96) hz2]
  simp only [View.readAt_eq_ld, harg1.read_unread, harg2.read_unread, harg3.read_unread, harg4.read_unread, harg5.read_unread, harg9.read_unread, harg10.read_unread, View.ld_unit_zero (S := S5000x96) hz2, View.ld_unit_zero (S := S1x96) hz2]
  rfl

theorem sout0_A_0_eq (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) :
    sout0_A_0 c i arg1 harg1 arg2 harg2 arg3 harg3 arg4 harg4 arg5 harg5 arg6 harg6 arg7 harg7 arg8 harg8 arg9 harg9 arg10 harg10 hc0 hc1 x0 x1 x2 x3 x4 = k0_pay1 (blkOf x0 x1 x2 x3 x4) k0_pay5 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x96) hz2, View.readCov_unit_zero (S := S1x96) _ hz2]
  simp only [View.readAt_eq_ld, harg1.read_unread, harg2.read_unread, harg3.read_unread, harg4.read_unread, harg5.read_unread, harg9.read_unread, harg10.read_unread, View.ld_unit_zero (S := S5000x96) hz2, View.ld_unit_zero (S := S1x96) hz2]
  rfl

theorem sout0_A_1_eq (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : cond0_0 i) (hc1 : ¬cond0_1 i)
    (x0 : Vec F S5000x96 .f32) (x1 : Vec F S5000x96 .f32) (x2 : Vec F S5000x96 .f32) (x3 : Vec F S3x96x96 .f32) (x4 : Vec F S1x96 .f32) :
    sout0_A_1 c i arg1 harg1 arg2 harg2 arg3 harg3 arg4 harg4 arg5 harg5 arg6 harg6 arg7 harg7 arg8 harg8 arg9 harg9 arg10 harg10 hc0 hc1 x0 x1 x2 x3 x4 = k0_pay2 (blkOf x0 x1 x2 x3 x4) k0_pay6 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x96) hz2, View.readCov_unit_zero (S := S1x96) _ hz2]
  simp only [View.readAt_eq_ld, harg1.read_unread, harg2.read_unread, harg3.read_unread, harg4.read_unread, harg5.read_unread, harg9.read_unread, harg10.read_unread, View.ld_unit_zero (S := S5000x96) hz2, View.ld_unit_zero (S := S1x96) hz2]
  rfl

/-! ## Case B (an inner point) -/

theorem out0_B_5_eq (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    out0_B_5 c i arg1 harg1 arg2 harg2 arg3 harg3 arg4 harg4 arg5 harg5 arg6 harg6 arg7 harg7 arg8 harg8 arg9 harg9 arg10 harg10 hc0 hc1 x0 x1 x2 x3 x4 xs0 xs1 = (blkOf x0 x1 x2 x3 x4) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S5000x96) hz2]
  simp only [View.readAt_eq_ld, harg1.read_unread, harg2.read_unread, harg3.read_unread, harg4.read_unread, harg5.read_unread, harg9.read_unread, harg10.read_unread, View.ld_unit_zero (S := S5000x96) hz2, View.ld_unit_zero (S := S1x96) hz2]
  rfl

theorem sout0_B_0_eq (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    sout0_B_0 c i arg1 harg1 arg2 harg2 arg3 harg3 arg4 harg4 arg5 harg5 arg6 harg6 arg7 harg7 arg8 harg8 arg9 harg9 arg10 harg10 hc0 hc1 x0 x1 x2 x3 x4 xs0 xs1 = k0_pay1 (blkOf x0 x1 x2 x3 x4) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1x96) hz2]
  simp only [View.readAt_eq_ld, harg1.read_unread, harg2.read_unread, harg3.read_unread, harg4.read_unread, harg5.read_unread, harg9.read_unread, harg10.read_unread, View.ld_unit_zero (S := S5000x96) hz2, View.ld_unit_zero (S := S1x96) hz2]
  rfl

theorem sout0_B_1_eq (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : ¬cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    sout0_B_1 c i arg1 harg1 arg2 harg2 arg3 harg3 arg4 harg4 arg5 harg5 arg6 harg6 arg7 harg7 arg8 harg8 arg9 harg9 arg10 harg10 hc0 hc1 x0 x1 x2 x3 x4 xs0 xs1 = k0_pay2 (blkOf x0 x1 x2 x3 x4) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1x96) hz2]
  simp only [View.readAt_eq_ld, harg1.read_unread, harg2.read_unread, harg3.read_unread, harg4.read_unread, harg5.read_unread, harg9.read_unread, harg10.read_unread, View.ld_unit_zero (S := S5000x96) hz2, View.ld_unit_zero (S := S1x96) hz2]
  rfl

/-! ## Case C (the last point) -/

theorem out0_C_5_eq (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    out0_C_5 c i arg1 harg1 arg2 harg2 arg3 harg3 arg4 harg4 arg5 harg5 arg6 harg6 arg7 harg7 arg8 harg8 arg9 harg9 arg10 harg10 hc0 hc1 x0 x1 x2 x3 x4 xs0 xs1 = (blkOf x0 x1 x2 x3 x4) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S5000x96) hz2]
  simp only [View.readAt_eq_ld, harg1.read_unread, harg2.read_unread, harg3.read_unread, harg4.read_unread, harg5.read_unread, harg9.read_unread, harg10.read_unread, View.ld_unit_zero (S := S5000x96) hz2, View.ld_unit_zero (S := S1x96) hz2]
  rfl

theorem sout0_C_0_eq (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    sout0_C_0 c i arg1 harg1 arg2 harg2 arg3 harg3 arg4 harg4 arg5 harg5 arg6 harg6 arg7 harg7 arg8 harg8 arg9 harg9 arg10 harg10 hc0 hc1 x0 x1 x2 x3 x4 xs0 xs1 = k0_pay1 (blkOf x0 x1 x2 x3 x4) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1x96) hz2]
  simp only [View.readAt_eq_ld, harg1.read_unread, harg2.read_unread, harg3.read_unread, harg4.read_unread, harg5.read_unread, harg9.read_unread, harg10.read_unread, View.ld_unit_zero (S := S5000x96) hz2, View.ld_unit_zero (S := S1x96) hz2]
  rfl

theorem sout0_C_1_eq (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    sout0_C_1 c i arg1 harg1 arg2 harg2 arg3 harg3 arg4 harg4 arg5 harg5 arg6 harg6 arg7 harg7 arg8 harg8 arg9 harg9 arg10 harg10 hc0 hc1 x0 x1 x2 x3 x4 xs0 xs1 = k0_pay2 (blkOf x0 x1 x2 x3 x4) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1x96) hz2]
  simp only [View.readAt_eq_ld, harg1.read_unread, harg2.read_unread, harg3.read_unread, harg4.read_unread, harg5.read_unread, harg9.read_unread, harg10.read_unread, View.ld_unit_zero (S := S5000x96) hz2, View.ld_unit_zero (S := S1x96) hz2]
  rfl

theorem out0_C_6_eq (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    out0_C_6 c i arg1 harg1 arg2 harg2 arg3 harg3 arg4 harg4 arg5 harg5 arg6 harg6 arg7 harg7 arg8 harg8 arg9 harg9 arg10 harg10 hc0 hc1 x0 x1 x2 x3 x4 xs0 xs1 = k0_pay3 (k0_pay1 (blkOf x0 x1 x2 x3 x4) xs0) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1x96) hz2, View.readCov_unit_zero (S := S1x96) _ hz2]
  simp only [View.readAt_eq_ld, harg1.read_unread, harg2.read_unread, harg3.read_unread, harg4.read_unread, harg5.read_unread, harg9.read_unread, harg10.read_unread, View.ld_unit_zero (S := S5000x96) hz2, View.ld_unit_zero (S := S1x96) hz2]
  rfl

theorem out0_C_7_eq (c : Dev nD) (i : grid0.Coords) (arg1 : Memref sig .tc .vmem S5000x96 .f32) (harg1 : arg1.IsWhole) (arg2 : Memref sig .tc .vmem S5000x96 .f32) (harg2 : arg2.IsWhole) (arg3 : Memref sig .tc .vmem S5000x96 .f32) (harg3 : arg3.IsWhole) (arg4 : Memref sig .tc .vmem S3x96x96 .f32) (harg4 : arg4.IsWhole) (arg5 : Memref sig .tc .vmem S1x96 .f32) (harg5 : arg5.IsWhole) (arg6 : Memref sig .tc .vmem S5000x96 .f32) (harg6 : arg6.IsWhole) (arg7 : Memref sig .tc .vmem S1x96 .f32) (harg7 : arg7.IsWhole) (arg8 : Memref sig .tc .vmem S1x96 .f32) (harg8 : arg8.IsWhole) (arg9 : Memref sig .tc .vmem S1x96 .f32) (harg9 : arg9.IsWhole) (arg10 : Memref sig .tc .vmem S1x96 .f32) (harg10 : arg10.IsWhole) (hc0 : ¬cond0_0 i) (hc1 : cond0_1 i)
    (x0 : Vec F S5000x96 .f32) (x1 : Vec F S5000x96 .f32) (x2 : Vec F S5000x96 .f32) (x3 : Vec F S3x96x96 .f32) (x4 : Vec F S1x96 .f32) (xs0 : Vec F S1x96 .f32) (xs1 : Vec F S1x96 .f32) :
    out0_C_7 c i arg1 harg1 arg2 harg2 arg3 harg3 arg4 harg4 arg5 harg5 arg6 harg6 arg7 harg7 arg8 harg8 arg9 harg9 arg10 harg10 hc0 hc1 x0 x1 x2 x3 x4 xs0 xs1 = k0_pay4 (k0_pay1 (blkOf x0 x1 x2 x3 x4) xs0) (k0_pay2 (blkOf x0 x1 x2 x3 x4) xs1) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1x96) hz2, View.readCov_unit_zero (S := S1x96) _ hz2, View.readCov_unit_zero (S := S1x96) _ hz2]
  simp only [View.readAt_eq_ld, harg1.read_unread, harg2.read_unread, harg3.read_unread, harg4.read_unread, harg5.read_unread, harg9.read_unread, harg10.read_unread, View.ld_unit_zero (S := S5000x96) hz2, View.ld_unit_zero (S := S1x96) hz2]
  rfl

/-! ## Point by point -/

/-- The block result at point `t`, from the windows' blocks there. -/
def blkP (c : Dev nD) (t : Fin cfg0.N) : FVec F S5000x96 .f32 :=
  k0_pay7 (iblk0 V c 0 t) (iblk0 V c 1 t) (iblk0 V c 2 t) (slab0 (iblk0 V c 3 t)) (slab1 (iblk0 V c 3 t)) (slab2 (iblk0 V c 3 t)) (iblk0 V c 4 t)

/-- Output 5 after point `t` is the block result, in every case. -/
theorem out5_eq (c : Dev nD) (t : Fin cfg0.N) : (outsAt0 V c t.val t.isLt).1 = blkP V c t := by
  have hN : t.val < 10 := lt_of_lt_of_eq t.isLt (show cfg0.N = 10 from N_0)
  by_cases h0 : t.val = 0
  · have h1 : ¬t.val = 9 := by omega
    rw [outsAt0_A V c t h0 h1]; dsimp only
    exact out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)
  · by_cases h1 : t.val = 9
    · rw [outsAt0_C V c t h0 h1]; dsimp only
      exact out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]; dsimp only
      exact out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- The running sum after the first point. -/
theorem acc0_first (c : Dev nD) (t : Fin cfg0.N) (h : t.val = 0) : (outsAt0 V c t.val t.isLt).2.2.2.1 = k0_pay1 (blkP V c t) k0_pay5 := by
  have h0 := h
  have h1 : ¬t.val = 9 := by omega
  rw [outsAt0_A V c t h0 h1]; dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)

/-- The running sum after a later point, over what the point before left. -/
theorem acc0_next (c : Dev nD) (t : Fin cfg0.N) (h : t.val ≠ 0) :
    (outsAt0 V c t.val t.isLt).2.2.2.1 = k0_pay1 (blkP V c t) (outsAt0 V c (t.val - 1) (Nat.lt_of_le_of_lt (Nat.sub_le _ _) t.isLt)).2.2.2.1 := by
  have h0 : ¬t.val = 0 := h
  by_cases h1 : t.val = 9
  · rw [outsAt0_C V c t h0 h1]; dsimp only
    exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]; dsimp only
    exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- The running sum of squares after the first point. -/
theorem acc1_first (c : Dev nD) (t : Fin cfg0.N) (h : t.val = 0) : (outsAt0 V c t.val t.isLt).2.2.2.2 = k0_pay2 (blkP V c t) k0_pay6 := by
  have h0 := h
  have h1 : ¬t.val = 9 := by omega
  rw [outsAt0_A V c t h0 h1]; dsimp only
  exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)

/-- The running sum of squares after a later point, over what the point before left. -/
theorem acc1_next (c : Dev nD) (t : Fin cfg0.N) (h : t.val ≠ 0) :
    (outsAt0 V c t.val t.isLt).2.2.2.2 = k0_pay2 (blkP V c t) (outsAt0 V c (t.val - 1) (Nat.lt_of_le_of_lt (Nat.sub_le _ _) t.isLt)).2.2.2.2 := by
  have h0 : ¬t.val = 0 := h
  by_cases h1 : t.val = 9
  · rw [outsAt0_C V c t h0 h1]; dsimp only
    exact sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]; dsimp only
    exact sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- The mean the last point stores, from the running sum it has just completed. -/
theorem out6_last (c : Dev nD) (t : Fin cfg0.N) (h : t.val = 9) :
    (outsAt0 V c t.val t.isLt).2.1 = k0_pay3 (outsAt0 V c t.val t.isLt).2.2.2.1 := by
  have h1 := h
  have h0 : ¬t.val = 0 := by omega
  rw [outsAt0_C V c t h0 h1]; dsimp only
  exact (out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (congrArg k0_pay3 (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm)

/-- The variance the last point stores, from the two running sums it has just completed. -/
theorem out7_last (c : Dev nD) (t : Fin cfg0.N) (h : t.val = 9) :
    (outsAt0 V c t.val t.isLt).2.2.1 = k0_pay4 (outsAt0 V c t.val t.isLt).2.2.2.1 (outsAt0 V c t.val t.isLt).2.2.2.2 := by
  have h1 := h
  have h0 : ¬t.val = 0 := by omega
  rw [outsAt0_C V c t h0 h1]; dsimp only
  exact (out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    ((congrArg (fun z => k0_pay4 z _) (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm).trans
      (congrArg (fun z => k0_pay4 _ z) (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm))

end Cert.KernelIdeal.Hand

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.KernelIdeal.R0Pay.lean ====
import proofs.«166066_j71159018160656_1_alg».proof.Proof.Gen.KernelIdeal.Skeleton
import proofs.«166066_j71159018160656_1_alg».proof.Proof.LibMatmulRows
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.Hand

open Cert.KernelIdeal Cert.KernelIdeal.Gen
open Idealize.ShloMosaic Idealize.ShloMosaic.ValueIdx

/-! # The first region's payloads, read at an index (at the ideal values)

Each stored value of the combine-and-statistics kernel as a closed expression of the loaded blocks: the three matrix
products against the three weight slabs plus the bias row; the running column sums of the block and of its squares; and
at the last point the mean and the variance from the two running sums. -/

/-- The printed dimension numbers are the plain "rows by contraction, times contraction by columns" ones. -/
theorem dot_eq_plain : dot_S5000x96_S96x96_S5000x96_1_0_0_1_n_n = DotDims.plain 5000 96 96 := rfl

/-- One product of a row block (rounded to the narrow format, which is exact at the ideal values) against one weight
    slab, into zero: entry (p, q) is row p of the block against column q of the slab. -/
theorem slabProduct_apply (x : Vec Ideal S5000x96 .f32) (w : Vec Ideal S1x96x96 .f32) (p : Fin 5000) (q : Fin 96) :
    matmul (F := Ideal) dot_S5000x96_S96x96_S5000x96_1_0_0_1_n_n none (truncf .bf16 x bitsLt_bf16_f32)
        (truncf .bf16 (shapeCast S96x96 w shapeCasts_S1x96x96_S96x96) bitsLt_bf16_f32) (constant S5000x96 .f32 0x00000000#32) (ix2 p q)
      = ∑ k : Fin 96, x (ix2 p k) * w (ix3 (0 : Fin 1) k q) := by
  rw [dot_eq_plain]
  refine (Cert.Bridge.matmul_plain_zero_apply 5000 96 96 none _ _ p q).trans ?_
  refine Finset.sum_congr rfl fun k _ => ?_
  show x (ix2 p k) * shapeCast S96x96 w shapeCasts_S1x96x96_S96x96 (ix2 k q) = _
  rw [shapeCast_1ab_ab_apply]

/-- The block the kernel stores: the three products added in order, plus the bias row. -/
theorem pay7_apply (x0 x1 x2 : Vec Ideal S5000x96 .f32) (w0 w1 w2 : Vec Ideal S1x96x96 .f32) (x4 : Vec Ideal S1x96 .f32)
    (p : Fin 5000) (q : Fin 96) :
    k0_pay7 x0 x1 x2 w0 w1 w2 x4 (ix2 p q)
      = ((∑ k : Fin 96, x0 (ix2 p k) * w0 (ix3 (0 : Fin 1) k q) + ∑ k : Fin 96, x1 (ix2 p k) * w1 (ix3 (0 : Fin 1) k q))
          + ∑ k : Fin 96, x2 (ix2 p k) * w2 (ix3 (0 : Fin 1) k q)) + x4 (ix2 (0 : Fin 1) q) := by
  unfold k0_pay7
  simp only [shapeCast_self]
  refine (addf_apply _ _ _).trans ?_
  refine congrArg₂ (· + ·) ?_ (broadcastTo_1b_ab_apply x4 broadcasts_S1x96_S5000x96 p q)
  refine (addf_apply _ _ _).trans ?_
  refine congrArg₂ (· + ·) ?_ (slabProduct_apply x2 w2 p q)
  refine (addf_apply _ _ _).trans ?_
  exact congrArg₂ (· + ·) (slabProduct_apply x0 w0 p q) (slabProduct_apply x1 w1 p q)

/-- The source index over column `q` with row `r` inserted is (r, q). -/
theorem lift_col (q : Fin 96) (r : Fin 5000) : reduces_S5000x96_S96.lift (ix1 q) r = ix2 r q := by
  funext c; apply Fin.ext
  match c with
  | ⟨0, _⟩ => rfl
  | ⟨1, _⟩ => rfl

/-- The column sums of a block, cast to one row: at column `q` the sum over the block's rows. -/
theorem colSum_apply (P : FVec Ideal S5000x96 .f32) (hacc : (0x00000000#32 : BitVec 32) = 0x00000000#32) (q : Fin 96) :
    shapeCast S1x96 (multiReduction .add [0] S96 P 0x00000000#32 reduces_S5000x96_S96 (.inl rfl) hacc) shapeCasts_S96_S1x96 (ix2 (0 : Fin 1) q)
      = ∑ r : Fin 5000, P (ix2 r q) := by
  refine (shapeCast_a_1a_apply _ shapeCasts_S96_S1x96 (0 : Fin 1) q).trans ?_
  refine (Ideal.multiReduction_add_single P 0x00000000#32 reduces_S5000x96_S96 (.inl rfl) hacc (ix1 q)).trans ?_
  show ∑ r : Fin 5000, P (reduces_S5000x96_S96.lift (ix1 q) r) = _
  exact Finset.sum_congr rfl fun r _ => congrArg P (lift_col q r)

/-- The running sum after a point: what it held plus the block's column sums. -/
theorem pay1_apply (P : FVec Ideal S5000x96 .f32) (s : Vec Ideal S1x96 .f32) (q : Fin 96) :
    k0_pay1 P s (ix2 (0 : Fin 1) q) = s (ix2 (0 : Fin 1) q) + ∑ r : Fin 5000, P (ix2 r q) := by
  unfold k0_pay1
  simp only [shapeCast_self]
  refine (addf_apply _ _ _).trans ?_
  exact congrArg (s (ix2 (0 : Fin 1) q) + ·) (colSum_apply P rfl q)

/-- The running sum of squares after a point: what it held plus the column sums of the block's squares. -/
theorem pay2_apply (P : FVec Ideal S5000x96 .f32) (s : Vec Ideal S1x96 .f32) (q : Fin 96) :
    k0_pay2 P s (ix2 (0 : Fin 1) q) = s (ix2 (0 : Fin 1) q) + ∑ r : Fin 5000, P (ix2 r q) * P (ix2 r q) := by
  unfold k0_pay2
  simp only [shapeCast_self]
  refine (addf_apply _ _ _).trans ?_
  exact congrArg (s (ix2 (0 : Fin 1) q) + ·) (colSum_apply (mulf P P) rfl q)

/-- The named reciprocal of the row count denotes the rational 1/50000 at the ideal values. -/
theorem inv_rows : Named.named (F := Ideal) Cert.KernelIdeal.κ "inv_50000" (φ := .f32) 0x37A7C5AC#32 = ((1 / 50000 : ℝ) : EReal) :=
  IdealRules.named_const.ideal_named_scalar _ _ _ _ rfl

/-- The mean: the running sum times the reciprocal of the row count. -/
theorem pay3_apply (s : Vec Ideal S1x96 .f32) (q : Fin 96) :
    k0_pay3 s (ix2 (0 : Fin 1) q) = s (ix2 (0 : Fin 1) q) * ((1 / 50000 : ℝ) : EReal) := by
  unfold k0_pay3
  refine (mulf_apply _ _ _).trans ?_
  exact congrArg (s (ix2 (0 : Fin 1) q) * ·) inv_rows

/-- The variance: the mean of the squares minus the square of the mean. -/
theorem pay4_apply (s1 s2 : Vec Ideal S1x96 .f32) (q : Fin 96) :
    k0_pay4 s1 s2 (ix2 (0 : Fin 1) q)
      = s2 (ix2 (0 : Fin 1) q) * ((1 / 50000 : ℝ) : EReal)
        - (s1 (ix2 (0 : Fin 1) q) * ((1 / 50000 : ℝ) : EReal)) * (s1 (ix2 (0 : Fin 1) q) * ((1 / 50000 : ℝ) : EReal)) := by
  unfold k0_pay4
  refine (subf_apply _ _ _).trans ?_
  refine congrArg₂ (· - ·) ?_ ?_
  · refine (mulf_apply _ _ _).trans ?_
    exact congrArg (s2 (ix2 (0 : Fin 1) q) * ·) inv_rows
  · refine (mulf_apply _ _ _).trans ?_
    exact congrArg₂ (· * ·) (pay3_apply s1 q) (pay3_apply s1 q)

/-- The two running sums start at zero. -/
theorem pay5_apply (q : Fin 96) : k0_pay5 (F := Ideal) (ix2 (0 : Fin 1) q) = 0 := by
  unfold k0_pay5
  simp only [shapeCast_self]
  exact Ideal.ofBits_zero_f32
theorem pay6_apply (q : Fin 96) : k0_pay6 (F := Ideal) (ix2 (0 : Fin 1) q) = 0 := by
  unfold k0_pay6
  simp only [shapeCast_self]
  exact Ideal.ofBits_zero_f32

end Cert.KernelIdeal.Hand

end
-- ==== Proof.KernelIdeal.R0Value.lean ====
import proofs.«166066_j71159018160656_1_alg».proof.Proof.KernelIdeal.R0Frame
import proofs.«166066_j71159018160656_1_alg».proof.Proof.KernelIdeal.R0Pieces
import proofs.«166066_j71159018160656_1_alg».proof.Proof.KernelIdeal.R0Pay
import Idealize.ShloMosaic.Lib.Pipeline.Value
import Idealize.ShloMosaic.Lib.ValueLayout
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! # The first region's first output array as one function of the region-entry contents

Every point stores the three matrix products of its row blocks against the three weight slabs plus the bias row, and
entry (p, q) of a product reads only row p of the block: so the array the write-backs leave is one function of the arrays
the region finds, index by index. -/

/-- The combined array: at row `n`, column `q`, the three products added in order, plus the bias. -/
def outK (x t1 t2 : S50000x96.Idx → EReal) (W : S3x96x96.Idx → EReal) (b70 : S1x96.Idx → EReal) : S50000x96.Idx → EReal := fun i =>
  ((∑ k : Fin 96, x (ix2 (i 0) k) * W (ix3 (0 : Fin 3) k (i 1)) + ∑ k : Fin 96, t1 (ix2 (i 0) k) * W (ix3 (1 : Fin 3) k (i 1)))
      + ∑ k : Fin 96, t2 (ix2 (i 0) k) * W (ix3 (2 : Fin 3) k (i 1))) + b70 (ix2 (0 : Fin 1) (i 1))

theorem outK_apply (x t1 t2 : S50000x96.Idx → EReal) (W : S3x96x96.Idx → EReal) (b70 : S1x96.Idx → EReal) (n : Fin 50000) (q : Fin 96) :
    outK x t1 t2 W b70 (ix2 n q)
      = ((∑ k : Fin 96, x (ix2 n k) * W (ix3 (0 : Fin 3) k q) + ∑ k : Fin 96, t1 (ix2 n k) * W (ix3 (1 : Fin 3) k q))
          + ∑ k : Fin 96, t2 (ix2 n k) * W (ix3 (2 : Fin 3) k q)) + b70 (ix2 (0 : Fin 1) q) := rfl

/-- The payload of row blocks of `x`, `t1`, `t2` that sit at rows `R …` of their arrays, all columns, is that block of
    `outK`. -/
theorem pay7_outK (x t1 t2 : S50000x96.Idx → EReal) (W : S3x96x96.Idx → EReal) (b70 : S1x96.Idx → EReal)
    (emb : S5000x96.Idx → S50000x96.Idx) (R : ℕ) (h0 : ∀ j, (emb j 0).val = R + (j 0).val) (h1 : ∀ j, (emb j 1).val = (j 1).val) :
    k0_pay7 (F := Ideal) (fun j => x (emb j)) (fun j => t1 (emb j)) (fun j => t2 (emb j)) (slab0 W) (slab1 W) (slab2 W) b70
      = fun j => outK x t1 t2 W b70 (emb j) := by
  funext j
  obtain ⟨p, q, rfl⟩ : ∃ (p : Fin 5000) (q : Fin 96), j = ix2 p q := ⟨j 0, j 1, eq_ix2 j⟩
  rw [pay7_apply]
  have hq : (emb (ix2 p q) 1 : Fin 96) = q := Fin.ext (h1 (ix2 p q))
  obtain ⟨n, hn⟩ : ∃ n : Fin 50000, (emb (ix2 p q) 0 : Fin 50000) = n := ⟨_, rfl⟩
  have hrow : ∀ k : Fin 96, emb (ix2 p k) = ix2 n k := fun k => funext fun a => Fin.ext (by
    match a with
    | ⟨0, _⟩ => exact ((h0 (ix2 p k)).trans (h0 (ix2 p q)).symm).trans (congrArg Fin.val hn)
    | ⟨1, _⟩ => exact h1 (ix2 p k))
  unfold outK
  rw [hq, hn]
  simp only [hrow, slab0_apply, slab1_apply, slab2_apply]

variable (V : (c : Dev nD) → (b : Ref sig .tc) → Buf (Elt Ideal) ((c : Thread nD τ).loc b))

/-- The printed index maps, decided over the grid: the row-block windows are at block (t, 0), the whole-array windows at
    block zero. -/
theorem idx_facts0 : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

/-- Each input row block at point `t` sits where the output's does. -/
theorem iblk0_0 (c : Dev nD) (t : Fin cfg0.N) :
    (iblk0 V c 0 t : S5000x96.Idx → EReal) = fun j => (V c main_arg0 : S50000x96.Idx → EReal) (((cfg0.win 5).blk t).view.emb j) := by
  have e := idx_facts0 t
  funext j; unfold iblk0; rw [View.read_apply]
  show (V c main_arg0 : S50000x96.Idx → EReal) (((cfg0.win 0).blk t).view.emb j) = (V c main_arg0 : S50000x96.Idx → EReal) (((cfg0.win 5).blk t).view.emb j)
  refine congrArg _ (funext fun a => Fin.ext ?_)
  match a with
  | ⟨0, _⟩ => show win0_0.index t (0 : Fin 2) * 5000 + 1 * (j 0).val = win0_5.index t (0 : Fin 2) * 5000 + 1 * (j 0).val; omega
  | ⟨1, _⟩ => show win0_0.index t (1 : Fin 2) * 96 + 1 * (j 1).val = win0_5.index t (1 : Fin 2) * 96 + 1 * (j 1).val; omega
theorem iblk0_1 (c : Dev nD) (t : Fin cfg0.N) :
    (iblk0 V c 1 t : S5000x96.Idx → EReal) = fun j => (V c main_v53 : S50000x96.Idx → EReal) (((cfg0.win 5).blk t).view.emb j) := by
  have e := idx_facts0 t
  funext j; unfold iblk0; rw [View.read_apply]
  show (V c main_v53 : S50000x96.Idx → EReal) (((cfg0.win 1).blk t).view.emb j) = (V c main_v53 : S50000x96.Idx → EReal) (((cfg0.win 5).blk t).view.emb j)
  refine congrArg _ (funext fun a => Fin.ext ?_)
  match a with
  | ⟨0, _⟩ => show win0_1.index t (0 : Fin 2) * 5000 + 1 * (j 0).val = win0_5.index t (0 : Fin 2) * 5000 + 1 * (j 0).val; omega
  | ⟨1, _⟩ => show win0_1.index t (1 : Fin 2) * 96 + 1 * (j 1).val = win0_5.index t (1 : Fin 2) * 96 + 1 * (j 1).val; omega
theorem iblk0_2 (c : Dev nD) (t : Fin cfg0.N) :
    (iblk0 V c 2 t : S5000x96.Idx → EReal) = fun j => (V c main_v69 : S50000x96.Idx → EReal) (((cfg0.win 5).blk t).view.emb j) := by
  have e := idx_facts0 t
  funext j; unfold iblk0; rw [View.read_apply]
  show (V c main_v69 : S50000x96.Idx → EReal) (((cfg0.win 2).blk t).view.emb j) = (V c main_v69 : S50000x96.Idx → EReal) (((cfg0.win 5).blk t).view.emb j)
  refine congrArg _ (funext fun a => Fin.ext ?_)
  match a with
  | ⟨0, _⟩ => show win0_2.index t (0 : Fin 2) * 5000 + 1 * (j 0).val = win0_5.index t (0 : Fin 2) * 5000 + 1 * (j 0).val; omega
  | ⟨1, _⟩ => show win0_2.index t (1 : Fin 2) * 96 + 1 * (j 1).val = win0_5.index t (1 : Fin 2) * 96 + 1 * (j 1).val; omega

/-- The weights' window holds the whole weight array, the bias window the whole bias row. -/
theorem iblk0_3 (c : Dev nD) (t : Fin cfg0.N) : (iblk0 V c 3 t : S3x96x96.Idx → EReal) = V c main_arg2 := by
  have e := idx_facts0 t
  funext x; unfold iblk0; rw [View.read_apply]
  show (V c main_arg2 : S3x96x96.Idx → EReal) (((cfg0.win 3).blk t).view.emb x) = (V c main_arg2 : S3x96x96.Idx → EReal) x
  refine congrArg _ (funext fun a => Fin.ext ?_)
  match a with
  | ⟨0, _⟩ => show win0_3.index t (0 : Fin 3) * 3 + 1 * (x 0).val = (x 0).val; omega
  | ⟨1, _⟩ => show win0_3.index t (1 : Fin 3) * 96 + 1 * (x 1).val = (x 1).val; omega
  | ⟨2, _⟩ => show win0_3.index t (2 : Fin 3) * 96 + 1 * (x 2).val = (x 2).val; omega
theorem iblk0_4 (c : Dev nD) (t : Fin cfg0.N) : (iblk0 V c 4 t : S1x96.Idx → EReal) = V c main_v70 := by
  have e := idx_facts0 t
  funext x; unfold iblk0; rw [View.read_apply]
  show (V c main_v70 : S1x96.Idx → EReal) (((cfg0.win 4).blk t).view.emb x) = (V c main_v70 : S1x96.Idx → EReal) x
  refine congrArg _ (funext fun a => Fin.ext ?_)
  match a with
  | ⟨0, _⟩ => show win0_4.index t (0 : Fin 2) * 1 + 1 * (x 0).val = (x 0).val; omega
  | ⟨1, _⟩ => show win0_4.index t (1 : Fin 2) * 96 + 1 * (x 1).val = (x 1).val; omega

/-- What point `t` computes is block `t` of `outK` of the arrays as the region finds them. -/
theorem blkP_eq (c : Dev nD) (t : Fin cfg0.N) :
    blkP V c t = fun j => outK (V c main_arg0) (V c main_v53) (V c main_v69) (V c main_arg2) (V c main_v70) (((cfg0.win 5).blk t).view.emb j) := by
  have e := idx_facts0 t
  unfold blkP
  rw [iblk0_0 V c t, iblk0_1 V c t, iblk0_2 V c t, iblk0_3 V c t, iblk0_4 V c t]
  refine pay7_outK (V c main_arg0) (V c main_v53) (V c main_v69) (V c main_arg2) (V c main_v70) (((cfg0.win 5).blk t).view.emb)
    (5000 * t.val) (fun y => ?_) (fun y => ?_)
  · show win0_5.index t (0 : Fin 2) * 5000 + 1 * (y 0).val = 5000 * t.val + (y 0).val; omega
  · show win0_5.index t (1 : Fin 2) * 96 + 1 * (y 1).val = (y 1).val; omega

/-- What point `t` writes back is that block. -/
theorem flushed0_5_eq (c : Dev nD) (t : Fin cfg0.N) :
    (dat0 V c).flushed 5 t = ((cfg0.win 5).blk t).view.read (Elt Ideal)
      (outK (V c main_arg0) (V c main_v53) (V c main_v69) (V c main_arg2) (V c main_v70)) := by
  show (cfg0.win 5).cut (grid0.coords t) ((dat0 V c).after 5 t) = _
  rw [after0_5, out5_eq, blkP_eq]
  rfl

/-- An index of the array is in point `t`'s block iff each coordinate is in the block's range on its axis. -/
theorem mem_blk0_5 (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v73_0).slice (win0_5.rect t)).set ↔ _
  rw [View.set_slice_whole, Rect.mem_set_unit]
  exact Iff.rfl

/-- Row `n` of the array is in the block of point `n / 5000`, which writes back. -/
theorem covered0_5 (i : S50000x96.Idx) : ∃ t : Fin cfg0.N, (cfg0.win 5).flush t = true ∧ i ∈ ((cfg0.win 5).blk t).view.set := by
  have hi0 : (i 0).val < 50000 := (i 0).isLt
  have hi1 : (i 1).val < 96 := (i 1).isLt
  have hN : cfg0.N = 10 := N_0
  obtain ⟨t, ht⟩ : ∃ t : Fin cfg0.N, t.val = (i 0).val / 5000 := ⟨⟨(i 0).val / 5000, by rw [hN]; omega⟩, rfl⟩
  have e := idx_facts0 t
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 96 ≤ (i 1).val ∧ (i 1).val < win0_5.index t (1 : Fin 2) * 96 + 96; omega

/-- The first output array after the region: `outK` of the arrays the region finds. -/
theorem final0_5 (c : Dev nD) : (dat0 V c).arrAt 5 cfg0.N
    = outK (V c main_arg0) (V c main_v53) (V c main_v69) (V c main_arg2) (V c main_v70) :=
  (dat0 V c).arrAt_eq_of_cover 5 (outK (V c main_arg0) (V c main_v53) (V c main_v69) (V c main_arg2) (V c main_v70))
    (fun t _ => flushed0_5_eq V c t) covered0_5

/-- Block `t` of the final array is what point `t` computed. -/
theorem out_blk (c : Dev nD) (t : Fin cfg0.N) (r : Fin 5000) (q : Fin 96) :
    ((dat0 V c).arrAt 5 cfg0.N : S50000x96.Idx → EReal)
        (ix2 (⟨5000 * t.val + r.val, by have := t.isLt; have hN : cfg0.N = 10 := N_0; have := r.isLt; omega⟩ : Fin 50000) q)
      = blkP V c t (ix2 r q) := by
  have e := idx_facts0 t
  rw [final0_5 V c, blkP_eq V c t]
  refine congrArg _ (funext fun a => Fin.ext ?_)
  match a with
  | ⟨0, _⟩ => show 5000 * t.val + r.val = win0_5.index t (0 : Fin 2) * 5000 + 1 * r.val; omega
  | ⟨1, _⟩ => show q.val = win0_5.index t (1 : Fin 2) * 96 + 1 * q.val; omega

end Cert.KernelIdeal.Hand

end
-- ==== Proof.Spec.lean ====
import Idealize.ShloMosaic.PureOps.Ideal
import Idealize.ShloMosaic.Lib.ValueIdx

/-!
The kernel's arithmetic on the extended reals, column by column of a `[50000, 96]` array `o`:

* `sumK o q`: the column sum taken block by block, ten blocks of 5000 rows;
* `sqK o q`: the same for the squares;
* `meanK o q = sumK o q * (1/50000)`, `varK o q = sqK o q * (1/50000) - meanK o q * meanK o q`
  (the mean of the squares less the square of the mean);
* `bnK o μ v g b`: the normalisation `(o - μ) * (v + ε)^(-1/2) * g + b` at one entry.
-/

noncomputable section

namespace Cert.Spec

open Idealize.ShloMosaic Idealize.ShloMosaic.ValueIdx

/-- The shape `[50000, 96]`. -/
abbrev SN : Shape := ⟨2, ![50000, 96]⟩

/-- Row `r` of block `t` among ten blocks of 5000 rows. -/
def rowAt (t : Fin 10) (r : Fin 5000) : Fin 50000 := ⟨5000 * t.val + r.val, by omega⟩

/-- The column sum taken block by block. -/
def sumK (o : SN.Idx → EReal) (q : Fin 96) : EReal :=
  ∑ t : Fin 10, ∑ r : Fin 5000, o (ix2 (rowAt t r) q)

/-- The column sum of squares taken block by block. -/
def sqK (o : SN.Idx → EReal) (q : Fin 96) : EReal :=
  ∑ t : Fin 10, ∑ r : Fin 5000, o (ix2 (rowAt t r) q) * o (ix2 (rowAt t r) q)

/-- The column mean: the sum times the reciprocal of the row count. -/
def meanK (o : SN.Idx → EReal) (q : Fin 96) : EReal := sumK o q * ((1 / 50000 : ℝ) : EReal)

/-- The column variance: the mean of the squares less the square of the mean. -/
def varK (o : SN.Idx → EReal) (q : Fin 96) : EReal :=
  sqK o q * ((1 / 50000 : ℝ) : EReal) - meanK o q * meanK o q

/-- The normalisation at one entry. -/
def bnK (o : SN.Idx → EReal) (μ v g b : Fin 96 → EReal) (n : Fin 50000) (q : Fin 96) : EReal :=
  ((o (ix2 n q) - μ q) * Ideal.rsqrt (v q + Ideal.ofBits .f32 0x3727C5AC#32)) * g q + b q

end Cert.Spec

end
-- ==== Proof.KernelIdeal.R0Stats.lean ====
import proofs.«166066_j71159018160656_1_alg».proof.Proof.KernelIdeal.R0Frame
import proofs.«166066_j71159018160656_1_alg».proof.Proof.KernelIdeal.R0Pieces
import proofs.«166066_j71159018160656_1_alg».proof.Proof.KernelIdeal.R0Pay
import proofs.«166066_j71159018160656_1_alg».proof.Proof.Spec
import Idealize.ShloMosaic.Lib.Pipeline.Value
import Idealize.ShloMosaic.Lib.ValueLayout
import Idealize.ShloMosaic.Lib.Tactic

/-!
The statistics the first kernel leaves: the two one-row accumulators carried over the ten grid points hold, after
point `t`, the column sums and the column sums of squares of the blocks `0 … t` of the combined array; at the
last point the kernel stores the sum times `1/50000` as the mean and the sum of squares times `1/50000` less the
square of the mean as the variance, and these two rows are what the region leaves in its second and third outputs.
-/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The first region's grid has ten points. -/
theorem hN0 : cfg0.N = 10 := N_0

/-- The sum of column `q` over the rows of block `n` (zero past the last block). -/
def colBlk (O : S50000x96.Idx → EReal) (q : Fin 96) (n : ℕ) : EReal :=
  if h : n < 10 then ∑ r : Fin 5000, O (ix2 (Cert.Spec.rowAt ⟨n, h⟩ r) q) else 0

/-- The sum of the squares of column `q` over the rows of block `n` (zero past the last block). -/
def colBlkSq (O : S50000x96.Idx → EReal) (q : Fin 96) (n : ℕ) : EReal :=
  if h : n < 10 then ∑ r : Fin 5000, O (ix2 (Cert.Spec.rowAt ⟨n, h⟩ r) q) * O (ix2 (Cert.Spec.rowAt ⟨n, h⟩ r) q) else 0

/-- The block sums over the ten blocks are the column sum taken block by block. -/
theorem sum_colBlk (O : S50000x96.Idx → EReal) (q : Fin 96) :
    ∑ m ∈ Finset.range 10, colBlk O q m = Cert.Spec.sumK O q := by
  rw [Finset.sum_range]
  unfold Cert.Spec.sumK
  exact Finset.sum_congr rfl fun m _ => by unfold colBlk; rw [dif_pos m.isLt]

/-- Likewise for the squares. -/
theorem sum_colBlkSq (O : S50000x96.Idx → EReal) (q : Fin 96) :
    ∑ m ∈ Finset.range 10, colBlkSq O q m = Cert.Spec.sqK O q := by
  rw [Finset.sum_range]
  unfold Cert.Spec.sqK
  exact Finset.sum_congr rfl fun m _ => by unfold colBlkSq; rw [dif_pos m.isLt]

section Acc
variable (c : Dev nD) (O : S50000x96.Idx → EReal)
  (hO : ∀ (t : Fin cfg0.N) (r : Fin 5000) (q : Fin 96),
    O (ix2 (Cert.Spec.rowAt (Fin.cast hN0 t) r) q) = blkP V c t (ix2 r q))
include hO

/-- The column sum of the block computed at point `t`. -/
theorem colBlk_eq (q : Fin 96) (t : Fin cfg0.N) (n : ℕ) (ht : t.val = n) :
    colBlk O q n = ∑ r : Fin 5000, blkP V c t (ix2 r q) := by
  subst ht
  have h : t.val < 10 := lt_of_lt_of_eq t.isLt hN0
  unfold colBlk
  rw [dif_pos h]
  exact Finset.sum_congr rfl fun r _ => hO t r q

/-- The column sum of squares of the block computed at point `t`. -/
theorem colBlkSq_eq (q : Fin 96) (t : Fin cfg0.N) (n : ℕ) (ht : t.val = n) :
    colBlkSq O q n = ∑ r : Fin 5000, blkP V c t (ix2 r q) * blkP V c t (ix2 r q) := by
  subst ht
  have h : t.val < 10 := lt_of_lt_of_eq t.isLt hN0
  unfold colBlkSq
  rw [dif_pos h]
  exact Finset.sum_congr rfl fun r _ => by rw [← hO t r q]; rfl

/-- After point `t` the first accumulator holds the column sums of the blocks `0 … t`. -/
theorem acc0_eq (q : Fin 96) : ∀ (n : ℕ) (t : Fin cfg0.N), t.val = n →
    (outsAt0 V c t.val t.isLt).2.2.2.1 (ix2 (0 : Fin 1) q) = ∑ m ∈ Finset.range (n + 1), colBlk O q m := by
  intro n
  induction n with
  | zero =>
    intro t ht
    rw [acc0_first V c t ht, pay1_apply, pay5_apply, zero_add, Finset.sum_range_one]
    exact (colBlk_eq V c O hO q t 0 ht).symm
  | succ n ih =>
    intro t ht
    have hlt : t.val - 1 < cfg0.N := Nat.lt_of_le_of_lt (Nat.sub_le _ _) t.isLt
    rw [acc0_next V c t (by omega), pay1_apply, Finset.sum_range_succ, colBlk_eq V c O hO q t (n + 1) ht]
    exact congrArg (· + _) (ih ⟨t.val - 1, hlt⟩ (by show t.val - 1 = n; omega))

/-- After point `t` the second accumulator holds the column sums of squares of the blocks `0 … t`. -/
theorem acc1_eq (q : Fin 96) : ∀ (n : ℕ) (t : Fin cfg0.N), t.val = n →
    (outsAt0 V c t.val t.isLt).2.2.2.2 (ix2 (0 : Fin 1) q) = ∑ m ∈ Finset.range (n + 1), colBlkSq O q m := by
  intro n
  induction n with
  | zero =>
    intro t ht
    rw [acc1_first V c t ht, pay2_apply, pay6_apply, zero_add, Finset.sum_range_one]
    exact (colBlkSq_eq V c O hO q t 0 ht).symm
  | succ n ih =>
    intro t ht
    have hlt : t.val - 1 < cfg0.N := Nat.lt_of_le_of_lt (Nat.sub_le _ _) t.isLt
    rw [acc1_next V c t (by omega), pay2_apply, Finset.sum_range_succ, colBlkSq_eq V c O hO q t (n + 1) ht]
    exact congrArg (· + _) (ih ⟨t.val - 1, hlt⟩ (by show t.val - 1 = n; omega))

/-- After the last point the first accumulator holds the column sums. -/
theorem acc0_last (q : Fin 96) (t : Fin cfg0.N) (ht : t.val = 9) :
    (outsAt0 V c t.val t.isLt).2.2.2.1 (ix2 (0 : Fin 1) q) = Cert.Spec.sumK O q :=
  (acc0_eq V c O hO q 9 t ht).trans (sum_colBlk O q)

/-- After the last point the second accumulator holds the column sums of squares. -/
theorem acc1_last (q : Fin 96) (t : Fin cfg0.N) (ht : t.val = 9) :
    (outsAt0 V c t.val t.isLt).2.2.2.2 (ix2 (0 : Fin 1) q) = Cert.Spec.sqK O q :=
  (acc1_eq V c O hO q 9 t ht).trans (sum_colBlkSq O q)

/-- The mean row the last point stores. -/
theorem out6_apply (q : Fin 96) (t : Fin cfg0.N) (ht : t.val = 9) :
    (outsAt0 V c t.val t.isLt).2.1 (ix2 (0 : Fin 1) q) = Cert.Spec.meanK O q := by
  rw [out6_last V c t ht, pay3_apply, acc0_last V c O hO q t ht]
  rfl

/-- The variance row the last point stores. -/
theorem out7_apply (q : Fin 96) (t : Fin cfg0.N) (ht : t.val = 9) :
    (outsAt0 V c t.val t.isLt).2.2.1 (ix2 (0 : Fin 1) q) = Cert.Spec.varK O q := by
  rw [out7_last V c t ht, pay4_apply, acc0_last V c O hO q t ht, acc1_last V c O hO q t ht]
  rfl

end Acc

/-! ## The two one-row outputs after the region -/

/-- The one-row windows are at block (0, 0) at every point. -/
theorem idx_facts0_rows : ∀ t : Fin cfg0.N, win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- An index of the mean row is in point `t`'s block iff each coordinate is in the block's range on its axis. -/
theorem mem_blk0_6 (t : Fin cfg0.N) (i : S1x96.Idx) :
    i ∈ ((cfg0.win 6).blk t).view.set ↔ ∀ a : Fin 2, win0_6.index t a * S1x96.size a ≤ (i a).val ∧ (i a).val < win0_6.index t a * S1x96.size a + S1x96.size a := by
  show i ∈ ((View.whole main_v73_1).slice (win0_6.rect t)).set ↔ _
  rw [View.set_slice_whole, Rect.mem_set_unit]
  exact Iff.rfl

/-- The same for the variance row. -/
theorem mem_blk0_7 (t : Fin cfg0.N) (i : S1x96.Idx) :
    i ∈ ((cfg0.win 7).blk t).view.set ↔ ∀ a : Fin 2, win0_7.index t a * S1x96.size a ≤ (i a).val ∧ (i a).val < win0_7.index t a * S1x96.size a + S1x96.size a := by
  show i ∈ ((View.whole main_v73_2).slice (win0_7.rect t)).set ↔ _
  rw [View.set_slice_whole, Rect.mem_set_unit]
  exact Iff.rfl

/-- The last point's block of the mean row is the whole row, and the last point writes it back. -/
theorem covered0_6 (i : S1x96.Idx) : ∃ t : Fin cfg0.N, (cfg0.win 6).flush t = true ∧ i ∈ ((cfg0.win 6).blk t).view.set := by
  have hi0 : (i 0).val < 1 := (i 0).isLt
  have hi1 : (i 1).val < 96 := (i 1).isLt
  obtain ⟨t, ht⟩ : ∃ t : Fin cfg0.N, t.val = 9 := ⟨⟨9, by rw [hN0]; omega⟩, rfl⟩
  obtain ⟨e0, e1, -⟩ := idx_facts0_rows t
  refine ⟨t, (flush0_6 t).2 (by rw [ht]), ?_⟩
  rw [mem_blk0_6]
  intro a
  match a with
  | ⟨0, _⟩ => show win0_6.index t (0 : Fin 2) * 1 ≤ (i 0).val ∧ (i 0).val < win0_6.index t (0 : Fin 2) * 1 + 1; rw [e0]; omega
  | ⟨1, _⟩ => show win0_6.index t (1 : Fin 2) * 96 ≤ (i 1).val ∧ (i 1).val < win0_6.index t (1 : Fin 2) * 96 + 96; rw [e1]; omega

/-- The same for the variance row. -/
theorem covered0_7 (i : S1x96.Idx) : ∃ t : Fin cfg0.N, (cfg0.win 7).flush t = true ∧ i ∈ ((cfg0.win 7).blk t).view.set := by
  have hi0 : (i 0).val < 1 := (i 0).isLt
  have hi1 : (i 1).val < 96 := (i 1).isLt
  obtain ⟨t, ht⟩ : ∃ t : Fin cfg0.N, t.val = 9 := ⟨⟨9, by rw [hN0]; omega⟩, rfl⟩
  obtain ⟨-, -, e0, e1⟩ := idx_facts0_rows t
  refine ⟨t, (flush0_7 t).2 (by rw [ht]), ?_⟩
  rw [mem_blk0_7]
  intro a
  match a with
  | ⟨0, _⟩ => show win0_7.index t (0 : Fin 2) * 1 ≤ (i 0).val ∧ (i 0).val < win0_7.index t (0 : Fin 2) * 1 + 1; rw [e0]; omega
  | ⟨1, _⟩ => show win0_7.index t (1 : Fin 2) * 96 ≤ (i 1).val ∧ (i 1).val < win0_7.index t (1 : Fin 2) * 96 + 96; rw [e1]; omega

section Final
variable (c : Dev nD) (O : S50000x96.Idx → EReal)
  (hO : ∀ (t : Fin cfg0.N) (r : Fin 5000) (q : Fin 96),
    O (ix2 (Cert.Spec.rowAt (Fin.cast hN0 t) r) q) = blkP V c t (ix2 r q))
include hO

/-- What a writing point (the last) writes back into the mean row is the row of column means. -/
theorem flushed0_6_eq (t : Fin cfg0.N) (hf : (cfg0.win 6).flush t = true) :
    (dat0 V c).flushed 6 t = ((cfg0.win 6).blk t).view.read (Elt Ideal) (fun j : S1x96.Idx => Cert.Spec.meanK O (j 1)) := by
  have ht9 : t.val = 9 := by
    have h1 := (flush0_6 t).1 hf
    have h2 : t.val < 10 := lt_of_lt_of_eq t.isLt hN0
    omega
  show (cfg0.win 6).cut (grid0.coords t) ((dat0 V c).after 6 t) = _
  rw [after0_6]
  obtain ⟨e0, e1, -⟩ := idx_facts0_rows t
  refine funext fun (j : S1x96.Idx) => ?_
  obtain ⟨z, q, rfl⟩ : ∃ (z : Fin 1) (q : Fin 96), j = ix2 z q := ⟨j 0, j 1, eq_ix2 j⟩
  obtain rfl : z = 0 := Subsingleton.elim _ _
  show (outsAt0 V c t.val t.isLt).2.1 (ix2 (0 : Fin 1) q)
    = Cert.Spec.meanK O ((((cfg0.win 6).blk t).view.emb (ix2 (0 : Fin 1) q)) 1)
  have hq : ((((cfg0.win 6).blk t).view.emb (ix2 (0 : Fin 1) q)) 1 : Fin 96) = q :=
    Fin.ext (by show win0_6.index t (1 : Fin 2) * 96 + 1 * q.val = q.val; rw [e1]; omega)
  rw [hq]
  exact out6_apply V c O hO q t ht9

/-- What a writing point (the last) writes back into the variance row is the row of column variances. -/
theorem flushed0_7_eq (t : Fin cfg0.N) (hf : (cfg0.win 7).flush t = true) :
    (dat0 V c).flushed 7 t = ((cfg0.win 7).blk t).view.read (Elt Ideal) (fun j : S1x96.Idx => Cert.Spec.varK O (j 1)) := by
  have ht9 : t.val = 9 := by
    have h1 := (flush0_7 t).1 hf
    have h2 : t.val < 10 := lt_of_lt_of_eq t.isLt hN0
    omega
  show (cfg0.win 7).cut (grid0.coords t) ((dat0 V c).after 7 t) = _
  rw [after0_7]
  obtain ⟨-, -, e0, e1⟩ := idx_facts0_rows t
  refine funext fun (j : S1x96.Idx) => ?_
  obtain ⟨z, q, rfl⟩ : ∃ (z : Fin 1) (q : Fin 96), j = ix2 z q := ⟨j 0, j 1, eq_ix2 j⟩
  obtain rfl : z = 0 := Subsingleton.elim _ _
  show (outsAt0 V c t.val t.isLt).2.2.1 (ix2 (0 : Fin 1) q)
    = Cert.Spec.varK O ((((cfg0.win 7).blk t).view.emb (ix2 (0 : Fin 1) q)) 1)
  have hq : ((((cfg0.win 7).blk t).view.emb (ix2 (0 : Fin 1) q)) 1 : Fin 96) = q :=
    Fin.ext (by show win0_7.index t (1 : Fin 2) * 96 + 1 * q.val = q.val; rw [e1]; omega)
  rw [hq]
  exact out7_apply V c O hO q t ht9

/-- The mean row after the region: the column means of the combined array. -/
theorem final0_6 : (dat0 V c).arrAt 6 cfg0.N = fun j : S1x96.Idx => Cert.Spec.meanK O (j 1) :=
  (dat0 V c).arrAt_eq_of_cover 6 (fun j : S1x96.Idx => Cert.Spec.meanK O (j 1))
    (fun t hf => flushed0_6_eq V c O hO t hf) covered0_6

/-- The variance row after the region: the column variances of the combined array. -/
theorem final0_7 : (dat0 V c).arrAt 7 cfg0.N = fun j : S1x96.Idx => Cert.Spec.varK O (j 1) :=
  (dat0 V c).arrAt_eq_of_cover 7 (fun j : S1x96.Idx => Cert.Spec.varK O (j 1))
    (fun t hf => flushed0_7_eq V c O hO t hf) covered0_7

end Final

end Cert.KernelIdeal.Hand

end
-- ==== Proof.Ref.Stages.lean ====
import proofs.«166066_j71159018160656_1_alg».proof.ReferenceIdeal

/-!
The reference program's stages as functions of its argument arrays, each spelt with the operations the
program itself applies, so that the program's run reads back as their composition.

* `rowOf`, `colOf`: the two rows of the edge list, the sources and the targets of the edges.
* `normOf row col`: the edge weights of the scaled Laplacian `-D^(-1/2) A D^(-1/2)` with self loops removed:
  `w e = 1` when `row e ≠ col e` and `0` otherwise, `deg n = ∑ {e | row e = n} w e`,
  `dis n = deg n ^ (-1/2)` where `deg n > 0` and `0` elsewhere, `norm e = -dis (row e) * w e * dis (col e)`.
* `propOf norm row col h`: one propagation step, `(L h) n = ∑ {e | col e = n} norm e * h (row e)`.
* `tx1Of`, `tx2Of`: the Chebyshev terms `T₁ = L x` and `T₂ = 2 L T₁ - x`.
* `outOf`: the combination `x W₀ + T₁ W₁ + T₂ W₂ + bias`.
* `meanOf`, `varOf`: the column means and the (biased) column variances over the 50000 rows.
* `resultOf`: the normalisation `(o - mean) * (var + ε)^(-1/2) * γ + β`.
-/

noncomputable section

namespace Cert.ReferenceIdeal.Hand

open Idealize.ShloMosaic Cert.ReferenceIdeal

variable {F : FTy → Type} [FloatOps F] [Facts]
open Facts₀ Facts

/-- The contents of a buffer of shape `S` and element type `e`. -/
abbrev C (F : FTy → Type) (S : Shape) (e : EltTy) : Type := (⟨S, e⟩ : BufTy).Contents (Elt F)

/-- The edges' source nodes: row 0 of the edge list. -/
def rowOf (ei : C F S2x800000 .i32) : C F S800000 .i32 :=
  shapeCast S800000 (extractStridedSlice S1x800000 ![0, 0] ei slices_S2x800000_S1x800000_0_0) shapeCasts_S1x800000_S800000

/-- The edges' target nodes: row 1 of the edge list. -/
def colOf (ei : C F S2x800000 .i32) : C F S800000 .i32 :=
  shapeCast S800000 (extractStridedSlice S1x800000 ![1, 0] ei slices_S2x800000_S1x800000_1_0) shapeCasts_S1x800000_S800000

/-- A scalar zero laid over `[50000]`. -/
def zero50000 : C F S50000 .f32 := broadcastInDim S50000 ![] bcast_S_S50000 (constant S_ .f32 0x00000000#32)

/-- A scalar zero laid over `[50000, 96]`. -/
def zero50000x96 : C F S50000x96 .f32 := broadcastInDim S50000x96 ![] bcast_S_S50000x96 (constant S_ .f32 0x00000000#32)

/-- `1` on an edge between two different nodes, `0` on a self loop. -/
def wOf (row col : C F S800000 .i32) : C F S800000 .f32 :=
  select (cmpi .ne row col)
    (broadcastInDim S800000 ![] bcast_S_S800000 (constant S_ .f32 0x3F800000#32))
    (broadcastInDim S800000 ![] bcast_S_S800000 (constant S_ .f32 0x00000000#32))

/-- The weighted out-degree of every node: the edge weights summed by source node. -/
def degOf (row : C F S800000 .i32) (w : C F S800000 .f32) : C F S50000 .f32 :=
  Host.scatterAdd scatter_S50000_S800000x1_S800000_n_0_0_1 zero50000
    (broadcastInDim S800000x1 ![0] bcast_S800000_S800000x1_0 row) w

/-- `deg ^ (-1/2)` where the degree is positive, `0` elsewhere. -/
def disOf (deg : C F S50000 .f32) : C F S50000 .f32 :=
  select (cmpf .ogt deg zero50000)
    (Host.rsqrt (maximumf deg (broadcastInDim S50000 ![] bcast_S_S50000 (constant S_ .f32 0x2B8CBCCC#32))))
    zero50000

/-- A node index as a gather index: a negative index counts from the end. -/
def wrapOf (idx : C F S800000 .i32) : C F S800000x1 .i32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The edge weights `-dis (row e) * w e * dis (col e)`. -/
def normOf (row col : C F S800000 .i32) : C F S800000 .f32 :=
  mulf (mulf (Host.negf (Host.gather gather_S50000_S800000x1_S800000_n_0_n_n_0_1_1 (disOf (degOf row (wOf row col))) (wrapOf row))) (wOf row col))
    (Host.gather gather_S50000_S800000x1_S800000_n_0_n_n_0_1_1 (disOf (degOf row (wOf row col))) (wrapOf col))

/-- One propagation step: the weighted rows `norm e * h (row e)` summed by target node. -/
def propOf (norm : C F S800000 .f32) (row col : C F S800000 .i32) (h : C F S50000x96 .f32) : C F S50000x96 .f32 :=
  Host.scatterAdd scatter_S50000x96_S800000x1_S800000x96_1_0_0_1 zero50000x96
    (broadcastInDim S800000x1 ![0] bcast_S800000_S800000x1_0 col)
    (mulf (broadcastInDim S800000x96 ![0, 1] bcast_S800000x1_S800000x96_0_1 (broadcastInDim S800000x1 ![0] bcast_S800000_S800000x1_0 norm))
      (Host.gather gather_S50000x96_S800000x1_S800000x96_1_0_n_n_0_1_196 h (wrapOf row)))

/-- The first Chebyshev term `T₁ = L x`. -/
def tx1Of (x : C F S50000x96 .f32) (ei : C F S2x800000 .i32) : C F S50000x96 .f32 :=
  propOf (normOf (rowOf ei) (colOf ei)) (rowOf ei) (colOf ei) x

/-- The second Chebyshev term `T₂ = 2 L T₁ - x`. -/
def tx2Of (x : C F S50000x96 .f32) (ei : C F S2x800000 .i32) : C F S50000x96 .f32 :=
  subf (mulf (broadcastInDim S50000x96 ![] bcast_S_S50000x96 (constant S_ .f32 0x40000000#32))
    (propOf (normOf (rowOf ei) (colOf ei)) (rowOf ei) (colOf ei) (tx1Of x ei))) x

/-- The weight matrix of order 0. -/
def w0Of (W : C F S3x96x96 .f32) : C F S96x96 .f32 :=
  shapeCast S96x96 (extractStridedSlice S1x96x96 ![0, 0, 0] W slices_S3x96x96_S1x96x96_0_0_0) shapeCasts_S1x96x96_S96x96
/-- The weight matrix of order 1. -/
def w1Of (W : C F S3x96x96 .f32) : C F S96x96 .f32 :=
  shapeCast S96x96 (extractStridedSlice S1x96x96 ![1, 0, 0] W slices_S3x96x96_S1x96x96_1_0_0) shapeCasts_S1x96x96_S96x96
/-- The weight matrix of order 2. -/
def w2Of (W : C F S3x96x96 .f32) : C F S96x96 .f32 :=
  shapeCast S96x96 (extractStridedSlice S1x96x96 ![2, 0, 0] W slices_S3x96x96_S1x96x96_2_0_0) shapeCasts_S1x96x96_S96x96

/-- A `[96]` vector laid over the rows of `[50000, 96]`. -/
def rows (v : C F S96 .f32) : C F S50000x96 .f32 :=
  broadcastInDim S50000x96 ![0, 1] bcast_S1x96_S50000x96_0_1 (broadcastInDim S1x96 ![1] bcast_S96_S1x96_1 v)

/-- The combination `x W₀ + T₁ W₁ + T₂ W₂ + bias`. -/
def outOf (x t1 t2 : C F S50000x96 .f32) (W : C F S3x96x96 .f32) (bias : C F S96 .f32) : C F S50000x96 .f32 :=
  addf (addf (addf (Host.dotGeneral dot_S50000x96_S96x96_S50000x96_1_0_0_1_n_n none x (w0Of W))
      (Host.dotGeneral dot_S50000x96_S96x96_S50000x96_1_0_0_1_n_n none t1 (w1Of W)))
    (Host.dotGeneral dot_S50000x96_S96x96_S50000x96_1_0_0_1_n_n none t2 (w2Of W))) (rows bias)

/-- The column means: the column sums divided by 50000. -/
def meanOf (o : C F S50000x96 .f32) : C F S96 .f32 :=
  Host.divf (Host.reduceAdd o (constant S_ .f32 0x00000000#32) reducesTo_S50000x96_S96_d0 h_S_)
    (broadcastInDim S96 ![] bcast_S_S96 (constant S_ .f32 0x47435000#32))

/-- The column means as the variance's own computation spells them: kept as a `[1, 96]` row. -/
def meanRowOf (o : C F S50000x96 .f32) : C F S1x96 .f32 :=
  Host.divf (broadcastInDim S1x96 ![1] bcast_S96_S1x96_1 (Host.reduceAdd o (constant S_ .f32 0x00000000#32) reducesTo_S50000x96_S96_d0 h_S_))
    (broadcastInDim S1x96 ![] bcast_S_S1x96 (constant S_ .f32 0x47435000#32))

/-- The divisor of the variance: 50000 less the (zero) degrees of freedom. -/
def ddofOf : C F S_ .f32 :=
  subf (constant S_ .f32 0x47435000#32) (sitofp .f32 (constantI S_ 32 0#32))

/-- The column variances: the squared deviations from the column mean summed and divided by `50000 - 0`
    (selected over a not-a-number row by the test `50000 - 0 > 0`). -/
def varOf (o : C F S50000x96 .f32) : C F S96 .f32 :=
  select (broadcastInDim S96 ![] bcast_S_S96 (cmpf .ogt (ddofOf (F := F)) (constant S_ .f32 0x00000000#32)))
    (Host.divf
      (Host.reduceAdd
        (mulf (subf o (broadcastInDim S50000x96 ![0, 1] bcast_S1x96_S50000x96_0_1 (meanRowOf o)))
          (subf o (broadcastInDim S50000x96 ![0, 1] bcast_S1x96_S50000x96_0_1 (meanRowOf o))))
        (constant S_ .f32 0x00000000#32) reducesTo_S50000x96_S96_d0 h_S_)
      (broadcastInDim S96 ![] bcast_S_S96 (ddofOf (F := F))))
    (broadcastInDim S96 ![] bcast_S_S96 (constant S_ .f32 0x7FC00000#32))

/-- The normalisation `(o - mean) * (var + ε)^(-1/2) * γ + β`, column by column. -/
def resultOf (o : C F S50000x96 .f32) (gamma beta : C F S96 .f32) : C F S50000x96 .f32 :=
  addf (mulf (mulf (subf o (rows (meanOf o)))
      (rows (Host.rsqrt (addf (varOf o) (broadcastInDim S96 ![] bcast_S_S96 (constant S_ .f32 0x3727C5AC#32))))))
    (rows gamma)) (rows beta)

/-- The reference's result as a function of its six arguments. -/
def refResult (x : C F S50000x96 .f32) (ei : C F S2x800000 .i32) (W : C F S3x96x96 .f32) (bias gamma beta : C F S96 .f32) :
    C F S50000x96 .f32 :=
  resultOf (outOf x (tx1Of x ei) (tx2Of x ei) W bias) gamma beta

end Cert.ReferenceIdeal.Hand

end
-- ==== Proof.LibHostPieces.lean ====
/-
  Straight lines of host operations cut into pieces: a line run after another is their concatenation run as one, the
  buffer contents after a concatenation are the contents after the second piece from the contents after the first, and a
  property of every operation of two pieces holds of every operation of their concatenation.
-/
import Idealize.ShloMosaic.Lib.StableHlo.Run

noncomputable section

namespace Idealize.ShloMosaic.StableHlo

open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- The buffer contents after two pieces in a row: the second piece's fold over the first's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line, then a program that is itself a line: one line. -/
theorem seq_bind_eq (a R : List (HloOp τ sig Val)) (k : Prog (TpuEff nD τ sig Val Λ .tc) PUnit) (h : k = seq R) :
    (seq a >>= fun _ => k) = seq (a ++ R) := by rw [h, seq_append]

/-- What holds of every operation of two pieces holds of every operation of their concatenation. -/
theorem forall_mem_append {P : HloOp τ sig Val → Prop} {a b : List (HloOp τ sig Val)}
    (ha : ∀ op ∈ a, P op) (hb : ∀ op ∈ b, P op) : ∀ op ∈ a ++ b, P op :=
  fun op h => (List.mem_append.1 h).elim (ha op) (hb op)

end Idealize.ShloMosaic.StableHlo

end
-- ==== Proof.LibStack.lean ====
import Idealize.ShloMosaic.Lib.ValueIdx
import Idealize.ShloMosaic.Lib.ValueLayout
import Idealize.ShloMosaic.Lib.Pipeline.Value

/-!
Two vectors of length `n` stacked as the rows of a `[2, n]` matrix (`jnp.stack([r, c], axis = 0)`: each laid out as a
`[1, n]` row, the two rows concatenated) and read back row by row: row 0 is the first vector and row 1 the second.
-/

namespace Cert.Lib.Stack

open Idealize.ShloMosaic Idealize.ShloMosaic.ValueIdx

variable {α : Type} {n : ℕ}

/-- Row 0 of the stack of `r` and `c`, as a vector, is `r`. -/
theorem stack_row0 (r c : (⟨1, ![n]⟩ : Shape).Idx → α)
    (hb : (⟨1, ![n]⟩ : Shape).BroadcastsInDim ⟨2, ![1, n]⟩ (![1] : Fin 1 → Fin 2))
    (hc : Shape.Concatenates [(⟨2, ![1, n]⟩ : Shape), ⟨2, ![1, n]⟩] ⟨2, ![2, n]⟩ (0 : Fin 2))
    (hs : (⟨2, ![2, n]⟩ : Shape).Slices ![0, 0] ⟨2, ![1, n]⟩)
    (hsc : (⟨2, ![1, n]⟩ : Shape).ShapeCasts ⟨1, ![n]⟩) :
    shapeCast ⟨1, ![n]⟩ (extractStridedSlice ⟨2, ![1, n]⟩ ![0, 0]
      (concatenate ⟨2, ![2, n]⟩ (0 : Fin 2) [⟨⟨2, ![1, n]⟩, broadcastInDim ⟨2, ![1, n]⟩ ![1] hb r⟩,
        ⟨⟨2, ![1, n]⟩, broadcastInDim ⟨2, ![1, n]⟩ ![1] hb c⟩] hc) hs) hsc = r := by
  funext i
  obtain ⟨e, rfl⟩ : ∃ e : Fin n, i = ix1 e := ⟨i 0, eq_ix1 i⟩
  rw [shapeCast_1a_a_apply, slice2_axis0_apply 0 _ hs (0 : Fin 1) e (0 : Fin 2) rfl,
    concatenate_pair_apply_left (t := ⟨2, ![2, n]⟩) (s₁ := ⟨2, ![1, n]⟩) (s₂ := ⟨2, ![1, n]⟩) (0 : Fin 2) _ _ hc
      (ix2 (0 : Fin 2) e) rfl (ix2 (0 : Fin 1) e : (⟨2, ![1, n]⟩ : Shape).Idx)
      (fun b => by match b with | ⟨0, _⟩ => rfl | ⟨1, _⟩ => rfl),
    broadcastInDim_apply _ hb r _ (ix1 e) (fun a => by
      match a with
      | ⟨0, _⟩ =>
        by_cases h1 : (⟨1, ![n]⟩ : Shape).size ⟨0, Nat.one_pos⟩ = 1
        · rw [if_pos h1]; have : e.val < 1 := lt_of_lt_of_eq e.isLt h1; show e.val = 0; omega
        · rw [if_neg h1]; rfl)]

/-- Row 1 of the stack of `r` and `c`, as a vector, is `c`. -/
theorem stack_row1 (r c : (⟨1, ![n]⟩ : Shape).Idx → α)
    (hb : (⟨1, ![n]⟩ : Shape).BroadcastsInDim ⟨2, ![1, n]⟩ (![1] : Fin 1 → Fin 2))
    (hc : Shape.Concatenates [(⟨2, ![1, n]⟩ : Shape), ⟨2, ![1, n]⟩] ⟨2, ![2, n]⟩ (0 : Fin 2))
    (hs : (⟨2, ![2, n]⟩ : Shape).Slices ![1, 0] ⟨2, ![1, n]⟩)
    (hsc : (⟨2, ![1, n]⟩ : Shape).ShapeCasts ⟨1, ![n]⟩) :
    shapeCast ⟨1, ![n]⟩ (extractStridedSlice ⟨2, ![1, n]⟩ ![1, 0]
      (concatenate ⟨2, ![2, n]⟩ (0 : Fin 2) [⟨⟨2, ![1, n]⟩, broadcastInDim ⟨2, ![1, n]⟩ ![1] hb r⟩,
        ⟨⟨2, ![1, n]⟩, broadcastInDim ⟨2, ![1, n]⟩ ![1] hb c⟩] hc) hs) hsc = c := by
  funext i
  obtain ⟨e, rfl⟩ : ∃ e : Fin n, i = ix1 e := ⟨i 0, eq_ix1 i⟩
  rw [shapeCast_1a_a_apply, slice2_axis0_apply 1 _ hs (0 : Fin 1) e (1 : Fin 2) rfl,
    concatenate_pair_apply_right (t := ⟨2, ![2, n]⟩) (s₁ := ⟨2, ![1, n]⟩) (s₂ := ⟨2, ![1, n]⟩) (0 : Fin 2) _ _ hc
      (ix2 (1 : Fin 2) e) rfl rfl (ix2 (0 : Fin 1) e : (⟨2, ![1, n]⟩ : Shape).Idx)
      (fun b hb' => by match b with | ⟨0, _⟩ => exact absurd rfl hb' | ⟨1, _⟩ => rfl) rfl,
    broadcastInDim_apply _ hb c _ (ix1 e) (fun a => by
      match a with
      | ⟨0, _⟩ =>
        by_cases h1 : (⟨1, ![n]⟩ : Shape).size ⟨0, Nat.one_pos⟩ = 1
        · rw [if_pos h1]; have : e.val < 1 := lt_of_lt_of_eq e.isLt h1; show e.val = 0; omega
        · rw [if_neg h1]; rfl)]

end Cert.Lib.Stack
-- ==== Proof.KernelIdeal.HostK.lean ====
import proofs.«166066_j71159018160656_1_alg».proof.Proof.Gen.KernelIdeal.Launch
import proofs.«166066_j71159018160656_1_alg».proof.Proof.Gen.KernelIdeal.Regions
import proofs.«166066_j71159018160656_1_alg».proof.Proof.Gen.ReferenceIdeal
import proofs.«166066_j71159018160656_1_alg».proof.Proof.Ref.Stages
import proofs.«166066_j71159018160656_1_alg».proof.Proof.LibHostPieces
import proofs.«166066_j71159018160656_1_alg».proof.Proof.LibStack
import Idealize.ShloMosaic.Lib.StableHlo.Run

/-!
The host operations the kernel's program runs before its first kernel region, read back as functions of the argument
arrays. They are the reference's own stages: the Chebyshev terms `T₁ = L x` and `T₂ = 2 L T₁ - x` of the edge list's
scaled Laplacian. The one difference is in how the edge weights reach the edge list: the kernel's program first stacks
the list's two rows into a `[2, 800000]` matrix again and cuts its rows out; row 0 of the stack is the first row and
row 1 the second, so the weights are the reference's.
-/

noncomputable section

namespace Cert.KernelIdeal.Hand

open Idealize.ShloMosaic Idealize.ShloMosaic.TcCoe Idealize.SL.Sem Cert.KernelIdeal Cert.KernelIdeal.Gen
open Cert.ReferenceIdeal.Hand (C rowOf colOf normOf propOf tx1Of tx2Of)

variable {F : FTy → Type} [FloatOps F] [Named F]

/-- The reference's side conditions hold (its generated witness). -/
local instance : Cert.ReferenceIdeal.Facts := Cert.ReferenceIdeal.Gen.facts
local instance : Cert.KernelIdeal.Facts := Cert.KernelIdeal.Gen.facts

/-- The 74 host operations before the first kernel region, in one line. -/
abbrev hostAll : List (HloOp τ sig (Elt F)) := hostOps0 ++ (hostOps0_1 ++ (hostOps0_2 ++ (hostOps0_3 ++ hostOps0_4)))

/-- Running the five stretches one after the other is running the one line. -/
theorem after_hostAll (W : Valuation τ sig (Elt F)) :
    StableHlo.after hostOps0_4 (StableHlo.after hostOps0_3 (StableHlo.after hostOps0_2 (StableHlo.after hostOps0_1 (StableHlo.after hostOps0 W))))
      = StableHlo.after hostAll W := by
  simp only [hostAll, StableHlo.after_append]

/-- A buffer none of the host operations writes is left as it was. -/
theorem hostAll_keep (W : Valuation τ sig (Elt F)) (r : Ref sig .tc) (h0 : r ∉ hostOps0_W) (h1 : r ∉ hostOps0_1_W)
    (h2 : r ∉ hostOps0_2_W) (h3 : r ∉ hostOps0_3_W) (h4 : r ∉ hostOps0_4_W) :
    StableHlo.after hostAll W (Proc.devRef .tc r) = W (Proc.devRef .tc r) := by
  rw [← after_hostAll]
  exact (StableHlo.after_of_writes_sub hostOps0_4 _ hostOps0_4_writes h4).trans <|
    (StableHlo.after_of_writes_sub hostOps0_3 _ hostOps0_3_writes h3).trans <|
    (StableHlo.after_of_writes_sub hostOps0_2 _ hostOps0_2_writes h2).trans <|
    (StableHlo.after_of_writes_sub hostOps0_1 _ hostOps0_1_writes h1).trans <|
    StableHlo.after_of_writes_sub hostOps0 _ hostOps0_writes h0

/-- Row 0 of the stacked edge list, as the kernel's program cuts it out. -/
def kRow (ei : C F Cert.ReferenceIdeal.S2x800000 .i32) : C F Cert.ReferenceIdeal.S800000 .i32 :=
  shapeCast S800000 (extractStridedSlice S1x800000 ![0, 0]
    (concatenate S2x800000 0 [⟨S1x800000, broadcastInDim S1x800000 ![1] Facts₀.bcast_S800000_S1x800000_1 (rowOf ei)⟩,
      ⟨S1x800000, broadcastInDim S1x800000 ![1] Facts₀.bcast_S800000_S1x800000_1 (colOf ei)⟩] Facts₀.concatenates_S1x800000_S1x800000_S2x800000_d0)
    Facts₀.slices_S2x800000_S1x800000_0_0) Facts₀.shapeCasts_S1x800000_S800000

/-- Row 1 of the stacked edge list, as the kernel's program cuts it out. -/
def kCol (ei : C F Cert.ReferenceIdeal.S2x800000 .i32) : C F Cert.ReferenceIdeal.S800000 .i32 :=
  shapeCast S800000 (extractStridedSlice S1x800000 ![1, 0]
    (concatenate S2x800000 0 [⟨S1x800000, broadcastInDim S1x800000 ![1] Facts₀.bcast_S800000_S1x800000_1 (rowOf ei)⟩,
      ⟨S1x800000, broadcastInDim S1x800000 ![1] Facts₀.bcast_S800000_S1x800000_1 (colOf ei)⟩] Facts₀.concatenates_S1x800000_S1x800000_S2x800000_d0)
    Facts₀.slices_S2x800000_S1x800000_1_0) Facts₀.shapeCasts_S1x800000_S800000

theorem kRow_eq (ei : C F Cert.ReferenceIdeal.S2x800000 .i32) : kRow ei = rowOf ei :=
  Cert.Lib.Stack.stack_row0 (rowOf ei) (colOf ei) _ _ _ _

theorem kCol_eq (ei : C F Cert.ReferenceIdeal.S2x800000 .i32) : kCol ei = colOf ei :=
  Cert.Lib.Stack.stack_row1 (rowOf ei) (colOf ei) _ _ _ _

attribute [local irreducible] Host.scatterAdd Host.gather Host.scatter

set_option maxHeartbeats 4000000 in
/-- The first Chebyshev term, as the host operations leave it in `main_v53`. -/
theorem hostAll_v53 (W : Valuation τ sig (Elt F)) :
    StableHlo.after hostAll W (Proc.devRef .tc main_v53)
      = tx1Of (W (Proc.devRef .tc main_arg0)) (W (Proc.devRef .tc main_arg1)) := by
  have h : StableHlo.after hostAll W (Proc.devRef .tc main_v53)
      = propOf (normOf (kRow (W (Proc.devRef .tc main_arg1))) (kCol (W (Proc.devRef .tc main_arg1))))
          (rowOf (W (Proc.devRef .tc main_arg1))) (colOf (W (Proc.devRef .tc main_arg1))) (W (Proc.devRef .tc main_arg0)) := by
    simp only [hostAll, hostOps0, hostOps0_1, hostOps0_2, hostOps0_3, hostOps0_4, List.cons_append, List.nil_append]
    after_results_simp
    rfl
  rw [h, kRow_eq, kCol_eq]; rfl

end Cert.KernelIdeal.Hand

end
-- ==== Proof.KernelIdeal.HostK2.lean ====
import proofs.«166066_j71159018160656_1_alg».proof.Proof.KernelIdeal.HostK

/-!
More of the host operations before the first kernel region, read back as functions of the argument arrays.
-/

noncomputable section

namespace Cert.KernelIdeal.Hand

open Idealize.ShloMosaic Idealize.ShloMosaic.TcCoe Idealize.SL.Sem Cert.KernelIdeal Cert.KernelIdeal.Gen
open Cert.ReferenceIdeal.Hand (C rowOf colOf normOf propOf tx1Of tx2Of)

variable {F : FTy → Type} [FloatOps F] [Named F]

local instance : Cert.ReferenceIdeal.Facts := Cert.ReferenceIdeal.Gen.facts
local instance : Cert.KernelIdeal.Facts := Cert.KernelIdeal.Gen.facts

attribute [local irreducible] Host.scatterAdd Host.gather Host.scatter

set_option maxHeartbeats 4000000 in
/-- The second Chebyshev term, as the host operations leave it in `main_v69`. -/
theorem hostAll_v69 (W : Valuation τ sig (Elt F)) :
    StableHlo.after hostAll W (Proc.devRef .tc main_v69)
      = tx2Of (W (Proc.devRef .tc main_arg0)) (W (Proc.devRef .tc main_arg1)) := by
  have h : StableHlo.after hostAll W (Proc.devRef .tc main_v69)
      = subf (mulf (broadcastInDim S50000x96 ![] Facts₀.bcast_S_S50000x96 (constant S_ .f32 0x40000000#32))
          (propOf (normOf (kRow (W (Proc.devRef .tc main_arg1))) (kCol (W (Proc.devRef .tc main_arg1))))
            (rowOf (W (Proc.devRef .tc main_arg1))) (colOf (W (Proc.devRef .tc main_arg1)))
            (propOf (normOf (kRow (W (Proc.devRef .tc main_arg1))) (kCol (W (Proc.devRef .tc main_arg1))))
              (rowOf (W (Proc.devRef .tc main_arg1))) (colOf (W (Proc.devRef .tc main_arg1))) (W (Proc.devRef .tc main_arg0)))))
          (W (Proc.devRef .tc main_arg0)) := by
    simp only [hostAll, hostOps0, hostOps0_1, hostOps0_2, hostOps0_3, hostOps0_4, List.cons_append, List.nil_append]
    after_results_simp
    rfl
  rw [h, kRow_eq, kCol_eq]; rfl

end Cert.KernelIdeal.Hand

end
-- ==== Proof.KernelIdeal.HostK3.lean ====
import proofs.«166066_j71159018160656_1_alg».proof.Proof.KernelIdeal.HostK

/-!
More of the host operations before the first kernel region, read back as functions of the argument arrays.
-/

noncomputable section

namespace Cert.KernelIdeal.Hand

open Idealize.ShloMosaic Idealize.ShloMosaic.TcCoe Idealize.SL.Sem Cert.KernelIdeal Cert.KernelIdeal.Gen
open Cert.ReferenceIdeal.Hand (C rowOf colOf normOf propOf tx1Of tx2Of)

variable {F : FTy → Type} [FloatOps F] [Named F]

local instance : Cert.ReferenceIdeal.Facts := Cert.ReferenceIdeal.Gen.facts
local instance : Cert.KernelIdeal.Facts := Cert.KernelIdeal.Gen.facts

attribute [local irreducible] Host.scatterAdd Host.gather Host.scatter

set_option maxHeartbeats 4000000 in
/-- The bias vector as a `[1, 96]` row, as the host operations leave it in `main_v70`. -/
theorem hostAll_v70 (W : Valuation τ sig (Elt F)) :
    StableHlo.after hostAll W (Proc.devRef .tc main_v70)
      = shapeCast S1x96 (W (Proc.devRef .tc main_arg3)) Facts₀.shapeCasts_S96_S1x96 := by
  simp only [hostAll, hostOps0, hostOps0_1, hostOps0_2, hostOps0_3, hostOps0_4, List.cons_append, List.nil_append]
  after_results_simp
  rfl

set_option maxHeartbeats 4000000 in
/-- The scale vector as a `[1, 96]` row, as the host operations leave it in `main_v71`. -/
theorem hostAll_v71 (W : Valuation τ sig (Elt F)) :
    StableHlo.after hostAll W (Proc.devRef .tc main_v71)
      = shapeCast S1x96 (W (Proc.devRef .tc main_arg4)) Facts₀.shapeCasts_S96_S1x96 := by
  simp only [hostAll, hostOps0, hostOps0_1, hostOps0_2, hostOps0_3, hostOps0_4, List.cons_append, List.nil_append]
  after_results_simp
  rfl

set_option maxHeartbeats 4000000 in
/-- The shift vector as a `[1, 96]` row, as the host operations leave it in `main_v72`. -/
theorem hostAll_v72 (W : Valuation τ sig (Elt F)) :
    StableHlo.after hostAll W (Proc.devRef .tc main_v72)
      = shapeCast S1x96 (W (Proc.devRef .tc main_arg5)) Facts₀.shapeCasts_S96_S1x96 := by
  simp only [hostAll, hostOps0, hostOps0_1, hostOps0_2, hostOps0_3, hostOps0_4, List.cons_append, List.nil_append]
  after_results_simp
  rfl

end Cert.KernelIdeal.Hand

end
-- ==== Proof.Ref.Read.lean ====
import proofs.«166066_j71159018160656_1_alg».proof.Proof.Ref.Stages
import Idealize.ShloMosaic.Lib.IdealHost
import Idealize.ShloMosaic.Lib.StackMember
import Idealize.ShloMosaic.Lib.Pipeline.Value

/-!
The reference's last stages read at one index, at the extended reals.

* `outOf_apply`: entry `(n, q)` of `x W₀ + T₁ W₁ + T₂ W₂ + bias` is the three row-by-column sums plus `bias q`.
* `meanOf_apply`: the column mean is the column sum times `1 / 50000`.
* `varOf_apply`: the column variance is the sum of the squared deviations from the column mean times `1 / 50000`;
  the divisor `50000 - 0` is positive, so the select takes this branch.
* `resultOf_apply`: the normalisation at one entry.
-/

noncomputable section

namespace Cert.ReferenceIdeal.Hand

open Idealize.ShloMosaic Idealize.ShloMosaic.ValueIdx Cert.ReferenceIdeal

variable [Facts]
open Facts₀ Facts

/-! ## The constants -/

/-- The word `0x47435000` denotes the real `50000`. -/
theorem ofBits_50000 : Ideal.ofBits .f32 0x47435000#32 = ((50000 : ℝ) : EReal) := by
  simp [Ideal.ofBits, Ideal.ieee, -EReal.coe_mul]; norm_num

/-- The variance's divisor `50000 - 0` is the real `50000`. -/
theorem ddofOf_val : (ddofOf (F := Ideal)) ix0 = ((50000 : ℝ) : EReal) := by
  show Ideal.ofBits .f32 0x47435000#32 - (((0#32 : BitVec 32).toInt : ℝ) : EReal) = _
  rw [ofBits_50000]; simp

/-! ## Layout -/

/-- A `[96]` vector laid over the rows reads, at `(n, q)`, its entry `q`. -/
theorem rows_apply (v : C Ideal S96 .f32) (n : Fin 50000) (q : Fin 96) : rows v (ix2 n q) = v (ix1 q) := by
  unfold rows
  refine (broadcastInDim_apply ![0, 1] bcast_S1x96_S50000x96_0_1 _ (ix2 n q) (ix2 (0 : Fin 1) q) (by
    intro a
    match a with
    | ⟨0, _⟩ => rfl
    | ⟨1, _⟩ => rfl)).trans ?_
  exact broadcastInDim_apply ![1] bcast_S96_S1x96_1 v (ix2 (0 : Fin 1) q) (ix1 q) (by
    intro a
    match a with
    | ⟨0, _⟩ => rfl)

/-- A `[1, 96]` row laid over the rows reads, at `(n, q)`, its entry `(0, q)`. -/
theorem rowBcast_apply (v : C Ideal S1x96 .f32) (n : Fin 50000) (q : Fin 96) :
    broadcastInDim S50000x96 ![0, 1] bcast_S1x96_S50000x96_0_1 v (ix2 n q) = v (ix2 (0 : Fin 1) q) :=
  broadcastInDim_apply ![0, 1] bcast_S1x96_S50000x96_0_1 v (ix2 n q) (ix2 (0 : Fin 1) q) (by
    intro a
    match a with
    | ⟨0, _⟩ => rfl
    | ⟨1, _⟩ => rfl)

/-- The weight matrix of order 0 at `(k, q)`. -/
theorem w0Of_apply (W : C Ideal S3x96x96 .f32) (k q : Fin 96) : w0Of W (ix2 k q) = W (ix3 0 k q) := by
  unfold w0Of
  refine (shapeCast_apply _ shapeCasts_S1x96x96_S96x96 (ix2 k q) (ix3 (0 : Fin 1) k q) (by
    rw [Shape.rowMajor_val_three, Shape.rowMajor_val_two]
    show (0 * 96 + k.val) * 96 + q.val = k.val * 96 + q.val
    omega)).trans ?_
  exact extractStridedSlice_apply ![0, 0, 0] W slices_S3x96x96_S1x96x96_0_0_0 (ix3 (0 : Fin 1) k q) (ix3 (0 : Fin 3) k q) (by
    intro a
    match a with
    | ⟨0, _⟩ => show 0 = 0 + 0; omega
    | ⟨1, _⟩ => show k.val = 0 + k.val; omega
    | ⟨2, _⟩ => show q.val = 0 + q.val; omega)

/-- The weight matrix of order 1 at `(k, q)`. -/
theorem w1Of_apply (W : C Ideal S3x96x96 .f32) (k q : Fin 96) : w1Of W (ix2 k q) = W (ix3 1 k q) := by
  unfold w1Of
  refine (shapeCast_apply _ shapeCasts_S1x96x96_S96x96 (ix2 k q) (ix3 (0 : Fin 1) k q) (by
    rw [Shape.rowMajor_val_three, Shape.rowMajor_val_two]
    show (0 * 96 + k.val) * 96 + q.val = k.val * 96 + q.val
    omega)).trans ?_
  exact extractStridedSlice_apply ![1, 0, 0] W slices_S3x96x96_S1x96x96_1_0_0 (ix3 (0 : Fin 1) k q) (ix3 (1 : Fin 3) k q) (by
    intro a
    match a with
    | ⟨0, _⟩ => show 1 = 1 + 0; omega
    | ⟨1, _⟩ => show k.val = 0 + k.val; omega
    | ⟨2, _⟩ => show q.val = 0 + q.val; omega)

/-- The weight matrix of order 2 at `(k, q)`. -/
theorem w2Of_apply (W : C Ideal S3x96x96 .f32) (k q : Fin 96) : w2Of W (ix2 k q) = W (ix3 2 k q) := by
  unfold w2Of
  refine (shapeCast_apply _ shapeCasts_S1x96x96_S96x96 (ix2 k q) (ix3 (0 : Fin 1) k q) (by
    rw [Shape.rowMajor_val_three, Shape.rowMajor_val_two]
    show (0 * 96 + k.val) * 96 + q.val = k.val * 96 + q.val
    omega)).trans ?_
  exact extractStridedSlice_apply ![2, 0, 0] W slices_S3x96x96_S1x96x96_2_0_0 (ix3 (0 : Fin 1) k q) (ix3 (2 : Fin 3) k q) (by
    intro a
    match a with
    | ⟨0, _⟩ => show 2 = 2 + 0; omega
    | ⟨1, _⟩ => show k.val = 0 + k.val; omega
    | ⟨2, _⟩ => show q.val = 0 + q.val; omega)

/-! ## The two data-moving operations -/

/-- A product with a `[96, 96]` matrix, at `(n, q)`: the sum over the contracted coordinate. -/
theorem dot_apply (a : FVec Ideal S50000x96 .f32) (w : FVec Ideal S96x96 .f32) (n : Fin 50000) (q : Fin 96) :
    Host.dotGeneral (F := Ideal) dot_S50000x96_S96x96_S50000x96_1_0_0_1_n_n none a w (ix2 n q)
      = ∑ k : Fin 96, a (ix2 n k) * w (ix2 k q) :=
  StackMember.dotGeneral_plain_apply (m := 50000) (n := 96) (k := 96) none a w n q

/-- The column sums from the zero word: at `q`, the sum of column `q`. -/
theorem colSum_apply (x : C Ideal S50000x96 .f32) (q : Fin 96) :
    Host.reduceAdd x (constant (F := Ideal) S_ .f32 0x00000000#32) reducesTo_S50000x96_S96_d0 h_S_ (ix1 q)
      = ∑ n : Fin 50000, x (ix2 n q) := by
  have h' : S50000x96.ReducesTo [0] S96 := reducesTo_S50000x96_S96_d0
  have h : S50000x96.Reduces [0] S96 := ⟨h'.1, Nat.one_pos, h'.2⟩
  rw [hostReduceAdd_apply]
  refine (Ideal.hostReduceAdd_single h' h x _ (ix1 q)).trans ?_
  show Ideal.ofBits .f32 0x00000000#32 + _ = _
  rw [Ideal.ofBits_zero_f32, zero_add]
  refine Finset.sum_congr rfl fun k _ => congrArg x (funext fun a => Fin.ext ?_)
  match a with
  | ⟨0, _⟩ => rfl
  | ⟨1, _⟩ => rfl

/-! ## The stages -/

/-- Entry `(n, q)` of `x W₀ + T₁ W₁ + T₂ W₂ + bias`. -/
theorem outOf_apply (x t1 t2 : C Ideal S50000x96 .f32) (W : C Ideal S3x96x96 .f32) (bias : C Ideal S96 .f32)
    (n : Fin 50000) (q : Fin 96) :
    outOf x t1 t2 W bias (ix2 n q)
      = ((∑ k : Fin 96, x (ix2 n k) * W (ix3 0 k q) + ∑ k : Fin 96, t1 (ix2 n k) * W (ix3 1 k q))
          + ∑ k : Fin 96, t2 (ix2 n k) * W (ix3 2 k q)) + bias (ix1 q) := by
  unfold outOf
  show ((Host.dotGeneral dot_S50000x96_S96x96_S50000x96_1_0_0_1_n_n none x (w0Of W) (ix2 n q)
      + Host.dotGeneral dot_S50000x96_S96x96_S50000x96_1_0_0_1_n_n none t1 (w1Of W) (ix2 n q))
      + Host.dotGeneral dot_S50000x96_S96x96_S50000x96_1_0_0_1_n_n none t2 (w2Of W) (ix2 n q)) + rows bias (ix2 n q) = _
  rw [rows_apply, dot_apply, dot_apply, dot_apply]
  simp only [w0Of_apply, w1Of_apply, w2Of_apply]

/-- The column mean is the column sum times `1 / 50000`. -/
theorem meanOf_apply (o : C Ideal S50000x96 .f32) (q : Fin 96) :
    meanOf o (ix1 q) = (∑ n : Fin 50000, o (ix2 n q)) * ((1 / 50000 : ℝ) : EReal) := by
  unfold meanOf
  rw [hostDivf_apply, colSum_apply, broadcastInDim_scalar_apply, constant_apply, ofBits_50000]
  exact Ideal.div_coe (by norm_num) _

/-- The column mean kept as a row: the same value. -/
theorem meanRowOf_apply (o : C Ideal S50000x96 .f32) (q : Fin 96) :
    meanRowOf o (ix2 (0 : Fin 1) q) = (∑ n : Fin 50000, o (ix2 n q)) * ((1 / 50000 : ℝ) : EReal) := by
  unfold meanRowOf
  rw [hostDivf_apply, broadcastInDim_scalar_apply, constant_apply, ofBits_50000]
  rw [broadcastInDim_apply ![1] bcast_S96_S1x96_1 _ (ix2 (0 : Fin 1) q) (ix1 q) (by
    intro a
    match a with
    | ⟨0, _⟩ => rfl), colSum_apply]
  exact Ideal.div_coe (by norm_num) _

/-- The test `50000 - 0 > 0` holds. -/
theorem ddof_pos_bit (q : Fin 96) :
    (broadcastInDim S96 ![] bcast_S_S96 (cmpf (F := Ideal) .ogt (ddofOf (F := Ideal)) (constant S_ .f32 0x00000000#32))) (ix1 q) = 1#1 := by
  rw [broadcastInDim_scalar_apply, cmpf_apply, constant_apply, ddofOf_val, Ideal.ofBits_zero_f32, Ideal.cmpf_def]
  show BitVec.ofBool (decide ((0 : EReal) < ((50000 : ℝ) : EReal))) = 1#1
  rw [decide_eq_true (EReal.coe_pos.mpr (by norm_num))]; rfl

/-- A squared deviation from the column mean, at one entry. -/
theorem dev_apply (o : C Ideal S50000x96 .f32) (n : Fin 50000) (q : Fin 96) :
    mulf (F := Ideal) (φ := .f32) (subf (F := Ideal) (φ := .f32) o (broadcastInDim S50000x96 ![0, 1] bcast_S1x96_S50000x96_0_1 (meanRowOf o)))
        (subf (F := Ideal) (φ := .f32) o (broadcastInDim S50000x96 ![0, 1] bcast_S1x96_S50000x96_0_1 (meanRowOf o))) (ix2 n q)
      = (o (ix2 n q) - (∑ n : Fin 50000, o (ix2 n q)) * ((1 / 50000 : ℝ) : EReal))
          * (o (ix2 n q) - (∑ n : Fin 50000, o (ix2 n q)) * ((1 / 50000 : ℝ) : EReal)) := by
  show (o (ix2 n q) - broadcastInDim S50000x96 ![0, 1] bcast_S1x96_S50000x96_0_1 (meanRowOf o) (ix2 n q))
      * (o (ix2 n q) - broadcastInDim S50000x96 ![0, 1] bcast_S1x96_S50000x96_0_1 (meanRowOf o) (ix2 n q)) = _
  rw [rowBcast_apply, meanRowOf_apply]

/-- The column variance is the sum of the squared deviations from the column mean times `1 / 50000`. -/
theorem varOf_apply (o : C Ideal S50000x96 .f32) (q : Fin 96) :
    varOf o (ix1 q)
      = (∑ n : Fin 50000, (o (ix2 n q) - (∑ n : Fin 50000, o (ix2 n q)) * ((1 / 50000 : ℝ) : EReal))
            * (o (ix2 n q) - (∑ n : Fin 50000, o (ix2 n q)) * ((1 / 50000 : ℝ) : EReal))) * ((1 / 50000 : ℝ) : EReal) := by
  unfold varOf
  rw [select_apply, ddof_pos_bit, select_one, hostDivf_apply, colSum_apply, broadcastInDim_scalar_apply, ddofOf_val]
  rw [Ideal.div_coe (by norm_num)]
  refine congrArg (fun s : EReal => s * ((1 / 50000 : ℝ) : EReal)) ?_
  exact Finset.sum_congr rfl fun n _ => dev_apply o n q

/-- The normalisation at one entry. -/
theorem resultOf_apply (o : C Ideal S50000x96 .f32) (gamma beta : C Ideal S96 .f32) (n : Fin 50000) (q : Fin 96) :
    resultOf o gamma beta (ix2 n q)
      = ((o (ix2 n q) - meanOf o (ix1 q)) * Ideal.rsqrt (varOf o (ix1 q) + Ideal.ofBits .f32 0x3727C5AC#32)) * gamma (ix1 q)
          + beta (ix1 q) := by
  unfold resultOf
  show ((o (ix2 n q) - rows (meanOf o) (ix2 n q))
      * rows (Host.rsqrt (addf (varOf o) (broadcastInDim S96 ![] bcast_S_S96 (constant S_ .f32 0x3727C5AC#32)))) (ix2 n q))
      * rows gamma (ix2 n q) + rows beta (ix2 n q) = _
  rw [rows_apply, rows_apply, rows_apply, rows_apply]
  show ((o (ix2 n q) - meanOf o (ix1 q))
      * Ideal.rsqrt (varOf o (ix1 q) + broadcastInDim S96 ![] bcast_S_S96 (constant (F := Ideal) S_ .f32 0x3727C5AC#32) (ix1 q)))
      * gamma (ix1 q) + beta (ix1 q) = _
  rw [broadcastInDim_scalar_apply, constant_apply]

end Cert.ReferenceIdeal.Hand

end
-- ==== Proof.LibRealEntries.lean ====
import Idealize.ShloMosaic.PureOps.Ideal
import Idealize.ShloMosaic.PureOps.Ideal.Laws
import Idealize.ShloMosaic.PureOps.Contract

/-!
Arrays of extended reals every entry of which is a real number, and the operations that keep them so.

At the ideal float values an array is a function into the extended reals `[-∞, +∞]`. The sum of two extended
reals, their product, their difference are the real operations only away from the infinities; an identity of
real algebra (the variance as a mean of squares less the square of the mean, say) therefore holds of a computed
array only where its entries are real. This module states the predicate "every entry is a real number"
(`IsRealV`) and proves it closed under the elementwise operations, the re-indexing operations (broadcast, slice,
reshape, gather: whatever the indices), the accumulating scatter, the matrix product and finite sums, and under
the reciprocal square root on positive entries.
-/

noncomputable section

namespace Cert.Lib.RealEntries

open Idealize.ShloMosaic
open scoped BigOperators

/-- An extended real that is a real number. -/
def IsReal (a : EReal) : Prop := ∃ r : ℝ, a = (r : EReal)

/-- A family of extended reals every member of which is a real number. -/
def IsRealV {ι : Type} (v : ι → EReal) : Prop := ∀ i, ∃ r : ℝ, v i = (r : EReal)

/-! ### Single values -/

/-- A real number is real. -/
theorem isReal_coe (r : ℝ) : IsReal (r : EReal) := ⟨r, rfl⟩

/-- Zero is real. -/
theorem isReal_zero : IsReal (0 : EReal) := ⟨0, rfl⟩

/-- The sum of two reals is real. -/
theorem isReal_add {a b : EReal} (ha : IsReal a) (hb : IsReal b) : IsReal (a + b) := by
  obtain ⟨r, rfl⟩ := ha
  obtain ⟨s, rfl⟩ := hb
  exact ⟨r + s, (EReal.coe_add r s).symm⟩

/-- The difference of two reals is real. -/
theorem isReal_sub {a b : EReal} (ha : IsReal a) (hb : IsReal b) : IsReal (a - b) := by
  obtain ⟨r, rfl⟩ := ha
  obtain ⟨s, rfl⟩ := hb
  exact ⟨r - s, (EReal.coe_sub r s).symm⟩

/-- The product of two reals is real. -/
theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- The opposite of a real is real. -/
theorem isReal_neg {a : EReal} (ha : IsReal a) : IsReal (-a) := by
  obtain ⟨r, rfl⟩ := ha
  exact ⟨-r, (EReal.coe_neg r).symm⟩

/-- The greater of two reals is real. -/
theorem isReal_max {a b : EReal} (ha : IsReal a) (hb : IsReal b) : IsReal (max a b) := by
  rcases max_choice a b with h | h <;> rw [h] <;> assumption

/-- A finite sum of reals is real. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The reciprocal square root of a positive real is real. -/
theorem isReal_rsqrt {a : EReal} (ha : IsReal a) (hpos : 0 < a) : IsReal (Ideal.rsqrt a) := by
  obtain ⟨r, rfl⟩ := ha
  have hr : 0 < r := by exact_mod_cast hpos
  rw [Ideal.rsqrt_coe, if_neg (not_lt.mpr hr.le), if_neg hr.ne']
  exact ⟨_, rfl⟩

/-! ### Arrays -/

variable {s t : Shape} {φ : FTy}

/-- Any re-indexing of an array of reals is an array of reals. -/
theorem isRealV_comp {ι κ : Type} {v : ι → EReal} (hv : IsRealV v) (g : κ → ι) : IsRealV fun j => v (g j) :=
  fun j => hv (g j)

/-- The splat of a bit pattern that denotes a real number. -/
theorem isRealV_constant (s : Shape) (φ : FTy) (w : BitVec φ.bits) {r : ℝ} (h : Ideal.ofBits φ w = (r : EReal)) :
    IsRealV (constant (F := Ideal) s φ w) :=
  fun _ => ⟨r, h⟩

/-- A broadcast splat read at an index is the value its pattern denotes. -/
theorem broadcastInDim_constant_apply (t : Shape) (dims : Fin s.rank → Fin t.rank) (h : s.BroadcastsInDim t dims)
    (φ : FTy) (w : BitVec φ.bits) (i : t.Idx) :
    broadcastInDim t dims h (constant (F := Ideal) s φ w) i = Ideal.ofBits φ w :=
  rfl

/-- A broadcast reads its operand at some index. -/
theorem isRealV_broadcastInDim (t : Shape) (dims : Fin s.rank → Fin t.rank) (h : s.BroadcastsInDim t dims)
    {x : s.Idx → EReal} (hx : IsRealV x) : IsRealV (broadcastInDim t dims h x) :=
  fun _ => hx _

/-- A reshape reads its operand at some index. -/
theorem isRealV_shapeCast (t : Shape) {x : s.Idx → EReal} (hx : IsRealV x) (h : s.ShapeCasts t) :
    IsRealV (shapeCast t x h) :=
  fun _ => hx _

/-- A slice reads its operand at some index. -/
theorem isRealV_extractStridedSlice (t : Shape) (off : Fin s.rank → Nat) {x : s.Idx → EReal} (hx : IsRealV x)
    (h : s.Slices off t) : IsRealV (extractStridedSlice t off x h) :=
  fun _ => hx _

/-- A gather reads its operand at some (clamped) index, whatever the start indices. -/
theorem isRealV_gather {si : Shape} {w : Nat} (d : GatherDims s si t) {x : s.Idx → EReal} (hx : IsRealV x)
    (idx : IVec si w) : IsRealV (Host.gather d x idx) :=
  fun _ => hx _

/-- A select answers one of its two operands' entries. -/
theorem isRealV_select (c : IVec s 1) {a b : s.Idx → EReal} (ha : IsRealV a) (hb : IsRealV b) :
    IsRealV (select c a b) := by
  intro i
  show ∃ r : ℝ, (if c i = 1 then a i else b i) = (r : EReal)
  split
  · exact ha i
  · exact hb i

/-- The elementwise sum. -/
theorem isRealV_addf {x y : FVec Ideal s φ} (hx : IsRealV x) (hy : IsRealV y) : IsRealV (addf x y) :=
  fun i => isReal_add (hx i) (hy i)

/-- The elementwise difference. -/
theorem isRealV_subf {x y : FVec Ideal s φ} (hx : IsRealV x) (hy : IsRealV y) : IsRealV (subf x y) :=
  fun i => isReal_sub (hx i) (hy i)

/-- The elementwise product. -/
theorem isRealV_mulf {x y : FVec Ideal s φ} (hx : IsRealV x) (hy : IsRealV y) : IsRealV (mulf x y) :=
  fun i => isReal_mul (hx i) (hy i)

/-- The elementwise opposite. -/
theorem isRealV_negf {x : FVec Ideal s φ} (hx : IsRealV x) : IsRealV (Host.negf x) :=
  fun i => isReal_neg (hx i)

/-- The elementwise maximum. -/
theorem isRealV_maximumf {x y : FVec Ideal s φ} (hx : IsRealV x) (hy : IsRealV y) : IsRealV (maximumf x y) :=
  fun i => isReal_max (hx i) (hy i)

/-- The elementwise maximum with a positive array is positive. -/
theorem maximumf_pos {x y : FVec Ideal s φ} (hy : ∀ i, 0 < y i) (i : s.Idx) : 0 < maximumf x y i :=
  lt_of_lt_of_le (hy i) (le_max_right (x i) (y i))

/-- The elementwise reciprocal square root of positive reals. -/
theorem isRealV_rsqrt {x : FVec Ideal s φ} (hx : IsRealV x) (hpos : ∀ i, 0 < x i) : IsRealV (Host.rsqrt x) :=
  fun i => isReal_rsqrt (hx i) (hpos i)

/-- An accumulating scatter of reals into reals: each entry is the operand's plus a finite sum of updates. -/
theorem isRealV_scatterAdd {si u : Shape} {w : Nat} (d : ScatterDims s si u) {x : FVec Ideal s φ} (hx : IsRealV x)
    (idx : IVec si w) {upd : FVec Ideal u φ} (hu : IsRealV upd) : IsRealV (Host.scatterAdd d x idx upd) := by
  intro i
  show IsReal (x i + ∑ j ∈ Finset.univ.filter (fun j => d.resultIdx? j idx = some i), upd j)
  exact isReal_add (hx i) (isReal_sum _ _ fun j _ => hu j)

/-- A matrix product of reals: each entry is a finite sum of products. -/
theorem isRealV_dotGeneral {sl sr so : Shape} {φ₁ φ₂ : FTy} (d : DotDims sl sr so) (prec : Option ContractPrecision)
    {lhs : FVec Ideal sl φ₁} {rhs : FVec Ideal sr φ₂} (hl : IsRealV lhs) (hr : IsRealV rhs) :
    IsRealV (Host.dotGeneral d prec lhs rhs) := by
  intro j
  show IsReal (FloatOps.dotGeneral d prec .single lhs rhs j)
  rw [Ideal.dotGeneral_apply]
  exact isReal_sum _ _ fun k _ => isReal_mul (hl _) (hr _)

/-! ### Four float patterns -/

/-- The pattern of `+0.0` denotes the real `0`. -/
theorem ofBits_zero : Ideal.ofBits .f32 0x00000000#32 = ((0 : ℝ) : EReal) := by
  simp [Ideal.ofBits, Ideal.ieee]

/-- The pattern of `1.0` denotes the real `1`. -/
theorem ofBits_one : Ideal.ofBits .f32 0x3F800000#32 = ((1 : ℝ) : EReal) := by
  simp [Ideal.ofBits, Ideal.ieee, -EReal.coe_mul] <;> norm_num

/-- The pattern of `2.0` denotes the real `2`. -/
theorem ofBits_two : Ideal.ofBits .f32 0x40000000#32 = ((2 : ℝ) : EReal) := by
  simp [Ideal.ofBits, Ideal.ieee, -EReal.coe_mul] <;> norm_num

/-- The pattern `0x2B8CBCCC` (the float nearest `1e-12`) denotes a positive real. -/
theorem ofBits_tiny : ∃ r : ℝ, 0 < r ∧ Ideal.ofBits .f32 0x2B8CBCCC#32 = (r : EReal) := by
  refine ⟨(9223372 : ℝ) * (2 : ℝ) ^ (-63 : ℤ), by positivity, ?_⟩
  simp [Ideal.ofBits, Ideal.ieee, -EReal.coe_mul] <;> norm_num

end Cert.Lib.RealEntries

end
-- ==== Proof.Ref.Real.lean ====
import proofs.«166066_j71159018160656_1_alg».proof.Proof.Ref.Stages
import proofs.«166066_j71159018160656_1_alg».proof.Proof.LibRealEntries

/-!
Every entry of the reference's combined array `x W₀ + T₁ W₁ + T₂ W₂ + bias` is a real number when the entries of
`x`, `W` and `bias` are, for any integer edge list.

Stage by stage: an edge weight is `0` or `1`; a degree is a finite sum of them; the degree raised to the power
`-1/2` is taken of a real no less than a positive constant, and is real; a gather reads a real array at some index,
whatever the indices; the propagated array is a finite sum of products of reals; the Chebyshev terms and the
matrix products are sums, differences and products of reals.
-/

noncomputable section

namespace Cert.ReferenceIdeal.Hand

open Idealize.ShloMosaic Cert.ReferenceIdeal Cert.Lib.RealEntries

variable [Facts]
open Facts₀ Facts

/-- The zero vector over the nodes is real. -/
theorem zero50000_real : IsRealV (zero50000 (F := Ideal)) := by
  unfold zero50000
  exact isRealV_broadcastInDim _ _ _ (isRealV_constant _ _ _ ofBits_zero)

/-- The zero array over the nodes' rows is real. -/
theorem zero50000x96_real : IsRealV (zero50000x96 (F := Ideal)) := by
  unfold zero50000x96
  exact isRealV_broadcastInDim _ _ _ (isRealV_constant _ _ _ ofBits_zero)

/-- An edge weight is `1` or `0`. -/
theorem wOf_real (row col : C Ideal S800000 .i32) : IsRealV (wOf (F := Ideal) row col) := by
  unfold wOf
  exact isRealV_select _ (isRealV_broadcastInDim _ _ _ (isRealV_constant _ _ _ ofBits_one))
    (isRealV_broadcastInDim _ _ _ (isRealV_constant _ _ _ ofBits_zero))

/-- A degree is a finite sum of real weights. -/
theorem degOf_real (row : C Ideal S800000 .i32) {w : C Ideal S800000 .f32} (hw : IsRealV w) :
    IsRealV (degOf (F := Ideal) row w) := by
  unfold degOf
  exact isRealV_scatterAdd _ zero50000_real _ hw

/-- The power `-1/2` of a real degree, taken above a positive constant, is real. -/
theorem disOf_real {deg : C Ideal S50000 .f32} (hdeg : IsRealV deg) : IsRealV (disOf (F := Ideal) deg) := by
  unfold disOf
  obtain ⟨r, hr, he⟩ := ofBits_tiny
  refine isRealV_select _ (isRealV_rsqrt (isRealV_maximumf hdeg
    (isRealV_broadcastInDim _ _ _ (isRealV_constant _ _ _ he))) (maximumf_pos fun i => ?_)) zero50000_real
  rw [broadcastInDim_constant_apply, he]
  exact_mod_cast hr

/-- The edge weights of the scaled Laplacian are real. -/
theorem normOf_real (row col : C Ideal S800000 .i32) : IsRealV (normOf (F := Ideal) row col) := by
  unfold normOf
  have hd := disOf_real (degOf_real row (wOf_real row col))
  exact isRealV_mulf (isRealV_mulf (isRealV_negf (isRealV_gather _ hd _)) (wOf_real row col)) (isRealV_gather _ hd _)

/-- One propagation step of a real array by real edge weights is real. -/
theorem propOf_real {norm : C Ideal S800000 .f32} (hn : IsRealV norm) (row col : C Ideal S800000 .i32)
    {h : C Ideal S50000x96 .f32} (hh : IsRealV h) : IsRealV (propOf (F := Ideal) norm row col h) := by
  unfold propOf
  exact isRealV_scatterAdd _ zero50000x96_real _
    (isRealV_mulf (isRealV_broadcastInDim _ _ _ (isRealV_broadcastInDim _ _ _ hn)) (isRealV_gather _ hh _))

/-- The first Chebyshev term of a real array is real. -/
theorem tx1Of_real {x : C Ideal S50000x96 .f32} (hx : IsRealV x) (ei : C Ideal S2x800000 .i32) :
    IsRealV (tx1Of (F := Ideal) x ei) := by
  unfold tx1Of
  exact propOf_real (normOf_real _ _) _ _ hx

/-- The second Chebyshev term of a real array is real. -/
theorem tx2Of_real {x : C Ideal S50000x96 .f32} (hx : IsRealV x) (ei : C Ideal S2x800000 .i32) :
    IsRealV (tx2Of (F := Ideal) x ei) := by
  unfold tx2Of
  exact isRealV_subf (isRealV_mulf (isRealV_broadcastInDim _ _ _ (isRealV_constant _ _ _ ofBits_two))
    (propOf_real (normOf_real _ _) _ _ (tx1Of_real hx ei))) hx

/-- The three weight matrices of a real weight array are real. -/
theorem w0Of_real {W : C Ideal S3x96x96 .f32} (hW : IsRealV W) : IsRealV (w0Of (F := Ideal) W) := by
  unfold w0Of
  exact isRealV_shapeCast _ (isRealV_extractStridedSlice _ _ hW _) _
theorem w1Of_real {W : C Ideal S3x96x96 .f32} (hW : IsRealV W) : IsRealV (w1Of (F := Ideal) W) := by
  unfold w1Of
  exact isRealV_shapeCast _ (isRealV_extractStridedSlice _ _ hW _) _
theorem w2Of_real {W : C Ideal S3x96x96 .f32} (hW : IsRealV W) : IsRealV (w2Of (F := Ideal) W) := by
  unfold w2Of
  exact isRealV_shapeCast _ (isRealV_extractStridedSlice _ _ hW _) _

/-- A real vector laid over the rows is real. -/
theorem rows_real {v : C Ideal S96 .f32} (hv : IsRealV v) : IsRealV (rows (F := Ideal) v) := by
  unfold rows
  exact isRealV_broadcastInDim _ _ _ (isRealV_broadcastInDim _ _ _ hv)

/-- The combination of real arrays by real weights and a real bias is real. -/
theorem outOf_real_of {x t1 t2 : C Ideal S50000x96 .f32} {W : C Ideal S3x96x96 .f32} {bias : C Ideal S96 .f32}
    (hx : IsRealV x) (h1 : IsRealV t1) (h2 : IsRealV t2) (hW : IsRealV W) (hb : IsRealV bias) :
    IsRealV (outOf (F := Ideal) x t1 t2 W bias) := by
  unfold outOf
  exact isRealV_addf (isRealV_addf (isRealV_addf (isRealV_dotGeneral _ _ hx (w0Of_real hW))
    (isRealV_dotGeneral _ _ h1 (w1Of_real hW))) (isRealV_dotGeneral _ _ h2 (w2Of_real hW))) (rows_real hb)

/-- Every entry of the reference's combined array is a real number when the entries of the node features, the
    weights and the bias are, for any integer edge list. -/
theorem outOf_real (x : C Ideal S50000x96 .f32) (ei : C Ideal S2x800000 .i32) (W : C Ideal S3x96x96 .f32)
    (bias : C Ideal S96 .f32) (hx : ∀ i, ∃ r : ℝ, x i = (r : EReal)) (hW : ∀ i, ∃ r : ℝ, W i = (r : EReal))
    (hb : ∀ i, ∃ r : ℝ, bias i = (r : EReal)) :
    ∀ i, ∃ r : ℝ, outOf x (tx1Of x ei) (tx2Of x ei) W bias i = (r : EReal) :=
  outOf_real_of hx (tx1Of_real hx ei) (tx2Of_real hx ei) hW hb

end Cert.ReferenceIdeal.Hand

end
-- ==== Proof.LibTileSum.lean ====
/-
  A sum over `m * n` consecutive indices, taken tile by tile.

  The indices `0, …, m * n - 1` fall into `m` tiles of `n` consecutive ones: index `s` is entry `s % n` of tile
  `s / n`, and entry `q` of tile `k` is index `n * k + q`. In a commutative additive monoid the sum over all indices is
  the sum, over the tiles, of each tile's sum.
-/
import Mathlib.Algebra.BigOperators.Fin
import Mathlib.Data.Fintype.BigOperators
import Mathlib.Logic.Equiv.Fin.Basic

namespace Cert.TileSum

/-- Entry `q` of tile `k` lies below `m * n`. -/
theorem tile_lt {m n N : ℕ} (h : m * n = N) (k : Fin m) (q : Fin n) : n * k.val + q.val < N := by
  subst h
  calc n * k.val + q.val < n * k.val + n := Nat.add_lt_add_left q.isLt _
    _ = n * (k.val + 1) := (Nat.mul_succ _ _).symm
    _ ≤ n * m := Nat.mul_le_mul_left _ k.isLt
    _ = m * n := Nat.mul_comm _ _

/-- A sum over `N = m * n` indices is the sum over the `m` tiles of each tile's `n` terms, entry `q` of tile `k`
    being index `n * k + q`. -/
theorem sum_tiles {M : Type*} [AddCommMonoid M] {m n N : ℕ} (h : m * n = N) (f : Fin N → M) :
    ∑ k : Fin m, ∑ q : Fin n, f ⟨n * k.val + q.val, tile_lt h k q⟩ = ∑ s : Fin N, f s := by
  subst h
  rw [← Equiv.sum_comp finProdFinEquiv f, Fintype.sum_prod_type]
  refine Finset.sum_congr rfl fun k _ => Finset.sum_congr rfl fun q _ => congrArg f (Fin.ext ?_)
  show n * k.val + q.val = q.val + n * k.val
  exact Nat.add_comm _ _

end Cert.TileSum
-- ==== Proof.Algebra.lean ====
import proofs.«166066_j71159018160656_1_alg».proof.Proof.Spec
import proofs.«166066_j71159018160656_1_alg».proof.Proof.LibTileSum
import Mathlib

/-!
The kernel's statistics against the textbook ones, on the extended reals.

* `sumK_eq`, `sqK_eq`: a column sum taken in ten blocks of 5000 rows is the sum over the 50000 rows.
* `varK_eq`: when every entry is real, the mean of the squares less the square of the mean is the mean of the
  squared deviations from the mean. With `S = ∑ rₙ`, `c = 1/50000` and `μ = S c`:
  `∑ (rₙ - μ)² = ∑ rₙ² - 2 μ S + 50000 μ²  = ∑ rₙ² - S² c`, and times `c` this is `(∑ rₙ²) c - μ²`.
-/

noncomputable section

namespace Cert.Spec

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The column sum taken block by block is the column sum. -/
theorem sumK_eq (o : SN.Idx → EReal) (q : Fin 96) : sumK o q = ∑ n : Fin 50000, o (ix2 n q) :=
  Cert.TileSum.sum_tiles (m := 10) (n := 5000) (N := 50000) (by norm_num) (fun n : Fin 50000 => o (ix2 n q))

/-- The column sum of squares taken block by block is the column sum of squares. -/
theorem sqK_eq (o : SN.Idx → EReal) (q : Fin 96) : sqK o q = ∑ n : Fin 50000, o (ix2 n q) * o (ix2 n q) :=
  Cert.TileSum.sum_tiles (m := 10) (n := 5000) (N := 50000) (by norm_num) (fun n : Fin 50000 => o (ix2 n q) * o (ix2 n q))

/-- The kernel's mean is the column sum times `1 / 50000`. -/
theorem meanK_eq (o : SN.Idx → EReal) (q : Fin 96) :
    meanK o q = (∑ n : Fin 50000, o (ix2 n q)) * ((1 / 50000 : ℝ) : EReal) := by
  unfold meanK; rw [sumK_eq]

/-- The real identity: the mean of the squares less the square of the mean is the mean squared deviation. -/
theorem real_var (r : Fin 50000 → ℝ) :
    (∑ n, r n * r n) * (1 / 50000) - ((∑ n, r n) * (1 / 50000)) * ((∑ n, r n) * (1 / 50000))
      = (∑ n, (r n - (∑ n, r n) * (1 / 50000)) * (r n - (∑ n, r n) * (1 / 50000))) * (1 / 50000) := by
  generalize hS : ∑ n, r n = S
  have h : ∑ n, (r n - S * (1 / 50000)) * (r n - S * (1 / 50000))
      = (∑ n, r n * r n) - 2 * (S * (1 / 50000)) * S + 50000 * ((S * (1 / 50000)) * (S * (1 / 50000))) := by
    have e : ∀ n, (r n - S * (1 / 50000)) * (r n - S * (1 / 50000))
        = r n * r n - 2 * (S * (1 / 50000)) * r n + (S * (1 / 50000)) * (S * (1 / 50000)) := fun n => by ring
    simp only [e]
    rw [Finset.sum_add_distrib, Finset.sum_sub_distrib, ← Finset.mul_sum, hS]
    simp only [Finset.sum_const, Finset.card_univ, Fintype.card_fin, nsmul_eq_mul, Nat.cast_ofNat]
  rw [h]; ring

/-- With every entry real, the kernel's variance is the mean squared deviation from the kernel's mean. -/
theorem varK_eq (o : SN.Idx → EReal) (ho : ∀ i, ∃ r : ℝ, o i = (r : EReal)) (q : Fin 96) :
    varK o q = (∑ n : Fin 50000, (o (ix2 n q) - meanK o q) * (o (ix2 n q) - meanK o q)) * ((1 / 50000 : ℝ) : EReal) := by
  choose r hr using ho
  have hs : ∑ n : Fin 50000, o (ix2 n q) = ((∑ n : Fin 50000, r (ix2 n q) : ℝ) : EReal) := by
    rw [coe_sum]
    exact Finset.sum_congr rfl fun n _ => hr (ix2 n q)
  have hm : meanK o q = (((∑ n : Fin 50000, r (ix2 n q)) * (1 / 50000) : ℝ) : EReal) := by
    rw [meanK_eq, hs, ← EReal.coe_mul]
  have h1 : ∑ n : Fin 50000, o (ix2 n q) * o (ix2 n q) = ((∑ n : Fin 50000, r (ix2 n q) * r (ix2 n q) : ℝ) : EReal) := by
    rw [coe_sum]
    exact Finset.sum_congr rfl fun n _ => by rw [hr, EReal.coe_mul]
  have h2 : ∀ μ : ℝ, ∑ n : Fin 50000, (o (ix2 n q) - (μ : EReal)) * (o (ix2 n q) - (μ : EReal))
      = ((∑ n : Fin 50000, (r (ix2 n q) - μ) * (r (ix2 n q) - μ) : ℝ) : EReal) := fun μ => by
    rw [coe_sum]
    exact Finset.sum_congr rfl fun n _ => by rw [hr, EReal.coe_mul, EReal.coe_sub]
  unfold varK
  rw [hm, sqK_eq, h1, h2, ← EReal.coe_mul, ← EReal.coe_mul, ← EReal.coe_mul, ← EReal.coe_sub]
  exact congrArg _ (real_var fun n => r (ix2 n q))

end Cert.Spec

end
-- ==== Proof.Bridge.lean ====
import proofs.«166066_j71159018160656_1_alg».proof.Proof.Ref.Read
import proofs.«166066_j71159018160656_1_alg».proof.Proof.Algebra

/-!
The kernel's normalisation, taken with the kernel's own mean and variance, is the reference's at every entry, when
every entry of the normalised array is real: the two means are the same column sum times `1 / 50000`, and the mean of
the squares less the square of the mean is the mean squared deviation.
-/

noncomputable section

namespace Cert.Spec

open Idealize.ShloMosaic Idealize.ShloMosaic.ValueIdx Cert.ReferenceIdeal Cert.ReferenceIdeal.Hand

variable [Cert.ReferenceIdeal.Facts]

/-- The kernel's mean is the reference's. -/
theorem meanK_eq_meanOf (o : C Ideal S50000x96 .f32) (q : Fin 96) : meanK o q = meanOf o (ix1 q) := by
  rw [meanOf_apply, meanK_eq]

/-- With every entry real, the kernel's variance is the reference's. -/
theorem varK_eq_varOf (o : C Ideal S50000x96 .f32) (ho : ∀ i, ∃ r : ℝ, o i = (r : EReal)) (q : Fin 96) :
    varK o q = varOf o (ix1 q) := by
  rw [varOf_apply, ← meanK_eq o q, ← varK_eq o ho q]

/-- With every entry real, the kernel's normalisation is the reference's at every entry. -/
theorem bn_eq (o : C Ideal S50000x96 .f32) (gamma beta : C Ideal S96 .f32) (ho : ∀ i, ∃ r : ℝ, o i = (r : EReal))
    (n : Fin 50000) (q : Fin 96) :
    bnK o (meanK o) (varK o) (fun q => gamma (ix1 q)) (fun q => beta (ix1 q)) n q = resultOf o gamma beta (ix2 n q) := by
  rw [resultOf_apply, ← meanK_eq_meanOf o q, ← varK_eq_varOf o ho q]
  rfl

end Cert.Spec

end
-- ==== Proof.KernelIdeal.KernelValue.lean ====
import proofs.«166066_j71159018160656_1_alg».proof.Proof.KernelIdeal.Run
import proofs.«166066_j71159018160656_1_alg».proof.Proof.KernelIdeal.R1Value
import proofs.«166066_j71159018160656_1_alg».proof.Proof.KernelIdeal.R0Value
import proofs.«166066_j71159018160656_1_alg».proof.Proof.KernelIdeal.R0Stats
import proofs.«166066_j71159018160656_1_alg».proof.Proof.KernelIdeal.HostK
import proofs.«166066_j71159018160656_1_alg».proof.Proof.KernelIdeal.HostK2
import proofs.«166066_j71159018160656_1_alg».proof.Proof.KernelIdeal.HostK3
import proofs.«166066_j71159018160656_1_alg».proof.Proof.Ref.Read
import proofs.«166066_j71159018160656_1_alg».proof.Proof.Ref.Real
import proofs.«166066_j71159018160656_1_alg».proof.Proof.Bridge
import Idealize.ShloMosaic.Lib.ValueLayout

/-!
The kernel program's result as a function of its arguments, at the extended reals.

The second region normalises the combined array `o = x W₀ + T₁ W₁ + T₂ W₂ + bias` column by column with the statistics the
first region left: the mean `sumK o * (1/50000)` and the variance `sqK o * (1/50000) - mean²`, both accumulated block by
block over the ten blocks of 5000 rows. Where every entry of `o` is a real number the block sums are the column sums and
the mean of the squares less the square of the mean is the mean squared deviation, so the result is the reference's
`(o - mean) * (var + ε)^(-1/2) * γ + β`. The entries of `o` are real because the arguments' are: the edge weights, the
propagated rows and the matrix products are finite sums of products of reals.
-/

noncomputable section

namespace Cert.KernelIdeal.Hand

open Idealize.ShloMosaic Idealize.ShloMosaic.TcCoe Idealize.SL.Sem Cert.KernelIdeal Cert.KernelIdeal.Gen
open Idealize.ShloMosaic.ValueIdx
open Cert.ReferenceIdeal.Hand (C tx1Of tx2Of outOf resultOf refResult outOf_apply outOf_real)

/-- The two programs' side conditions hold. -/
local instance : Cert.ReferenceIdeal.Facts := Cert.ReferenceIdeal.Gen.facts
local instance : Cert.KernelIdeal.Facts := Cert.KernelIdeal.Gen.facts

variable (m : (ℓ : Loc nD τ sig) → Buf (Elt Ideal) ℓ) (ρ : Dev nD → PrngReg) (c : Dev nD)

/-! ## What the first region is entered with -/

theorem V5_arg0 : V5 m ρ c main_arg0 = m ((c : Thread nD τ).loc main_arg0) :=
  (congrFun (after_hostAll (W0 m ρ c)) (Proc.devRef .tc main_arg0)).trans
    (hostAll_keep (W0 m ρ c) main_arg0 (by decide) (by decide) (by decide) (by decide) (by decide))

theorem V5_arg2 : V5 m ρ c main_arg2 = m ((c : Thread nD τ).loc main_arg2) :=
  (congrFun (after_hostAll (W0 m ρ c)) (Proc.devRef .tc main_arg2)).trans
    (hostAll_keep (W0 m ρ c) main_arg2 (by decide) (by decide) (by decide) (by decide) (by decide))

theorem V5_v53 : V5 m ρ c main_v53 = tx1Of (m ((c : Thread nD τ).loc main_arg0)) (m ((c : Thread nD τ).loc main_arg1)) :=
  (congrFun (after_hostAll (W0 m ρ c)) (Proc.devRef .tc main_v53)).trans (hostAll_v53 (W0 m ρ c))

theorem V5_v69 : V5 m ρ c main_v69 = tx2Of (m ((c : Thread nD τ).loc main_arg0)) (m ((c : Thread nD τ).loc main_arg1)) :=
  (congrFun (after_hostAll (W0 m ρ c)) (Proc.devRef .tc main_v69)).trans (hostAll_v69 (W0 m ρ c))

theorem V5_v70 : V5 m ρ c main_v70 = shapeCast S1x96 (m ((c : Thread nD τ).loc main_arg3)) Facts₀.shapeCasts_S96_S1x96 :=
  (congrFun (after_hostAll (W0 m ρ c)) (Proc.devRef .tc main_v70)).trans (hostAll_v70 (W0 m ρ c))

theorem V5_v71 : V5 m ρ c main_v71 = shapeCast S1x96 (m ((c : Thread nD τ).loc main_arg4)) Facts₀.shapeCasts_S96_S1x96 :=
  (congrFun (after_hostAll (W0 m ρ c)) (Proc.devRef .tc main_v71)).trans (hostAll_v71 (W0 m ρ c))

theorem V5_v72 : V5 m ρ c main_v72 = shapeCast S1x96 (m ((c : Thread nD τ).loc main_arg5)) Facts₀.shapeCasts_S96_S1x96 :=
  (congrFun (after_hostAll (W0 m ρ c)) (Proc.devRef .tc main_v72)).trans (hostAll_v72 (W0 m ρ c))

/-! ## The combined array -/

/-- The first region leaves the reference's combined array in its first output. -/
theorem out_eq :
    (dat0 (V5 m ρ) c).arrAt 5 cfg0.N
      = outOf (m ((c : Thread nD τ).loc main_arg0))
          (tx1Of (m ((c : Thread nD τ).loc main_arg0)) (m ((c : Thread nD τ).loc main_arg1)))
          (tx2Of (m ((c : Thread nD τ).loc main_arg0)) (m ((c : Thread nD τ).loc main_arg1)))
          (m ((c : Thread nD τ).loc main_arg2)) (m ((c : Thread nD τ).loc main_arg3)) := by
  rw [final0_5 (V5 m ρ) c, V5_arg0, V5_v53, V5_v69, V5_arg2, V5_v70]
  funext i
  obtain ⟨n, q, rfl⟩ : ∃ (n : Fin 50000) (q : Fin 96), i = ix2 n q := ⟨i 0, i 1, eq_ix2 i⟩
  rw [outK_apply]
  refine ((outOf_apply _ _ _ _ _ n q).trans ?_).symm
  rw [shapeCast_a_1a_apply]

/-! ## What the second region is entered with -/

/-- The second region reads the combined array as the first region left it. -/
theorem V6_v73_0 : V6 m ρ c main_v73_0 = (dat0 (V5 m ρ) c).arrAt 5 cfg0.N := W6_arr m ρ c 5

/-- The mean row the first region left: the block-by-block column means of the combined array. -/
theorem V6_v73_1 :
    V6 m ρ c main_v73_1 = fun j : S1x96.Idx => Cert.Spec.meanK ((dat0 (V5 m ρ) c).arrAt 5 cfg0.N) (j 1) :=
  (W6_arr m ρ c 6).trans (final0_6 (V5 m ρ) c _ fun t r q => out_blk (V5 m ρ) c t r q)

/-- The variance row the first region left. -/
theorem V6_v73_2 :
    V6 m ρ c main_v73_2 = fun j : S1x96.Idx => Cert.Spec.varK ((dat0 (V5 m ρ) c).arrAt 5 cfg0.N) (j 1) :=
  (W6_arr m ρ c 7).trans (final0_7 (V5 m ρ) c _ fun t r q => out_blk (V5 m ρ) c t r q)

/-- The scale row is untouched by the first region. -/
theorem V6_v71 : V6 m ρ c main_v71 = shapeCast S1x96 (m ((c : Thread nD τ).loc main_arg4)) Facts₀.shapeCasts_S96_S1x96 :=
  (W6_of_ne m ρ c main_v71 (by decide)).trans (V5_v71 m ρ c)

/-- The shift row is untouched by the first region. -/
theorem V6_v72 : V6 m ρ c main_v72 = shapeCast S1x96 (m ((c : Thread nD τ).loc main_arg5)) Facts₀.shapeCasts_S96_S1x96 :=
  (W6_of_ne m ρ c main_v72 (by decide)).trans (V5_v72 m ρ c)

/-! ## The result -/

/-- With real entries in `x`, `W` and `bias`, the kernel program's result is the reference's. -/
theorem result_eq (hx : ∀ i, ∃ r : ℝ, m ((c : Thread nD τ).loc main_arg0) i = (r : EReal))
    (hW : ∀ i, ∃ r : ℝ, m ((c : Thread nD τ).loc main_arg2) i = (r : EReal))
    (hb : ∀ i, ∃ r : ℝ, m ((c : Thread nD τ).loc main_arg3) i = (r : EReal)) :
    W7 m ρ c (Proc.devRef .tc main_v74)
      = refResult (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e7 : W7 m ρ c (Proc.devRef .tc main_v74) = (dat1 (V6 m ρ) c).arrAt 5 cfg1.N := W7_arr m ρ c 5
  rw [e7, final1_5 (V6 m ρ) c, V6_v73_0, V6_v73_1, V6_v73_2, V6_v71, V6_v72, out_eq]
  funext i
  obtain ⟨n, q, rfl⟩ : ∃ (n : Fin 50000) (q : Fin 96), i = ix2 n q := ⟨i 0, i 1, eq_ix2 i⟩
  rw [G1_apply, shapeCast_a_1a_apply, shapeCast_a_1a_apply]
  exact Cert.Spec.bn_eq _ _ _ (outOf_real _ _ _ _ hx hW hb) n q

end Cert.KernelIdeal.Hand

end
-- ==== Proof.Ref.Run.lean ====
import proofs.«166066_j71159018160656_1_alg».proof.ReferenceIdeal
import proofs.«166066_j71159018160656_1_alg».proof.Proof.Gen.ReferenceIdeal
import proofs.«166066_j71159018160656_1_alg».proof.Proof.Ref.Stages
import Idealize.ShloMosaic.Lib.StableHlo.Run

/-!
The reference program's run. Its `@main` is a straight line of host operations, three of them calls whose
bodies (one of which calls in turn) stand in their call's place; listed in order, the line is cut into twelve
stretches, one per stage of the computation. After each stretch the buffers still to be read are at the stage
functions of the argument arrays (`rowOf`, `normOf`, `tx1Of`, …, `refResult`) and the arguments are as they
were, each by unfolding the stretch's operations; so every weakly fair execution terminates with the result
buffer at `refResult` of the arguments and the arguments unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The two rows of the edge list (each read twice) and the weight `1` off the diagonal, `0` on a self loop. -/
abbrev opsA1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg1 main_v4 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v4 main_v5 rfl shapeCasts_S1x800000_S800000,
    StableHlo.unary main_arg1 main_v6 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v6 main_v7 rfl shapeCasts_S1x800000_S800000,
    StableHlo.binary main_v5 main_v7 main_v8 (cmpi .ne : (⟨S800000, .i32⟩ : BufTy).Contents (Elt F) → (⟨S800000, .i32⟩ : BufTy).Contents (Elt F) → (⟨S800000, .i1⟩ : BufTy).Contents (Elt F)),
    StableHlo.nullary main_cst (constant S_ .f32 0x3F800000#32),
    StableHlo.nullary main_cst_0 (constant S_ .f32 0x00000000#32),
    StableHlo.TRef.unary (.of main_cst : StableHlo.TRef sig ⟨S_, .f32⟩) (.of main_call0_v0 : StableHlo.TRef sig ⟨S800000, .f32⟩) (broadcastInDim S800000 ![] bcast_S_S800000),
    StableHlo.TRef.unary (.of main_cst_0 : StableHlo.TRef sig ⟨S_, .f32⟩) (.of main_call0_v1 : StableHlo.TRef sig ⟨S800000, .f32⟩) (broadcastInDim S800000 ![] bcast_S_S800000),
    StableHlo.TRef.ternary (.of main_v8 : StableHlo.TRef sig ⟨S800000, .i1⟩) (.of main_call0_v0 : StableHlo.TRef sig ⟨S800000, .f32⟩) (.of main_call0_v1 : StableHlo.TRef sig ⟨S800000, .f32⟩) (.of main_v9 : StableHlo.TRef sig ⟨S800000, .f32⟩) select ]

/-- The degrees (the weights summed by source node) and their inverse square roots where positive. -/
abbrev opsA2 : List (HloOp τ sig (Elt F)) :=
  [ StableHlo.nullary main_cst_1 (constant S_ .f32 0x00000000#32),
    StableHlo.unary main_cst_1 main_v10 (broadcastInDim S50000 ![] bcast_S_S50000 : (⟨S_, .f32⟩ : BufTy).Contents (Elt F) → (⟨S50000, .f32⟩ : BufTy).Contents (Elt F)),
    StableHlo.unary main_v5 main_v11 (broadcastInDim S800000x1 ![0] bcast_S800000_S800000x1_0 : (⟨S800000, .i32⟩ : BufTy).Contents (Elt F) → (⟨S800000x1, .i32⟩ : BufTy).Contents (Elt F)),
    StableHlo.unary main_v9 main_v12 (id : (⟨S800000, .f32⟩ : BufTy).Contents (Elt F) → (⟨S800000, .f32⟩ : BufTy).Contents (Elt F)),
    StableHlo.ternary main_v10 main_v11 main_v12 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x00000000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v13 main_v14 main_v15 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0x2B8CBCCC#32),
    StableHlo.unary main_cst_3 main_v16 (broadcastInDim S50000 ![] bcast_S_S50000 : (⟨S_, .f32⟩ : BufTy).Contents (Elt F) → (⟨S50000, .f32⟩ : BufTy).Contents (Elt F)),
    StableHlo.binary main_v13 main_v16 main_v17 (maximumf : (⟨S50000, .f32⟩ : BufTy).Contents (Elt F) → (⟨S50000, .f32⟩ : BufTy).Contents (Elt F) → (⟨S50000, .f32⟩ : BufTy).Contents (Elt F)),
    StableHlo.unary main_v17 main_v18 (Host.rsqrt : (⟨S50000, .f32⟩ : BufTy).Contents (Elt F) → (⟨S50000, .f32⟩ : BufTy).Contents (Elt F)),
    StableHlo.nullary main_cst_4 (constant S_ .f32 0x00000000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S50000, .f32⟩) (broadcastInDim S50000 ![] bcast_S_S50000),
    StableHlo.TRef.ternary (.of main_v15 : StableHlo.TRef sig ⟨S50000, .i1⟩) (.of main_v18 : StableHlo.TRef sig ⟨S50000, .f32⟩) (.of main_call1_v1 : StableHlo.TRef sig ⟨S50000, .f32⟩) (.of main_v19 : StableHlo.TRef sig ⟨S50000, .f32⟩) select ]

/-- The edge weights `-dis (row e) * w e * dis (col e)`. -/
abbrev opsA3 : List (HloOp τ sig (Elt F)) :=
  [ StableHlo.nullary main_c (constantI S_ 32 0#32),
    StableHlo.unary main_c main_v20 (broadcastInDim S800000 ![] bcast_S_S800000 : (⟨S_, .i32⟩ : BufTy).Contents (Elt F) → (⟨S800000, .i32⟩ : BufTy).Contents (Elt F)),
    StableHlo.binary main_v5 main_v20 main_v21 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v22 (broadcastInDim S800000 ![] bcast_S_S800000 : (⟨S_, .i32⟩ : BufTy).Contents (Elt F) → (⟨S800000, .i32⟩ : BufTy).Contents (Elt F)),
    StableHlo.binary main_v5 main_v22 main_v23 (addi : (⟨S800000, .i32⟩ : BufTy).Contents (Elt F) → (⟨S800000, .i32⟩ : BufTy).Contents (Elt F) → (⟨S800000, .i32⟩ : BufTy).Contents (Elt F)),
    StableHlo.ternary main_v21 main_v23 main_v5 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v24 main_v25 (broadcastInDim S800000x1 ![0] bcast_S800000_S800000x1_0 : (⟨S800000, .i32⟩ : BufTy).Contents (Elt F) → (⟨S800000x1, .i32⟩ : BufTy).Contents (Elt F)),
    StableHlo.binary main_v19 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v26 main_v27 (Host.negf : (⟨S800000, .f32⟩ : BufTy).Contents (Elt F) → (⟨S800000, .f32⟩ : BufTy).Contents (Elt F)),
    StableHlo.unary main_v9 main_v28 (id : (⟨S800000, .f32⟩ : BufTy).Contents (Elt F) → (⟨S800000, .f32⟩ : BufTy).Contents (Elt F)),
    StableHlo.binary main_v27 main_v28 main_v29 (mulf : (⟨S800000, .f32⟩ : BufTy).Contents (Elt F) → (⟨S800000, .f32⟩ : BufTy).Contents (Elt F) → (⟨S800000, .f32⟩ : BufTy).Contents (Elt F)),
    StableHlo.nullary main_c_6 (constantI S_ 32 0#32),
    StableHlo.unary main_c_6 main_v30 (broadcastInDim S800000 ![] bcast_S_S800000 : (⟨S_, .i32⟩ : BufTy).Contents (Elt F) → (⟨S800000, .i32⟩ : BufTy).Contents (Elt F)),
    StableHlo.binary main_v7 main_v30 main_v31 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v32 (broadcastInDim S800000 ![] bcast_S_S800000 : (⟨S_, .i32⟩ : BufTy).Contents (Elt F) → (⟨S800000, .i32⟩ : BufTy).Contents (Elt F)),
    StableHlo.binary main_v7 main_v32 main_v33 (addi : (⟨S800000, .i32⟩ : BufTy).Contents (Elt F) → (⟨S800000, .i32⟩ : BufTy).Contents (Elt F) → (⟨S800000, .i32⟩ : BufTy).Contents (Elt F)),
    StableHlo.ternary main_v31 main_v33 main_v7 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v34 main_v35 (broadcastInDim S800000x1 ![0] bcast_S800000_S800000x1_0 : (⟨S800000, .i32⟩ : BufTy).Contents (Elt F) → (⟨S800000x1, .i32⟩ : BufTy).Contents (Elt F)),
    StableHlo.binary main_v19 main_v35 main_v36 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v29 main_v36 main_v37 (mulf : (⟨S800000, .f32⟩ : BufTy).Contents (Elt F) → (⟨S800000, .f32⟩ : BufTy).Contents (Elt F) → (⟨S800000, .f32⟩ : BufTy).Contents (Elt F)) ]

/-- The product with the weight matrix of order 0, the edge weights as a column, the sources as gather indices. -/
abbrev opsA4 : List (HloOp τ sig (Elt F)) :=
  [ StableHlo.unary main_arg2 main_v38 ((extractStridedSlice S1x96x96 ![0, 0, 0] · slices_S3x96x96_S1x96x96_0_0_0) : (⟨S3x96x96, .f32⟩ : BufTy).Contents (Elt F) → (⟨S1x96x96, .f32⟩ : BufTy).Contents (Elt F)),
    StableHlo.reshape main_v38 main_v39 rfl shapeCasts_S1x96x96_S96x96,
    StableHlo.binary main_arg0 main_v39 main_v40 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_v37 main_v41 (broadcastInDim S800000x1 ![0] bcast_S800000_S800000x1_0 : (⟨S800000, .f32⟩ : BufTy).Contents (Elt F) → (⟨S800000x1, .f32⟩ : BufTy).Contents (Elt F)),
    StableHlo.nullary main_c_8 (constantI S_ 32 0#32),
    StableHlo.unary main_c_8 main_v42 (broadcastInDim S800000 ![] bcast_S_S800000 : (⟨S_, .i32⟩ : BufTy).Contents (Elt F) → (⟨S800000, .i32⟩ : BufTy).Contents (Elt F)),
    StableHlo.binary main_v1 main_v42 main_v43 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v44 (broadcastInDim S800000 ![] bcast_S_S800000 : (⟨S_, .i32⟩ : BufTy).Contents (Elt F) → (⟨S800000, .i32⟩ : BufTy).Contents (Elt F)),
    StableHlo.binary main_v1 main_v44 main_v45 (addi : (⟨S800000, .i32⟩ : BufTy).Contents (Elt F) → (⟨S800000, .i32⟩ : BufTy).Contents (Elt F) → (⟨S800000, .i32⟩ : BufTy).Contents (Elt F)),
    StableHlo.ternary main_v43 main_v45 main_v1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v46 main_v47 (broadcastInDim S800000x1 ![0] bcast_S800000_S800000x1_0 : (⟨S800000, .i32⟩ : BufTy).Contents (Elt F) → (⟨S800000x1, .i32⟩ : BufTy).Contents (Elt F)) ]

/-- The first propagation: the weighted source rows summed by target node. -/
abbrev opsB1 : List (HloOp τ sig (Elt F)) :=
  [ StableHlo.binary main_arg0 main_v47 main_v48 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v41 main_v49 (broadcastInDim S800000x96 ![0, 1] bcast_S800000x1_S800000x96_0_1 : (⟨S800000x1, .f32⟩ : BufTy).Contents (Elt F) → (⟨S800000x96, .f32⟩ : BufTy).Contents (Elt F)),
    StableHlo.binary main_v49 main_v48 main_v50 (mulf : (⟨S800000x96, .f32⟩ : BufTy).Contents (Elt F) → (⟨S800000x96, .f32⟩ : BufTy).Contents (Elt F) → (⟨S800000x96, .f32⟩ : BufTy).Contents (Elt F)),
    StableHlo.nullary main_cst_10 (constant S_ .f32 0x00000000#32),
    StableHlo.unary main_cst_10 main_v51 (broadcastInDim S50000x96 ![] bcast_S_S50000x96 : (⟨S_, .f32⟩ : BufTy).Contents (Elt F) → (⟨S50000x96, .f32⟩ : BufTy).Contents (Elt F)),
    StableHlo.unary main_v3 main_v52 (broadcastInDim S800000x1 ![0] bcast_S800000_S800000x1_0 : (⟨S800000, .i32⟩ : BufTy).Contents (Elt F) → (⟨S800000x1, .i32⟩ : BufTy).Contents (Elt F)),
    StableHlo.ternary main_v51 main_v52 main_v50 main_v53 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)) ]

/-- The product of the first Chebyshev term with the weight matrix of order 1, added. -/
abbrev opsB2 : List (HloOp τ sig (Elt F)) :=
  [ StableHlo.unary main_arg2 main_v54 ((extractStridedSlice S1x96x96 ![1, 0, 0] · slices_S3x96x96_S1x96x96_1_0_0) : (⟨S3x96x96, .f32⟩ : BufTy).Contents (Elt F) → (⟨S1x96x96, .f32⟩ : BufTy).Contents (Elt F)),
    StableHlo.reshape main_v54 main_v55 rfl shapeCasts_S1x96x96_S96x96,
    StableHlo.binary main_v53 main_v55 main_v56 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.binary main_v40 main_v56 main_v57 (addf : (⟨S50000x96, .f32⟩ : BufTy).Contents (Elt F) → (⟨S50000x96, .f32⟩ : BufTy).Contents (Elt F) → (⟨S50000x96, .f32⟩ : BufTy).Contents (Elt F)) ]

/-- The second propagation, doubled, less the input: the second Chebyshev term. -/
abbrev opsB3 : List (HloOp τ sig (Elt F)) :=
  [ StableHlo.unary main_v37 main_v58 (broadcastInDim S800000x1 ![0] bcast_S800000_S800000x1_0 : (⟨S800000, .f32⟩ : BufTy).Contents (Elt F) → (⟨S800000x1, .f32⟩ : BufTy).Contents (Elt F)),
    StableHlo.nullary main_c_11 (constantI S_ 32 0#32),
    StableHlo.unary main_c_11 main_v59 (broadcastInDim S800000 ![] bcast_S_S800000 : (⟨S_, .i32⟩ : BufTy).Contents (Elt F) → (⟨S800000, .i32⟩ : BufTy).Contents (Elt F)),
    StableHlo.binary main_v1 main_v59 main_v60 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v61 (broadcastInDim S800000 ![] bcast_S_S800000 : (⟨S_, .i32⟩ : BufTy).Contents (Elt F) → (⟨S800000, .i32⟩ : BufTy).Contents (Elt F)),
    StableHlo.binary main_v1 main_v61 main_v62 (addi : (⟨S800000, .i32⟩ : BufTy).Contents (Elt F) → (⟨S800000, .i32⟩ : BufTy).Contents (Elt F) → (⟨S800000, .i32⟩ : BufTy).Contents (Elt F)),
    StableHlo.ternary main_v60 main_v62 main_v1 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v63 main_v64 (broadcastInDim S800000x1 ![0] bcast_S800000_S800000x1_0 : (⟨S800000, .i32⟩ : BufTy).Contents (Elt F) → (⟨S800000x1, .i32⟩ : BufTy).Contents (Elt F)),
    StableHlo.binary main_v53 main_v64 main_v65 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v58 main_v66 (broadcastInDim S800000x96 ![0, 1] bcast_S800000x1_S800000x96_0_1 : (⟨S800000x1, .f32⟩ : BufTy).Contents (Elt F) → (⟨S800000x96, .f32⟩ : BufTy).Contents (Elt F)),
    StableHlo.binary main_v66 main_v65 main_v67 (mulf : (⟨S800000x96, .f32⟩ : BufTy).Contents (Elt F) → (⟨S800000x96, .f32⟩ : BufTy).Contents (Elt F) → (⟨S800000x96, .f32⟩ : BufTy).Contents (Elt F)),
    StableHlo.nullary main_cst_13 (constant S_ .f32 0x00000000#32),
    StableHlo.unary main_cst_13 main_v68 (broadcastInDim S50000x96 ![] bcast_S_S50000x96 : (⟨S_, .f32⟩ : BufTy).Contents (Elt F) → (⟨S50000x96, .f32⟩ : BufTy).Contents (Elt F)),
    StableHlo.unary main_v3 main_v69 (broadcastInDim S800000x1 ![0] bcast_S800000_S800000x1_0 : (⟨S800000, .i32⟩ : BufTy).Contents (Elt F) → (⟨S800000x1, .i32⟩ : BufTy).Contents (Elt F)),
    StableHlo.ternary main_v68 main_v69 main_v67 main_v70 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.nullary main_cst_14 (constant S_ .f32 0x40000000#32),
    StableHlo.unary main_cst_14 main_v71 (broadcastInDim S50000x96 ![] bcast_S_S50000x96 : (⟨S_, .f32⟩ : BufTy).Contents (Elt F) → (⟨S50000x96, .f32⟩ : BufTy).Contents (Elt F)),
    StableHlo.binary main_v71 main_v70 main_v72 (mulf : (⟨S50000x96, .f32⟩ : BufTy).Contents (Elt F) → (⟨S50000x96, .f32⟩ : BufTy).Contents (Elt F) → (⟨S50000x96, .f32⟩ : BufTy).Contents (Elt F)),
    StableHlo.binary main_v72 main_arg0 main_v73 (subf : (⟨S50000x96, .f32⟩ : BufTy).Contents (Elt F) → (⟨S50000x96, .f32⟩ : BufTy).Contents (Elt F) → (⟨S50000x96, .f32⟩ : BufTy).Contents (Elt F)) ]

/-- The product with the weight matrix of order 2, added, and the bias over the rows. -/
abbrev opsB4 : List (HloOp τ sig (Elt F)) :=
  [ StableHlo.unary main_arg2 main_v74 ((extractStridedSlice S1x96x96 ![2, 0, 0] · slices_S3x96x96_S1x96x96_2_0_0) : (⟨S3x96x96, .f32⟩ : BufTy).Contents (Elt F) → (⟨S1x96x96, .f32⟩ : BufTy).Contents (Elt F)),
    StableHlo.reshape main_v74 main_v75 rfl shapeCasts_S1x96x96_S96x96,
    StableHlo.binary main_v73 main_v75 main_v76 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.binary main_v57 main_v76 main_v77 (addf : (⟨S50000x96, .f32⟩ : BufTy).Contents (Elt F) → (⟨S50000x96, .f32⟩ : BufTy).Contents (Elt F) → (⟨S50000x96, .f32⟩ : BufTy).Contents (Elt F)),
    StableHlo.unary main_arg3 main_v78 (broadcastInDim S1x96 ![1] bcast_S96_S1x96_1 : (⟨S96, .f32⟩ : BufTy).Contents (Elt F) → (⟨S1x96, .f32⟩ : BufTy).Contents (Elt F)),
    StableHlo.unary main_v78 main_v79 (broadcastInDim S50000x96 ![0, 1] bcast_S1x96_S50000x96_0_1 : (⟨S1x96, .f32⟩ : BufTy).Contents (Elt F) → (⟨S50000x96, .f32⟩ : BufTy).Contents (Elt F)),
    StableHlo.binary main_v77 main_v79 main_v80 (addf : (⟨S50000x96, .f32⟩ : BufTy).Contents (Elt F) → (⟨S50000x96, .f32⟩ : BufTy).Contents (Elt F) → (⟨S50000x96, .f32⟩ : BufTy).Contents (Elt F)) ]

/-- The column means. -/
abbrev opsB5 : List (HloOp τ sig (Elt F)) :=
  [ StableHlo.nullary main_cst_15 (constant S_ .f32 0x00000000#32),
    StableHlo.binary main_v80 main_cst_15 main_v81 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_16 (constant S_ .f32 0x47435000#32),
    StableHlo.unary main_cst_16 main_v82 (broadcastInDim S96 ![] bcast_S_S96 : (⟨S_, .f32⟩ : BufTy).Contents (Elt F) → (⟨S96, .f32⟩ : BufTy).Contents (Elt F)),
    StableHlo.binary main_v81 main_v82 main_v83 (Host.divf : (⟨S96, .f32⟩ : BufTy).Contents (Elt F) → (⟨S96, .f32⟩ : BufTy).Contents (Elt F) → (⟨S96, .f32⟩ : BufTy).Contents (Elt F)) ]

/-- The column variances: the squared deviations from the column mean summed and divided, selected by the sign of the divisor. -/
abbrev opsB6 : List (HloOp τ sig (Elt F)) :=
  [ StableHlo.nullary main_c_17 (constantI S_ 32 0#32),
    StableHlo.TRef.nullary (.of main_call2_cst : StableHlo.TRef sig ⟨S_, .f32⟩) (constant S_ .f32 0x00000000#32),
    StableHlo.TRef.binary (.of main_v80 : StableHlo.TRef sig ⟨S50000x96, .f32⟩) (.of main_call2_cst : StableHlo.TRef sig ⟨S_, .f32⟩) (.of main_call2_v0 : StableHlo.TRef sig ⟨S96, .f32⟩) (fun x v => Host.reduceAdd x v reducesTo_S50000x96_S96_d0 h_S_),
    StableHlo.TRef.unary (.of main_call2_v0 : StableHlo.TRef sig ⟨S96, .f32⟩) (.of main_call2_v1 : StableHlo.TRef sig ⟨S1x96, .f32⟩) (broadcastInDim S1x96 ![1] bcast_S96_S1x96_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x96, .f32⟩) (broadcastInDim S1x96 ![] bcast_S_S1x96),
    StableHlo.TRef.binary (.of main_call2_v1 : StableHlo.TRef sig ⟨S1x96, .f32⟩) (.of main_call2_v2 : StableHlo.TRef sig ⟨S1x96, .f32⟩) (.of main_call2_v3 : StableHlo.TRef sig ⟨S1x96, .f32⟩) Host.divf,
    StableHlo.TRef.unary (.of main_call2_v3 : StableHlo.TRef sig ⟨S1x96, .f32⟩) (.of main_call2_v4 : StableHlo.TRef sig ⟨S50000x96, .f32⟩) (broadcastInDim S50000x96 ![0, 1] bcast_S1x96_S50000x96_0_1),
    StableHlo.TRef.binary (.of main_v80 : StableHlo.TRef sig ⟨S50000x96, .f32⟩) (.of main_call2_v4 : StableHlo.TRef sig ⟨S50000x96, .f32⟩) (.of main_call2_v5 : StableHlo.TRef sig ⟨S50000x96, .f32⟩) subf,
    StableHlo.TRef.binary (.of main_call2_v5 : StableHlo.TRef sig ⟨S50000x96, .f32⟩) (.of main_call2_v5 : StableHlo.TRef sig ⟨S50000x96, .f32⟩) (.of main_call2_v6 : StableHlo.TRef sig ⟨S50000x96, .f32⟩) mulf,
    StableHlo.TRef.unary (.of main_c_17 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x96, .f32⟩) (.of main_call2_cst_2 : StableHlo.TRef sig ⟨S_, .f32⟩) (.of main_call2_v9 : StableHlo.TRef sig ⟨S96, .f32⟩) (fun x v => Host.reduceAdd x v reducesTo_S50000x96_S96_d0 h_S_),
    StableHlo.TRef.unary (.of main_call2_v8 : StableHlo.TRef sig ⟨S_, .f32⟩) (.of main_call2_v10 : StableHlo.TRef sig ⟨S96, .f32⟩) (broadcastInDim S96 ![] bcast_S_S96),
    StableHlo.TRef.binary (.of main_call2_v9 : StableHlo.TRef sig ⟨S96, .f32⟩) (.of main_call2_v10 : StableHlo.TRef sig ⟨S96, .f32⟩) (.of main_call2_v11 : StableHlo.TRef sig ⟨S96, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S96, .f32⟩) (broadcastInDim S96 ![] bcast_S_S96),
    StableHlo.TRef.ternary (.of main_call2_v12 : StableHlo.TRef sig ⟨S_, .i1⟩) (.of main_call2_v11 : StableHlo.TRef sig ⟨S96, .f32⟩) (.of main_call2_call0_v1 : StableHlo.TRef sig ⟨S96, .f32⟩) (.of main_v84 : StableHlo.TRef sig ⟨S96, .f32⟩) (fun p a b => select (broadcastInDim S96 ![] bcast_S_S96 p) a b) ]

/-- The deviations from the mean times the inverse standard deviation times the scale; the shift over the rows. -/
abbrev opsB7 : List (HloOp τ sig (Elt F)) :=
  [ StableHlo.unary main_v83 main_v85 (broadcastInDim S1x96 ![1] bcast_S96_S1x96_1 : (⟨S96, .f32⟩ : BufTy).Contents (Elt F) → (⟨S1x96, .f32⟩ : BufTy).Contents (Elt F)),
    StableHlo.unary main_v85 main_v86 (broadcastInDim S50000x96 ![0, 1] bcast_S1x96_S50000x96_0_1 : (⟨S1x96, .f32⟩ : BufTy).Contents (Elt F) → (⟨S50000x96, .f32⟩ : BufTy).Contents (Elt F)),
    StableHlo.binary main_v80 main_v86 main_v87 (subf : (⟨S50000x96, .f32⟩ : BufTy).Contents (Elt F) → (⟨S50000x96, .f32⟩ : BufTy).Contents (Elt F) → (⟨S50000x96, .f32⟩ : BufTy).Contents (Elt F)),
    StableHlo.nullary main_cst_18 (constant S_ .f32 0x3727C5AC#32),
    StableHlo.unary main_cst_18 main_v88 (broadcastInDim S96 ![] bcast_S_S96 : (⟨S_, .f32⟩ : BufTy).Contents (Elt F) → (⟨S96, .f32⟩ : BufTy).Contents (Elt F)),
    StableHlo.binary main_v84 main_v88 main_v89 (addf : (⟨S96, .f32⟩ : BufTy).Contents (Elt F) → (⟨S96, .f32⟩ : BufTy).Contents (Elt F) → (⟨S96, .f32⟩ : BufTy).Contents (Elt F)),
    StableHlo.unary main_v89 main_v90 (Host.rsqrt : (⟨S96, .f32⟩ : BufTy).Contents (Elt F) → (⟨S96, .f32⟩ : BufTy).Contents (Elt F)),
    StableHlo.unary main_v90 main_v91 (broadcastInDim S1x96 ![1] bcast_S96_S1x96_1 : (⟨S96, .f32⟩ : BufTy).Contents (Elt F) → (⟨S1x96, .f32⟩ : BufTy).Contents (Elt F)),
    StableHlo.unary main_v91 main_v92 (broadcastInDim S50000x96 ![0, 1] bcast_S1x96_S50000x96_0_1 : (⟨S1x96, .f32⟩ : BufTy).Contents (Elt F) → (⟨S50000x96, .f32⟩ : BufTy).Contents (Elt F)),
    StableHlo.binary main_v87 main_v92 main_v93 (mulf : (⟨S50000x96, .f32⟩ : BufTy).Contents (Elt F) → (⟨S50000x96, .f32⟩ : BufTy).Contents (Elt F) → (⟨S50000x96, .f32⟩ : BufTy).Contents (Elt F)),
    StableHlo.unary main_arg4 main_v94 (broadcastInDim S1x96 ![1] bcast_S96_S1x96_1 : (⟨S96, .f32⟩ : BufTy).Contents (Elt F) → (⟨S1x96, .f32⟩ : BufTy).Contents (Elt F)),
    StableHlo.unary main_v94 main_v95 (broadcastInDim S50000x96 ![0, 1] bcast_S1x96_S50000x96_0_1 : (⟨S1x96, .f32⟩ : BufTy).Contents (Elt F) → (⟨S50000x96, .f32⟩ : BufTy).Contents (Elt F)),
    StableHlo.binary main_v93 main_v95 main_v96 (mulf : (⟨S50000x96, .f32⟩ : BufTy).Contents (Elt F) → (⟨S50000x96, .f32⟩ : BufTy).Contents (Elt F) → (⟨S50000x96, .f32⟩ : BufTy).Contents (Elt F)),
    StableHlo.unary main_arg5 main_v97 (broadcastInDim S1x96 ![1] bcast_S96_S1x96_1 : (⟨S96, .f32⟩ : BufTy).Contents (Elt F) → (⟨S1x96, .f32⟩ : BufTy).Contents (Elt F)),
    StableHlo.unary main_v97 main_v98 (broadcastInDim S50000x96 ![0, 1] bcast_S1x96_S50000x96_0_1 : (⟨S1x96, .f32⟩ : BufTy).Contents (Elt F) → (⟨S50000x96, .f32⟩ : BufTy).Contents (Elt F)) ]

/-- The shift added. -/
abbrev opsC : List (HloOp τ sig (Elt F)) :=
  [ StableHlo.binary main_v96 main_v98 main_v99 (addf : (⟨S50000x96, .f32⟩ : BufTy).Contents (Elt F) → (⟨S50000x96, .f32⟩ : BufTy).Contents (Elt F) → (⟨S50000x96, .f32⟩ : BufTy).Contents (Elt F)) ]

/-- The operations of the program's window 0. -/
abbrev ops_part0 : List (HloOp τ sig (Elt F)) :=
  opsA1 ++ (opsA2 ++ (opsA3 ++ (opsA4)))

/-- The operations of the program's window 1. -/
abbrev ops_part1 : List (HloOp τ sig (Elt F)) :=
  opsB1 ++ (opsB2 ++ (opsB3 ++ (opsB4 ++ (opsB5 ++ (opsB6 ++ (opsB7))))))

/-- The operations of the program's window 2. -/
abbrev ops_part2 : List (HloOp τ sig (Elt F)) :=
  opsC

/-- All of `@main`'s operations, in order. -/
abbrev ops : List (HloOp τ sig (Elt F)) :=
  ops_part0 ++ (ops_part1 ++ ops_part2)

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
/-- `@main` is the line of its operations. -/
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA1_sub : (opsA1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., nullary_bufs_sub .., nullary_bufs_sub .., unary_bufs_sub .., unary_bufs_sub .., ternary_bufs_sub ..⟩
set_option maxRecDepth 8192 in
theorem opsA2_sub : (opsA2 : List (HloOp τ sig (Elt F))).Forall fun op => op.bufs ⊆ tcRefs τ sig :=
  ⟨nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
set_option maxRecDepth 8192 in
theorem opsA3_sub : (opsA3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem opsA4_sub : (opsA4 : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub ..⟩
set_option maxRecDepth 8192 in
theorem opsB1_sub : (opsB1 : List (HloOp τ sig (Elt F))).Forall fun op => op.bufs ⊆ tcRefs τ sig :=
  ⟨binary_bufs_sub .., unary_bufs_sub .., binary_bufs_sub .., nullary_bufs_sub .., unary_bufs_sub .., unary_bufs_sub .., ternary_bufs_sub ..⟩
set_option maxRecDepth 8192 in
theorem opsB2_sub : (opsB2 : List (HloOp τ sig (Elt F))).Forall fun op => op.bufs ⊆ tcRefs τ sig :=
  ⟨unary_bufs_sub .., reshape_bufs_sub .., binary_bufs_sub .., binary_bufs_sub ..⟩
set_option maxRecDepth 8192 in
theorem opsB3_sub : (opsB3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub ..⟩
set_option maxRecDepth 8192 in
theorem opsB4_sub : (opsB4 : List (HloOp τ sig (Elt F))).Forall fun op => op.bufs ⊆ tcRefs τ sig :=
  ⟨unary_bufs_sub .., reshape_bufs_sub .., binary_bufs_sub .., binary_bufs_sub .., unary_bufs_sub .., unary_bufs_sub .., binary_bufs_sub ..⟩
set_option maxRecDepth 8192 in
theorem opsB5_sub : (opsB5 : List (HloOp τ sig (Elt F))).Forall fun op => op.bufs ⊆ tcRefs τ sig :=
  ⟨nullary_bufs_sub .., binary_bufs_sub .., nullary_bufs_sub .., unary_bufs_sub .., binary_bufs_sub ..⟩
set_option maxRecDepth 8192 in
theorem opsB6_sub : (opsB6 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem opsB7_sub : (opsB7 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩
set_option maxRecDepth 8192 in
theorem opsC_sub : (opsC : List (HloOp τ sig (Elt F))).Forall fun op => op.bufs ⊆ tcRefs τ sig :=
  binary_bufs_sub ..
/-- Every operation works on TensorCore buffers. -/
theorem ops_sub : (ops : List (HloOp τ sig (Elt F))).Forall fun op => op.bufs ⊆ tcRefs τ sig :=
  List.forall_append.mpr ⟨List.forall_append.mpr ⟨opsA1_sub, List.forall_append.mpr ⟨opsA2_sub, List.forall_append.mpr ⟨opsA3_sub, opsA4_sub⟩⟩⟩, List.forall_append.mpr ⟨List.forall_append.mpr ⟨opsB1_sub, List.forall_append.mpr ⟨opsB2_sub, List.forall_append.mpr ⟨opsB3_sub, List.forall_append.mpr ⟨opsB4_sub, List.forall_append.mpr ⟨opsB5_sub, List.forall_append.mpr ⟨opsB6_sub, opsB7_sub⟩⟩⟩⟩⟩⟩, opsC_sub⟩⟩

/-- The contents after two lines run in turn. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The six argument arrays in a valuation. -/
abbrev aX (V0 : Valuation τ sig (Elt F)) : C F S50000x96 .f32 := V0 (Proc.devRef .tc main_arg0)
@[inherit_doc aX] abbrev aEi (V0 : Valuation τ sig (Elt F)) : C F S2x800000 .i32 := V0 (Proc.devRef .tc main_arg1)
@[inherit_doc aX] abbrev aW (V0 : Valuation τ sig (Elt F)) : C F S3x96x96 .f32 := V0 (Proc.devRef .tc main_arg2)
@[inherit_doc aX] abbrev aBias (V0 : Valuation τ sig (Elt F)) : C F S96 .f32 := V0 (Proc.devRef .tc main_arg3)
@[inherit_doc aX] abbrev aGamma (V0 : Valuation τ sig (Elt F)) : C F S96 .f32 := V0 (Proc.devRef .tc main_arg4)
@[inherit_doc aX] abbrev aBeta (V0 : Valuation τ sig (Elt F)) : C F S96 .f32 := V0 (Proc.devRef .tc main_arg5)

/-- The buffer contents after the stretch `opsA1`. -/
def valA1 (V0 : Valuation τ sig (Elt F)) : Valuation τ sig (Elt F) := after opsA1 (V0)
set_option maxRecDepth 8192 in
theorem valA1_main_arg0 (V0 : Valuation τ sig (Elt F)) : valA1 V0 (no_index (Proc.devRef .tc main_arg0)) = V0 (Proc.devRef .tc main_arg0) := by
  unfold valA1
  simp only [opsA1]
  after_results_simp
  first | done | rfl
set_option maxRecDepth 8192 in
theorem valA1_main_arg1 (V0 : Valuation τ sig (Elt F)) : valA1 V0 (no_index (Proc.devRef .tc main_arg1)) = V0 (Proc.devRef .tc main_arg1) := by
  unfold valA1
  simp only [opsA1]
  after_results_simp
  first | done | rfl
set_option maxRecDepth 8192 in
theorem valA1_main_arg2 (V0 : Valuation τ sig (Elt F)) : valA1 V0 (no_index (Proc.devRef .tc main_arg2)) = V0 (Proc.devRef .tc main_arg2) := by
  unfold valA1
  simp only [opsA1]
  after_results_simp
  first | done | rfl
set_option maxRecDepth 8192 in
theorem valA1_main_arg3 (V0 : Valuation τ sig (Elt F)) : valA1 V0 (no_index (Proc.devRef .tc main_arg3)) = V0 (Proc.devRef .tc main_arg3) := by
  unfold valA1
  simp only [opsA1]
  after_results_simp
  first | done | rfl
set_option maxRecDepth 8192 in
theorem valA1_main_arg4 (V0 : Valuation τ sig (Elt F)) : valA1 V0 (no_index (Proc.devRef .tc main_arg4)) = V0 (Proc.devRef .tc main_arg4) := by
  unfold valA1
  simp only [opsA1]
  after_results_simp
  first | done | rfl
set_option maxRecDepth 8192 in
theorem valA1_main_arg5 (V0 : Valuation τ sig (Elt F)) : valA1 V0 (no_index (Proc.devRef .tc main_arg5)) = V0 (Proc.devRef .tc main_arg5) := by
  unfold valA1
  simp only [opsA1]
  after_results_simp
  first | done | rfl
set_option maxRecDepth 8192 in
theorem valA1_main_v1 (V0 : Valuation τ sig (Elt F)) : valA1 V0 (no_index (Proc.devRef .tc main_v1)) = (rowOf (aEi V0)) := by
  unfold valA1
  simp only [opsA1]
  after_results_simp
  first | done | rfl
set_option maxRecDepth 8192 in
theorem valA1_main_v3 (V0 : Valuation τ sig (Elt F)) : valA1 V0 (no_index (Proc.devRef .tc main_v3)) = (colOf (aEi V0)) := by
  unfold valA1
  simp only [opsA1]
  after_results_simp
  first | done | rfl
set_option maxRecDepth 8192 in
theorem valA1_main_v5 (V0 : Valuation τ sig (Elt F)) : valA1 V0 (no_index (Proc.devRef .tc main_v5)) = (rowOf (aEi V0)) := by
  unfold valA1
  simp only [opsA1]
  after_results_simp
  first | done | rfl
set_option maxRecDepth 8192 in
theorem valA1_main_v7 (V0 : Valuation τ sig (Elt F)) : valA1 V0 (no_index (Proc.devRef .tc main_v7)) = (colOf (aEi V0)) := by
  unfold valA1
  simp only [opsA1]
  after_results_simp
  first | done | rfl
set_option maxRecDepth 8192 in
theorem valA1_main_v9 (V0 : Valuation τ sig (Elt F)) : valA1 V0 (no_index (Proc.devRef .tc main_v9)) = (wOf (rowOf (aEi V0)) (colOf (aEi V0))) := by
  unfold valA1
  simp only [opsA1]
  after_results_simp
  first | done | rfl

/-- The buffer contents after the stretch `opsA2`. -/
def valA2 (V0 : Valuation τ sig (Elt F)) : Valuation τ sig (Elt F) := after opsA2 (valA1 V0)
set_option maxRecDepth 8192 in
theorem valA2_main_arg0 (V0 : Valuation τ sig (Elt F)) : valA2 V0 (no_index (Proc.devRef .tc main_arg0)) = V0 (Proc.devRef .tc main_arg0) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl
set_option maxRecDepth 8192 in
theorem valA2_main_arg1 (V0 : Valuation τ sig (Elt F)) : valA2 V0 (no_index (Proc.devRef .tc main_arg1)) = V0 (Proc.devRef .tc main_arg1) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl
set_option maxRecDepth 8192 in
theorem valA2_main_arg2 (V0 : Valuation τ sig (Elt F)) : valA2 V0 (no_index (Proc.devRef .tc main_arg2)) = V0 (Proc.devRef .tc main_arg2) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl
set_option maxRecDepth 8192 in
theorem valA2_main_arg3 (V0 : Valuation τ sig (Elt F)) : valA2 V0 (no_index (Proc.devRef .tc main_arg3)) = V0 (Proc.devRef .tc main_arg3) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl
set_option maxRecDepth 8192 in
theorem valA2_main_arg4 (V0 : Valuation τ sig (Elt F)) : valA2 V0 (no_index (Proc.devRef .tc main_arg4)) = V0 (Proc.devRef .tc main_arg4) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl
set_option maxRecDepth 8192 in
theorem valA2_main_arg5 (V0 : Valuation τ sig (Elt F)) : valA2 V0 (no_index (Proc.devRef .tc main_arg5)) = V0 (Proc.devRef .tc main_arg5) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl
set_option maxRecDepth 8192 in
theorem valA2_main_v1 (V0 : Valuation τ sig (Elt F)) : valA2 V0 (no_index (Proc.devRef .tc main_v1)) = (rowOf (aEi V0)) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl
set_option maxRecDepth 8192 in
theorem valA2_main_v3 (V0 : Valuation τ sig (Elt F)) : valA2 V0 (no_index (Proc.devRef .tc main_v3)) = (colOf (aEi V0)) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl
set_option maxRecDepth 8192 in
theorem valA2_main_v5 (V0 : Valuation τ sig (Elt F)) : valA2 V0 (no_index (Proc.devRef .tc main_v5)) = (rowOf (aEi V0)) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl
set_option maxRecDepth 8192 in
theorem valA2_main_v7 (V0 : Valuation τ sig (Elt F)) : valA2 V0 (no_index (Proc.devRef .tc main_v7)) = (colOf (aEi V0)) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl
set_option maxRecDepth 8192 in
theorem valA2_main_v9 (V0 : Valuation τ sig (Elt F)) : valA2 V0 (no_index (Proc.devRef .tc main_v9)) = (wOf (rowOf (aEi V0)) (colOf (aEi V0))) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl
set_option maxRecDepth 8192 in
theorem valA2_main_v19 (V0 : Valuation τ sig (Elt F)) : valA2 V0 (no_index (Proc.devRef .tc main_v19)) = disOf (degOf (rowOf (aEi V0)) (wOf (rowOf (aEi V0)) (colOf (aEi V0)))) := by
  unfold valA2
  simp only [opsA2]
  after_results_simp
  try simp only [valA1_main_arg0, valA1_main_arg1, valA1_main_arg2, valA1_main_arg3, valA1_main_arg4, valA1_main_arg5, valA1_main_v1, valA1_main_v3, valA1_main_v5, valA1_main_v7, valA1_main_v9]
  first | done | rfl

/-- The buffer contents after the stretch `opsA3`. -/
def valA3 (V0 : Valuation τ sig (Elt F)) : Valuation τ sig (Elt F) := after opsA3 (valA2 V0)
set_option maxRecDepth 8192 in
theorem valA3_main_arg0 (V0 : Valuation τ sig (Elt F)) : valA3 V0 (no_index (Proc.devRef .tc main_arg0)) = V0 (Proc.devRef .tc main_arg0) := by
  unfold valA3
  simp only [opsA3]
  after_results_simp
  try simp only [valA2_main_arg0, valA2_main_arg1, valA2_main_arg2, valA2_main_arg3, valA2_main_arg4, valA2_main_arg5, valA2_main_v1, valA2_main_v3, valA2_main_v5, valA2_main_v7, valA2_main_v9, valA2_main_v19]
  first | done | rfl
set_option maxRecDepth 8192 in
theorem valA3_main_arg1 (V0 : Valuation τ sig (Elt F)) : valA3 V0 (no_index (Proc.devRef .tc main_arg1)) = V0 (Proc.devRef .tc main_arg1) := by
  unfold valA3
  simp only [opsA3]
  after_results_simp
  try simp only [valA2_main_arg0, valA2_main_arg1, valA2_main_arg2, valA2_main_arg3, valA2_main_arg4, valA2_main_arg5, valA2_main_v1, valA2_main_v3, valA2_main_v5, valA2_main_v7, valA2_main_v9, valA2_main_v19]
  first | done | rfl
set_option maxRecDepth 8192 in
theorem valA3_main_arg2 (V0 : Valuation τ sig (Elt F)) : valA3 V0 (no_index (Proc.devRef .tc main_arg2)) = V0 (Proc.devRef .tc main_arg2) := by
  unfold valA3
  simp only [opsA3]
  after_results_simp
  try simp only [valA2_main_arg0, valA2_main_arg1, valA2_main_arg2, valA2_main_arg3, valA2_main_arg4, valA2_main_arg5, valA2_main_v1, valA2_main_v3, valA2_main_v5, valA2_main_v7, valA2_main_v9, valA2_main_v19]
  first | done | rfl
set_option maxRecDepth 8192 in
theorem valA3_main_arg3 (V0 : Valuation τ sig (Elt F)) : valA3 V0 (no_index (Proc.devRef .tc main_arg3)) = V0 (Proc.devRef .tc main_arg3) := by
  unfold valA3
  simp only [opsA3]
  after_results_simp
  try simp only [valA2_main_arg0, valA2_main_arg1, valA2_main_arg2, valA2_main_arg3, valA2_main_arg4, valA2_main_arg5, valA2_main_v1, valA2_main_v3, valA2_main_v5, valA2_main_v7, valA2_main_v9, valA2_main_v19]
  first | done | rfl
set_option maxRecDepth 8192 in
theorem valA3_main_arg4 (V0 : Valuation τ sig (Elt F)) : valA3 V0 (no_index (Proc.devRef .tc main_arg4)) = V0 (Proc.devRef .tc main_arg4) := by
  unfold valA3
  simp only [opsA3]
  after_results_simp
  try simp only [valA2_main_arg0, valA2_main_arg1, valA2_main_arg2, valA2_main_arg3, valA2_main_arg4, valA2_main_arg5, valA2_main_v1, valA2_main_v3, valA2_main_v5, valA2_main_v7, valA2_main_v9, valA2_main_v19]
  first | done | rfl
set_option maxRecDepth 8192 in
theorem valA3_main_arg5 (V0 : Valuation τ sig (Elt F)) : valA3 V0 (no_index (Proc.devRef .tc main_arg5)) = V0 (Proc.devRef .tc main_arg5) := by
  unfold valA3
  simp only [opsA3]
  after_results_simp
  try simp only [valA2_main_arg0, valA2_main_arg1, valA2_main_arg2, valA2_main_arg3, valA2_main_arg4, valA2_main_arg5, valA2_main_v1, valA2_main_v3, valA2_main_v5, valA2_main_v7, valA2_main_v9, valA2_main_v19]
  first | done | rfl
set_option maxRecDepth 8192 in
theorem valA3_main_v1 (V0 : Valuation τ sig (Elt F)) : valA3 V0 (no_index (Proc.devRef .tc main_v1)) = (rowOf (aEi V0)) := by
  unfold valA3
  simp only [opsA3]
  after_results_simp
  try simp only [valA2_main_arg0, valA2_main_arg1, valA2_main_arg2, valA2_main_arg3, valA2_main_arg4, valA2_main_arg5, valA2_main_v1, valA2_main_v3, valA2_main_v5, valA2_main_v7, valA2_main_v9, valA2_main_v19]
  first | done | rfl
set_option maxRecDepth 8192 in
theorem valA3_main_v3 (V0 : Valuation τ sig (Elt F)) : valA3 V0 (no_index (Proc.devRef .tc main_v3)) = (colOf (aEi V0)) := by
  unfold valA3
  simp only [opsA3]
  after_results_simp
  try simp only [valA2_main_arg0, valA2_main_arg1, valA2_main_arg2, valA2_main_arg3, valA2_main_arg4, valA2_main_arg5, valA2_main_v1, valA2_main_v3, valA2_main_v5, valA2_main_v7, valA2_main_v9, valA2_main_v19]
  first | done | rfl
set_option maxRecDepth 8192 in
theorem valA3_main_v37 (V0 : Valuation τ sig (Elt F)) : valA3 V0 (no_index (Proc.devRef .tc main_v37)) = (normOf (rowOf (aEi V0)) (colOf (aEi V0))) := by
  unfold valA3
  simp only [opsA3]
  after_results_simp
  try simp only [valA2_main_arg0, valA2_main_arg1, valA2_main_arg2, valA2_main_arg3, valA2_main_arg4, valA2_main_arg5, valA2_main_v1, valA2_main_v3, valA2_main_v5, valA2_main_v7, valA2_main_v9, valA2_main_v19]
  first | done | rfl

/-- The buffer contents after the stretch `opsA4`. -/
def valA4 (V0 : Valuation τ sig (Elt F)) : Valuation τ sig (Elt F) := after opsA4 (valA3 V0)
set_option maxRecDepth 8192 in
theorem valA4_main_arg0 (V0 : Valuation τ sig (Elt F)) : valA4 V0 (no_index (Proc.devRef .tc main_arg0)) = V0 (Proc.devRef .tc main_arg0) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl
set_option maxRecDepth 8192 in
theorem valA4_main_arg1 (V0 : Valuation τ sig (Elt F)) : valA4 V0 (no_index (Proc.devRef .tc main_arg1)) = V0 (Proc.devRef .tc main_arg1) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl
set_option maxRecDepth 8192 in
theorem valA4_main_arg2 (V0 : Valuation τ sig (Elt F)) : valA4 V0 (no_index (Proc.devRef .tc main_arg2)) = V0 (Proc.devRef .tc main_arg2) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl
set_option maxRecDepth 8192 in
theorem valA4_main_arg3 (V0 : Valuation τ sig (Elt F)) : valA4 V0 (no_index (Proc.devRef .tc main_arg3)) = V0 (Proc.devRef .tc main_arg3) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl
set_option maxRecDepth 8192 in
theorem valA4_main_arg4 (V0 : Valuation τ sig (Elt F)) : valA4 V0 (no_index (Proc.devRef .tc main_arg4)) = V0 (Proc.devRef .tc main_arg4) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl
set_option maxRecDepth 8192 in
theorem valA4_main_arg5 (V0 : Valuation τ sig (Elt F)) : valA4 V0 (no_index (Proc.devRef .tc main_arg5)) = V0 (Proc.devRef .tc main_arg5) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl
set_option maxRecDepth 8192 in
theorem valA4_main_v1 (V0 : Valuation τ sig (Elt F)) : valA4 V0 (no_index (Proc.devRef .tc main_v1)) = (rowOf (aEi V0)) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl
set_option maxRecDepth 8192 in
theorem valA4_main_v3 (V0 : Valuation τ sig (Elt F)) : valA4 V0 (no_index (Proc.devRef .tc main_v3)) = (colOf (aEi V0)) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl
set_option maxRecDepth 8192 in
theorem valA4_main_v37 (V0 : Valuation τ sig (Elt F)) : valA4 V0 (no_index (Proc.devRef .tc main_v37)) = (normOf (rowOf (aEi V0)) (colOf (aEi V0))) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl
set_option maxRecDepth 8192 in
theorem valA4_main_v40 (V0 : Valuation τ sig (Elt F)) : valA4 V0 (no_index (Proc.devRef .tc main_v40)) = Host.dotGeneral dot_S50000x96_S96x96_S50000x96_1_0_0_1_n_n none (aX V0) (w0Of (aW V0)) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl
set_option maxRecDepth 8192 in
theorem valA4_main_v41 (V0 : Valuation τ sig (Elt F)) : valA4 V0 (no_index (Proc.devRef .tc main_v41)) = broadcastInDim S800000x1 ![0] bcast_S800000_S800000x1_0 (normOf (rowOf (aEi V0)) (colOf (aEi V0))) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl
set_option maxRecDepth 8192 in
theorem valA4_main_v47 (V0 : Valuation τ sig (Elt F)) : valA4 V0 (no_index (Proc.devRef .tc main_v47)) = wrapOf (rowOf (aEi V0)) := by
  unfold valA4
  simp only [opsA4]
  after_results_simp
  try simp only [valA3_main_arg0, valA3_main_arg1, valA3_main_arg2, valA3_main_arg3, valA3_main_arg4, valA3_main_arg5, valA3_main_v1, valA3_main_v3, valA3_main_v37]
  first | done | rfl

/-- The buffer contents after the stretch `opsB1`. -/
def valB1 (V0 : Valuation τ sig (Elt F)) : Valuation τ sig (Elt F) := after opsB1 (valA4 V0)
set_option maxRecDepth 8192 in
theorem valB1_main_arg0 (V0 : Valuation τ sig (Elt F)) : valB1 V0 (no_index (Proc.devRef .tc main_arg0)) = V0 (Proc.devRef .tc main_arg0) := by
  unfold valB1
  simp only [opsB1]
  after_results_simp
  try simp only [valA4_main_arg0, valA4_main_arg1, valA4_main_arg2, valA4_main_arg3, valA4_main_arg4, valA4_main_arg5, valA4_main_v1, valA4_main_v3, valA4_main_v37, valA4_main_v40, valA4_main_v41, valA4_main_v47]
  first | done | rfl
set_option maxRecDepth 8192 in
theorem valB1_main_arg1 (V0 : Valuation τ sig (Elt F)) : valB1 V0 (no_index (Proc.devRef .tc main_arg1)) = V0 (Proc.devRef .tc main_arg1) := by
  unfold valB1
  simp only [opsB1]
  after_results_simp
  try simp only [valA4_main_arg0, valA4_main_arg1, valA4_main_arg2, valA4_main_arg3, valA4_main_arg4, valA4_main_arg5, valA4_main_v1, valA4_main_v3, valA4_main_v37, valA4_main_v40, valA4_main_v41, valA4_main_v47]
  first | done | rfl
set_option maxRecDepth 8192 in
theorem valB1_main_arg2 (V0 : Valuation τ sig (Elt F)) : valB1 V0 (no_index (Proc.devRef .tc main_arg2)) = V0 (Proc.devRef .tc main_arg2) := by
  unfold valB1
  simp only [opsB1]
  after_results_simp
  try simp only [valA4_main_arg0, valA4_main_arg1, valA4_main_arg2, valA4_main_arg3, valA4_main_arg4, valA4_main_arg5, valA4_main_v1, valA4_main_v3, valA4_main_v37, valA4_main_v40, valA4_main_v41, valA4_main_v47]
  first | done | rfl
set_option maxRecDepth 8192 in
theorem valB1_main_arg3 (V0 : Valuation τ sig (Elt F)) : valB1 V0 (no_index (Proc.devRef .tc main_arg3)) = V0 (Proc.devRef .tc main_arg3) := by
  unfold valB1
  simp only [opsB1]
  after_results_simp
  try simp only [valA4_main_arg0, valA4_main_arg1, valA4_main_arg2, valA4_main_arg3, valA4_main_arg4, valA4_main_arg5, valA4_main_v1, valA4_main_v3, valA4_main_v37, valA4_main_v40, valA4_main_v41, valA4_main_v47]
  first | done | rfl
set_option maxRecDepth 8192 in
theorem valB1_main_arg4 (V0 : Valuation τ sig (Elt F)) : valB1 V0 (no_index (Proc.devRef .tc main_arg4)) = V0 (Proc.devRef .tc main_arg4) := by
  unfold valB1
  simp only [opsB1]
  after_results_simp
  try simp only [valA4_main_arg0, valA4_main_arg1, valA4_main_arg2, valA4_main_arg3, valA4_main_arg4, valA4_main_arg5, valA4_main_v1, valA4_main_v3, valA4_main_v37, valA4_main_v40, valA4_main_v41, valA4_main_v47]
  first | done | rfl
set_option maxRecDepth 8192 in
theorem valB1_main_arg5 (V0 : Valuation τ sig (Elt F)) : valB1 V0 (no_index (Proc.devRef .tc main_arg5)) = V0 (Proc.devRef .tc main_arg5) := by
  unfold valB1
  simp only [opsB1]
  after_results_simp
  try simp only [valA4_main_arg0, valA4_main_arg1, valA4_main_arg2, valA4_main_arg3, valA4_main_arg4, valA4_main_arg5, valA4_main_v1, valA4_main_v3, valA4_main_v37, valA4_main_v40, valA4_main_v41, valA4_main_v47]
  first | done | rfl
set_option maxRecDepth 8192 in
theorem valB1_main_v1 (V0 : Valuation τ sig (Elt F)) : valB1 V0 (no_index (Proc.devRef .tc main_v1)) = (rowOf (aEi V0)) := by
  unfold valB1
  simp only [opsB1]
  after_results_simp
  try simp only [valA4_main_arg0, valA4_main_arg1, valA4_main_arg2, valA4_main_arg3, valA4_main_arg4, valA4_main_arg5, valA4_main_v1, valA4_main_v3, valA4_main_v37, valA4_main_v40, valA4_main_v41, valA4_main_v47]
  first | done | rfl
set_option maxRecDepth 8192 in
theorem valB1_main_v3 (V0 : Valuation τ sig (Elt F)) : valB1 V0 (no_index (Proc.devRef .tc main_v3)) = (colOf (aEi V0)) := by
  unfold valB1
  simp only [opsB1]
  after_results_simp
  try simp only [valA4_main_arg0, valA4_main_arg1, valA4_main_arg2, valA4_main_arg3, valA4_main_arg4, valA4_main_arg5, valA4_main_v1, valA4_main_v3, valA4_main_v37, valA4_main_v40, valA4_main_v41, valA4_main_v47]
  first | done | rfl
set_option maxRecDepth 8192 in
theorem valB1_main_v37 (V0 : Valuation τ sig (Elt F)) : valB1 V0 (no_index (Proc.devRef .tc main_v37)) = (normOf (rowOf (aEi V0)) (colOf (aEi V0))) := by
  unfold valB1
  simp only [opsB1]
  after_results_simp
  try simp only [valA4_main_arg0, valA4_main_arg1, valA4_main_arg2, valA4_main_arg3, valA4_main_arg4, valA4_main_arg5, valA4_main_v1, valA4_main_v3, valA4_main_v37, valA4_main_v40, valA4_main_v41, valA4_main_v47]
  first | done | rfl
set_option maxRecDepth 8192 in
theorem valB1_main_v40 (V0 : Valuation τ sig (Elt F)) : valB1 V0 (no_index (Proc.devRef .tc main_v40)) = Host.dotGeneral dot_S50000x96_S96x96_S50000x96_1_0_0_1_n_n none (aX V0) (w0Of (aW V0)) := by
  unfold valB1
  simp only [opsB1]
  after_results_simp
  try simp only [valA4_main_arg0, valA4_main_arg1, valA4_main_arg2, valA4_main_arg3, valA4_main_arg4, valA4_main_arg5, valA4_main_v1, valA4_main_v3, valA4_main_v37, valA4_main_v40, valA4_main_v41, valA4_main_v47]
  first | done | rfl
set_option maxRecDepth 8192 in
theorem valB1_main_v53 (V0 : Valuation τ sig (Elt F)) : valB1 V0 (no_index (Proc.devRef .tc main_v53)) = (tx1Of (aX V0) (aEi V0)) := by
  unfold valB1
  simp only [opsB1]
  after_results_simp
  try simp only [valA4_main_arg0, valA4_main_arg1, valA4_main_arg2, valA4_main_arg3, valA4_main_arg4, valA4_main_arg5, valA4_main_v1, valA4_main_v3, valA4_main_v37, valA4_main_v40, valA4_main_v41, valA4_main_v47]
  first | done | rfl

/-- The buffer contents after the stretch `opsB2`. -/
def valB2 (V0 : Valuation τ sig (Elt F)) : Valuation τ sig (Elt F) := after opsB2 (valB1 V0)
set_option maxRecDepth 8192 in
theorem valB2_main_arg0 (V0 : Valuation τ sig (Elt F)) : valB2 V0 (no_index (Proc.devRef .tc main_arg0)) = V0 (Proc.devRef .tc main_arg0) := by
  unfold valB2
  simp only [opsB2]
  after_results_simp
  try simp only [valB1_main_arg0, valB1_main_arg1, valB1_main_arg2, valB1_main_arg3, valB1_main_arg4, valB1_main_arg5, valB1_main_v1, valB1_main_v3, valB1_main_v37, valB1_main_v40, valB1_main_v53]
  first | done | rfl
set_option maxRecDepth 8192 in
theorem valB2_main_arg1 (V0 : Valuation τ sig (Elt F)) : valB2 V0 (no_index (Proc.devRef .tc main_arg1)) = V0 (Proc.devRef .tc main_arg1) := by
  unfold valB2
  simp only [opsB2]
  after_results_simp
  try simp only [valB1_main_arg0, valB1_main_arg1, valB1_main_arg2, valB1_main_arg3, valB1_main_arg4, valB1_main_arg5, valB1_main_v1, valB1_main_v3, valB1_main_v37, valB1_main_v40, valB1_main_v53]
  first | done | rfl
set_option maxRecDepth 8192 in
theorem valB2_main_arg2 (V0 : Valuation τ sig (Elt F)) : valB2 V0 (no_index (Proc.devRef .tc main_arg2)) = V0 (Proc.devRef .tc main_arg2) := by
  unfold valB2
  simp only [opsB2]
  after_results_simp
  try simp only [valB1_main_arg0, valB1_main_arg1, valB1_main_arg2, valB1_main_arg3, valB1_main_arg4, valB1_main_arg5, valB1_main_v1, valB1_main_v3, valB1_main_v37, valB1_main_v40, valB1_main_v53]
  first | done | rfl
set_option maxRecDepth 8192 in
theorem valB2_main_arg3 (V0 : Valuation τ sig (Elt F)) : valB2 V0 (no_index (Proc.devRef .tc main_arg3)) = V0 (Proc.devRef .tc main_arg3) := by
  unfold valB2
  simp only [opsB2]
  after_results_simp
  try simp only [valB1_main_arg0, valB1_main_arg1, valB1_main_arg2, valB1_main_arg3, valB1_main_arg4, valB1_main_arg5, valB1_main_v1, valB1_main_v3, valB1_main_v37, valB1_main_v40, valB1_main_v53]
  first | done | rfl
set_option maxRecDepth 8192 in
theorem valB2_main_arg4 (V0 : Valuation τ sig (Elt F)) : valB2 V0 (no_index (Proc.devRef .tc main_arg4)) = V0 (Proc.devRef .tc main_arg4) := by
  unfold valB2
  simp only [opsB2]
  after_results_simp
  try simp only [valB1_main_arg0, valB1_main_arg1, valB1_main_arg2, valB1_main_arg3, valB1_main_arg4, valB1_main_arg5, valB1_main_v1, valB1_main_v3, valB1_main_v37, valB1_main_v40, valB1_main_v53]
  first | done | rfl
set_option maxRecDepth 8192 in
theorem valB2_main_arg5 (V0 : Valuation τ sig (Elt F)) : valB2 V0 (no_index (Proc.devRef .tc main_arg5)) = V0 (Proc.devRef .tc main_arg5) := by
  unfold valB2
  simp only [opsB2]
  after_results_simp
  try simp only [valB1_main_arg0, valB1_main_arg1, valB1_main_arg2, valB1_main_arg3, valB1_main_arg4, valB1_main_arg5, valB1_main_v1, valB1_main_v3, valB1_main_v37, valB1_main_v40, valB1_main_v53]
  first | done | rfl
set_option maxRecDepth 8192 in
theorem valB2_main_v1 (V0 : Valuation τ sig (Elt F)) : valB2 V0 (no_index (Proc.devRef .tc main_v1)) = (rowOf (aEi V0)) := by
  unfold valB2
  simp only [opsB2]
  after_results_simp
  try simp only [valB1_main_arg0, valB1_main_arg1, valB1_main_arg2, valB1_main_arg3, valB1_main_arg4, valB1_main_arg5, valB1_main_v1, valB1_main_v3, valB1_main_v37, valB1_main_v40, valB1_main_v53]
  first | done | rfl
set_option maxRecDepth 8192 in
theorem valB2_main_v3 (V0 : Valuation τ sig (Elt F)) : valB2 V0 (no_index (Proc.devRef .tc main_v3)) = (colOf (aEi V0)) := by
  unfold valB2
  simp only [opsB2]
  after_results_simp
  try simp only [valB1_main_arg0, valB1_main_arg1, valB1_main_arg2, valB1_main_arg3, valB1_main_arg4, valB1_main_arg5, valB1_main_v1, valB1_main_v3, valB1_main_v37, valB1_main_v40, valB1_main_v53]
  first | done | rfl
set_option maxRecDepth 8192 in
theorem valB2_main_v37 (V0 : Valuation τ sig (Elt F)) : valB2 V0 (no_index (Proc.devRef .tc main_v37)) = (normOf (rowOf (aEi V0)) (colOf (aEi V0))) := by
  unfold valB2
  simp only [opsB2]
  after_results_simp
  try simp only [valB1_main_arg0, valB1_main_arg1, valB1_main_arg2, valB1_main_arg3, valB1_main_arg4, valB1_main_arg5, valB1_main_v1, valB1_main_v3, valB1_main_v37, valB1_main_v40, valB1_main_v53]
  first | done | rfl
set_option maxRecDepth 8192 in
theorem valB2_main_v53 (V0 : Valuation τ sig (Elt F)) : valB2 V0 (no_index (Proc.devRef .tc main_v53)) = (tx1Of (aX V0) (aEi V0)) := by
  unfold valB2
  simp only [opsB2]
  after_results_simp
  try simp only [valB1_main_arg0, valB1_main_arg1, valB1_main_arg2, valB1_main_arg3, valB1_main_arg4, valB1_main_arg5, valB1_main_v1, valB1_main_v3, valB1_main_v37, valB1_main_v40, valB1_main_v53]
  first | done | rfl
set_option maxRecDepth 8192 in
theorem valB2_main_v57 (V0 : Valuation τ sig (Elt F)) : valB2 V0 (no_index (Proc.devRef .tc main_v57)) = addf (Host.dotGeneral dot_S50000x96_S96x96_S50000x96_1_0_0_1_n_n none (aX V0) (w0Of (aW V0))) (Host.dotGeneral dot_S50000x96_S96x96_S50000x96_1_0_0_1_n_n none (tx1Of (aX V0) (aEi V0)) (w1Of (aW V0))) := by
  unfold valB2
  simp only [opsB2]
  after_results_simp
  try simp only [valB1_main_arg0, valB1_main_arg1, valB1_main_arg2, valB1_main_arg3, valB1_main_arg4, valB1_main_arg5, valB1_main_v1, valB1_main_v3, valB1_main_v37, valB1_main_v40, valB1_main_v53]
  first | done | rfl

/-- The buffer contents after the stretch `opsB3`. -/
def valB3 (V0 : Valuation τ sig (Elt F)) : Valuation τ sig (Elt F) := after opsB3 (valB2 V0)
set_option maxRecDepth 8192 in
theorem valB3_main_arg0 (V0 : Valuation τ sig (Elt F)) : valB3 V0 (no_index (Proc.devRef .tc main_arg0)) = V0 (Proc.devRef .tc main_arg0) := by
  unfold valB3
  simp only [opsB3]
  after_results_simp
  try simp only [valB2_main_arg0, valB2_main_arg1, valB2_main_arg2, valB2_main_arg3, valB2_main_arg4, valB2_main_arg5, valB2_main_v1, valB2_main_v3, valB2_main_v37, valB2_main_v53, valB2_main_v57]
  first | done | rfl
set_option maxRecDepth 8192 in
theorem valB3_main_arg1 (V0 : Valuation τ sig (Elt F)) : valB3 V0 (no_index (Proc.devRef .tc main_arg1)) = V0 (Proc.devRef .tc main_arg1) := by
  unfold valB3
  simp only [opsB3]
  after_results_simp
  try simp only [valB2_main_arg0, valB2_main_arg1, valB2_main_arg2, valB2_main_arg3, valB2_main_arg4, valB2_main_arg5, valB2_main_v1, valB2_main_v3, valB2_main_v37, valB2_main_v53, valB2_main_v57]
  first | done | rfl
set_option maxRecDepth 8192 in
theorem valB3_main_arg2 (V0 : Valuation τ sig (Elt F)) : valB3 V0 (no_index (Proc.devRef .tc main_arg2)) = V0 (Proc.devRef .tc main_arg2) := by
  unfold valB3
  simp only [opsB3]
  after_results_simp
  try simp only [valB2_main_arg0, valB2_main_arg1, valB2_main_arg2, valB2_main_arg3, valB2_main_arg4, valB2_main_arg5, valB2_main_v1, valB2_main_v3, valB2_main_v37, valB2_main_v53, valB2_main_v57]
  first | done | rfl
set_option maxRecDepth 8192 in
theorem valB3_main_arg3 (V0 : Valuation τ sig (Elt F)) : valB3 V0 (no_index (Proc.devRef .tc main_arg3)) = V0 (Proc.devRef .tc main_arg3) := by
  unfold valB3
  simp only [opsB3]
  after_results_simp
  try simp only [valB2_main_arg0, valB2_main_arg1, valB2_main_arg2, valB2_main_arg3, valB2_main_arg4, valB2_main_arg5, valB2_main_v1, valB2_main_v3, valB2_main_v37, valB2_main_v53, valB2_main_v57]
  first | done | rfl
set_option maxRecDepth 8192 in
theorem valB3_main_arg4 (V0 : Valuation τ sig (Elt F)) : valB3 V0 (no_index (Proc.devRef .tc main_arg4)) = V0 (Proc.devRef .tc main_arg4) := by
  unfold valB3
  simp only [opsB3]
  after_results_simp
  try simp only [valB2_main_arg0, valB2_main_arg1, valB2_main_arg2, valB2_main_arg3, valB2_main_arg4, valB2_main_arg5, valB2_main_v1, valB2_main_v3, valB2_main_v37, valB2_main_v53, valB2_main_v57]
  first | done | rfl
set_option maxRecDepth 8192 in
theorem valB3_main_arg5 (V0 : Valuation τ sig (Elt F)) : valB3 V0 (no_index (Proc.devRef .tc main_arg5)) = V0 (Proc.devRef .tc main_arg5) := by
  unfold valB3
  simp only [opsB3]
  after_results_simp
  try simp only [valB2_main_arg0, valB2_main_arg1, valB2_main_arg2, valB2_main_arg3, valB2_main_arg4, valB2_main_arg5, valB2_main_v1, valB2_main_v3, valB2_main_v37, valB2_main_v53, valB2_main_v57]
  first | done | rfl
set_option maxRecDepth 8192 in
theorem valB3_main_v57 (V0 : Valuation τ sig (Elt F)) : valB3 V0 (no_index (Proc.devRef .tc main_v57)) = addf (Host.dotGeneral dot_S50000x96_S96x96_S50000x96_1_0_0_1_n_n none (aX V0) (w0Of (aW V0))) (Host.dotGeneral dot_S50000x96_S96x96_S50000x96_1_0_0_1_n_n none (tx1Of (aX V0) (aEi V0)) (w1Of (aW V0))) := by
  unfold valB3
  simp only [opsB3]
  after_results_simp
  try simp only [valB2_main_arg0, valB2_main_arg1, valB2_main_arg2, valB2_main_arg3, valB2_main_arg4, valB2_main_arg5, valB2_main_v1, valB2_main_v3, valB2_main_v37, valB2_main_v53, valB2_main_v57]
  first | done | rfl
set_option maxRecDepth 8192 in
theorem valB3_main_v73 (V0 : Valuation τ sig (Elt F)) : valB3 V0 (no_index (Proc.devRef .tc main_v73)) = (tx2Of (aX V0) (aEi V0)) := by
  unfold valB3
  simp only [opsB3]
  after_results_simp
  try simp only [valB2_main_arg0, valB2_main_arg1, valB2_main_arg2, valB2_main_arg3, valB2_main_arg4, valB2_main_arg5, valB2_main_v1, valB2_main_v3, valB2_main_v37, valB2_main_v53, valB2_main_v57]
  first | done | rfl

/-- The buffer contents after the stretch `opsB4`. -/
def valB4 (V0 : Valuation τ sig (Elt F)) : Valuation τ sig (Elt F) := after opsB4 (valB3 V0)
set_option maxRecDepth 8192 in
theorem valB4_main_arg0 (V0 : Valuation τ sig (Elt F)) : valB4 V0 (no_index (Proc.devRef .tc main_arg0)) = V0 (Proc.devRef .tc main_arg0) := by
  unfold valB4
  simp only [opsB4]
  after_results_simp
  try simp only [valB3_main_arg0, valB3_main_arg1, valB3_main_arg2, valB3_main_arg3, valB3_main_arg4, valB3_main_arg5, valB3_main_v57, valB3_main_v73]
  first | done | rfl
set_option maxRecDepth 8192 in
theorem valB4_main_arg1 (V0 : Valuation τ sig (Elt F)) : valB4 V0 (no_index (Proc.devRef .tc main_arg1)) = V0 (Proc.devRef .tc main_arg1) := by
  unfold valB4
  simp only [opsB4]
  after_results_simp
  try simp only [valB3_main_arg0, valB3_main_arg1, valB3_main_arg2, valB3_main_arg3, valB3_main_arg4, valB3_main_arg5, valB3_main_v57, valB3_main_v73]
  first | done | rfl
set_option maxRecDepth 8192 in
theorem valB4_main_arg2 (V0 : Valuation τ sig (Elt F)) : valB4 V0 (no_index (Proc.devRef .tc main_arg2)) = V0 (Proc.devRef .tc main_arg2) := by
  unfold valB4
  simp only [opsB4]
  after_results_simp
  try simp only [valB3_main_arg0, valB3_main_arg1, valB3_main_arg2, valB3_main_arg3, valB3_main_arg4, valB3_main_arg5, valB3_main_v57, valB3_main_v73]
  first | done | rfl
set_option maxRecDepth 8192 in
theorem valB4_main_arg3 (V0 : Valuation τ sig (Elt F)) : valB4 V0 (no_index (Proc.devRef .tc main_arg3)) = V0 (Proc.devRef .tc main_arg3) := by
  unfold valB4
  simp only [opsB4]
  after_results_simp
  try simp only [valB3_main_arg0, valB3_main_arg1, valB3_main_arg2, valB3_main_arg3, valB3_main_arg4, valB3_main_arg5, valB3_main_v57, valB3_main_v73]
  first | done | rfl
set_option maxRecDepth 8192 in
theorem valB4_main_arg4 (V0 : Valuation τ sig (Elt F)) : valB4 V0 (no_index (Proc.devRef .tc main_arg4)) = V0 (Proc.devRef .tc main_arg4) := by
  unfold valB4
  simp only [opsB4]
  after_results_simp
  try simp only [valB3_main_arg0, valB3_main_arg1, valB3_main_arg2, valB3_main_arg3, valB3_main_arg4, valB3_main_arg5, valB3_main_v57, valB3_main_v73]
  first | done | rfl
set_option maxRecDepth 8192 in
theorem valB4_main_arg5 (V0 : Valuation τ sig (Elt F)) : valB4 V0 (no_index (Proc.devRef .tc main_arg5)) = V0 (Proc.devRef .tc main_arg5) := by
  unfold valB4
  simp only [opsB4]
  after_results_simp
  try simp only [valB3_main_arg0, valB3_main_arg1, valB3_main_arg2, valB3_main_arg3, valB3_main_arg4, valB3_main_arg5, valB3_main_v57, valB3_main_v73]
  first | done | rfl
set_option maxRecDepth 8192 in
theorem valB4_main_v80 (V0 : Valuation τ sig (Elt F)) : valB4 V0 (no_index (Proc.devRef .tc main_v80)) = (outOf (aX V0) (tx1Of (aX V0) (aEi V0)) (tx2Of (aX V0) (aEi V0)) (aW V0) (aBias V0)) := by
  unfold valB4
  simp only [opsB4]
  after_results_simp
  try simp only [valB3_main_arg0, valB3_main_arg1, valB3_main_arg2, valB3_main_arg3, valB3_main_arg4, valB3_main_arg5, valB3_main_v57, valB3_main_v73]
  first | done | rfl

/-- The buffer contents after the stretch `opsB5`. -/
def valB5 (V0 : Valuation τ sig (Elt F)) : Valuation τ sig (Elt F) := after opsB5 (valB4 V0)
set_option maxRecDepth 8192 in
theorem valB5_main_arg0 (V0 : Valuation τ sig (Elt F)) : valB5 V0 (no_index (Proc.devRef .tc main_arg0)) = V0 (Proc.devRef .tc main_arg0) := by
  unfold valB5
  simp only [opsB5]
  after_results_simp
  try simp only [valB4_main_arg0, valB4_main_arg1, valB4_main_arg2, valB4_main_arg3, valB4_main_arg4, valB4_main_arg5, valB4_main_v80]
  first | done | rfl
set_option maxRecDepth 8192 in
theorem valB5_main_arg1 (V0 : Valuation τ sig (Elt F)) : valB5 V0 (no_index (Proc.devRef .tc main_arg1)) = V0 (Proc.devRef .tc main_arg1) := by
  unfold valB5
  simp only [opsB5]
  after_results_simp
  try simp only [valB4_main_arg0, valB4_main_arg1, valB4_main_arg2, valB4_main_arg3, valB4_main_arg4, valB4_main_arg5, valB4_main_v80]
  first | done | rfl
set_option maxRecDepth 8192 in
theorem valB5_main_arg2 (V0 : Valuation τ sig (Elt F)) : valB5 V0 (no_index (Proc.devRef .tc main_arg2)) = V0 (Proc.devRef .tc main_arg2) := by
  unfold valB5
  simp only [opsB5]
  after_results_simp
  try simp only [valB4_main_arg0, valB4_main_arg1, valB4_main_arg2, valB4_main_arg3, valB4_main_arg4, valB4_main_arg5, valB4_main_v80]
  first | done | rfl
set_option maxRecDepth 8192 in
theorem valB5_main_arg3 (V0 : Valuation τ sig (Elt F)) : valB5 V0 (no_index (Proc.devRef .tc main_arg3)) = V0 (Proc.devRef .tc main_arg3) := by
  unfold valB5
  simp only [opsB5]
  after_results_simp
  try simp only [valB4_main_arg0, valB4_main_arg1, valB4_main_arg2, valB4_main_arg3, valB4_main_arg4, valB4_main_arg5, valB4_main_v80]
  first | done | rfl
set_option maxRecDepth 8192 in
theorem valB5_main_arg4 (V0 : Valuation τ sig (Elt F)) : valB5 V0 (no_index (Proc.devRef .tc main_arg4)) = V0 (Proc.devRef .tc main_arg4) := by
  unfold valB5
  simp only [opsB5]
  after_results_simp
  try simp only [valB4_main_arg0, valB4_main_arg1, valB4_main_arg2, valB4_main_arg3, valB4_main_arg4, valB4_main_arg5, valB4_main_v80]
  first | done | rfl
set_option maxRecDepth 8192 in
theorem valB5_main_arg5 (V0 : Valuation τ sig (Elt F)) : valB5 V0 (no_index (Proc.devRef .tc main_arg5)) = V0 (Proc.devRef .tc main_arg5) := by
  unfold valB5
  simp only [opsB5]
  after_results_simp
  try simp only [valB4_main_arg0, valB4_main_arg1, valB4_main_arg2, valB4_main_arg3, valB4_main_arg4, valB4_main_arg5, valB4_main_v80]
  first | done | rfl
set_option maxRecDepth 8192 in
theorem valB5_main_v80 (V0 : Valuation τ sig (Elt F)) : valB5 V0 (no_index (Proc.devRef .tc main_v80)) = (outOf (aX V0) (tx1Of (aX V0) (aEi V0)) (tx2Of (aX V0) (aEi V0)) (aW V0) (aBias V0)) := by
  unfold valB5
  simp only [opsB5]
  after_results_simp
  try simp only [valB4_main_arg0, valB4_main_arg1, valB4_main_arg2, valB4_main_arg3, valB4_main_arg4, valB4_main_arg5, valB4_main_v80]
  first | done | rfl
set_option maxRecDepth 8192 in
theorem valB5_main_v83 (V0 : Valuation τ sig (Elt F)) : valB5 V0 (no_index (Proc.devRef .tc main_v83)) = meanOf (outOf (aX V0) (tx1Of (aX V0) (aEi V0)) (tx2Of (aX V0) (aEi V0)) (aW V0) (aBias V0)) := by
  unfold valB5
  simp only [opsB5]
  after_results_simp
  try simp only [valB4_main_arg0, valB4_main_arg1, valB4_main_arg2, valB4_main_arg3, valB4_main_arg4, valB4_main_arg5, valB4_main_v80]
  first | done | rfl

/-- The buffer contents after the stretch `opsB6`. -/
def valB6 (V0 : Valuation τ sig (Elt F)) : Valuation τ sig (Elt F) := after opsB6 (valB5 V0)
set_option maxRecDepth 8192 in
theorem valB6_main_arg0 (V0 : Valuation τ sig (Elt F)) : valB6 V0 (no_index (Proc.devRef .tc main_arg0)) = V0 (Proc.devRef .tc main_arg0) := by
  unfold valB6
  simp only [opsB6]
  after_results_simp
  try simp only [valB5_main_arg0, valB5_main_arg1, valB5_main_arg2, valB5_main_arg3, valB5_main_arg4, valB5_main_arg5, valB5_main_v80, valB5_main_v83]
  first | done | rfl
set_option maxRecDepth 8192 in
theorem valB6_main_arg1 (V0 : Valuation τ sig (Elt F)) : valB6 V0 (no_index (Proc.devRef .tc main_arg1)) = V0 (Proc.devRef .tc main_arg1) := by
  unfold valB6
  simp only [opsB6]
  after_results_simp
  try simp only [valB5_main_arg0, valB5_main_arg1, valB5_main_arg2, valB5_main_arg3, valB5_main_arg4, valB5_main_arg5, valB5_main_v80, valB5_main_v83]
  first | done | rfl
set_option maxRecDepth 8192 in
theorem valB6_main_arg2 (V0 : Valuation τ sig (Elt F)) : valB6 V0 (no_index (Proc.devRef .tc main_arg2)) = V0 (Proc.devRef .tc main_arg2) := by
  unfold valB6
  simp only [opsB6]
  after_results_simp
  try simp only [valB5_main_arg0, valB5_main_arg1, valB5_main_arg2, valB5_main_arg3, valB5_main_arg4, valB5_main_arg5, valB5_main_v80, valB5_main_v83]
  first | done | rfl
set_option maxRecDepth 8192 in
theorem valB6_main_arg3 (V0 : Valuation τ sig (Elt F)) : valB6 V0 (no_index (Proc.devRef .tc main_arg3)) = V0 (Proc.devRef .tc main_arg3) := by
  unfold valB6
  simp only [opsB6]
  after_results_simp
  try simp only [valB5_main_arg0, valB5_main_arg1, valB5_main_arg2, valB5_main_arg3, valB5_main_arg4, valB5_main_arg5, valB5_main_v80, valB5_main_v83]
  first | done | rfl
set_option maxRecDepth 8192 in
theorem valB6_main_arg4 (V0 : Valuation τ sig (Elt F)) : valB6 V0 (no_index (Proc.devRef .tc main_arg4)) = V0 (Proc.devRef .tc main_arg4) := by
  unfold valB6
  simp only [opsB6]
  after_results_simp
  try simp only [valB5_main_arg0, valB5_main_arg1, valB5_main_arg2, valB5_main_arg3, valB5_main_arg4, valB5_main_arg5, valB5_main_v80, valB5_main_v83]
  first | done | rfl
set_option maxRecDepth 8192 in
theorem valB6_main_arg5 (V0 : Valuation τ sig (Elt F)) : valB6 V0 (no_index (Proc.devRef .tc main_arg5)) = V0 (Proc.devRef .tc main_arg5) := by
  unfold valB6
  simp only [opsB6]
  after_results_simp
  try simp only [valB5_main_arg0, valB5_main_arg1, valB5_main_arg2, valB5_main_arg3, valB5_main_arg4, valB5_main_arg5, valB5_main_v80, valB5_main_v83]
  first | done | rfl
set_option maxRecDepth 8192 in
theorem valB6_main_v80 (V0 : Valuation τ sig (Elt F)) : valB6 V0 (no_index (Proc.devRef .tc main_v80)) = (outOf (aX V0) (tx1Of (aX V0) (aEi V0)) (tx2Of (aX V0) (aEi V0)) (aW V0) (aBias V0)) := by
  unfold valB6
  simp only [opsB6]
  after_results_simp
  try simp only [valB5_main_arg0, valB5_main_arg1, valB5_main_arg2, valB5_main_arg3, valB5_main_arg4, valB5_main_arg5, valB5_main_v80, valB5_main_v83]
  first | done | rfl
set_option maxRecDepth 8192 in
theorem valB6_main_v83 (V0 : Valuation τ sig (Elt F)) : valB6 V0 (no_index (Proc.devRef .tc main_v83)) = meanOf (outOf (aX V0) (tx1Of (aX V0) (aEi V0)) (tx2Of (aX V0) (aEi V0)) (aW V0) (aBias V0)) := by
  unfold valB6
  simp only [opsB6]
  after_results_simp
  try simp only [valB5_main_arg0, valB5_main_arg1, valB5_main_arg2, valB5_main_arg3, valB5_main_arg4, valB5_main_arg5, valB5_main_v80, valB5_main_v83]
  first | done | rfl
set_option maxRecDepth 8192 in
theorem valB6_main_v84 (V0 : Valuation τ sig (Elt F)) : valB6 V0 (no_index (Proc.devRef .tc main_v84)) = varOf (outOf (aX V0) (tx1Of (aX V0) (aEi V0)) (tx2Of (aX V0) (aEi V0)) (aW V0) (aBias V0)) := by
  unfold valB6
  simp only [opsB6]
  after_results_simp
  try simp only [valB5_main_arg0, valB5_main_arg1, valB5_main_arg2, valB5_main_arg3, valB5_main_arg4, valB5_main_arg5, valB5_main_v80, valB5_main_v83]
  first | done | rfl

/-- The buffer contents after the stretch `opsB7`. -/
def valB7 (V0 : Valuation τ sig (Elt F)) : Valuation τ sig (Elt F) := after opsB7 (valB6 V0)
set_option maxRecDepth 8192 in
theorem valB7_main_arg0 (V0 : Valuation τ sig (Elt F)) : valB7 V0 (no_index (Proc.devRef .tc main_arg0)) = V0 (Proc.devRef .tc main_arg0) := by
  unfold valB7
  simp only [opsB7]
  after_results_simp
  try simp only [valB6_main_arg0, valB6_main_arg1, valB6_main_arg2, valB6_main_arg3, valB6_main_arg4, valB6_main_arg5, valB6_main_v80, valB6_main_v83, valB6_main_v84]
  first | done | rfl
set_option maxRecDepth 8192 in
theorem valB7_main_arg1 (V0 : Valuation τ sig (Elt F)) : valB7 V0 (no_index (Proc.devRef .tc main_arg1)) = V0 (Proc.devRef .tc main_arg1) := by
  unfold valB7
  simp only [opsB7]
  after_results_simp
  try simp only [valB6_main_arg0, valB6_main_arg1, valB6_main_arg2, valB6_main_arg3, valB6_main_arg4, valB6_main_arg5, valB6_main_v80, valB6_main_v83, valB6_main_v84]
  first | done | rfl
set_option maxRecDepth 8192 in
theorem valB7_main_arg2 (V0 : Valuation τ sig (Elt F)) : valB7 V0 (no_index (Proc.devRef .tc main_arg2)) = V0 (Proc.devRef .tc main_arg2) := by
  unfold valB7
  simp only [opsB7]
  after_results_simp
  try simp only [valB6_main_arg0, valB6_main_arg1, valB6_main_arg2, valB6_main_arg3, valB6_main_arg4, valB6_main_arg5, valB6_main_v80, valB6_main_v83, valB6_main_v84]
  first | done | rfl
set_option maxRecDepth 8192 in
theorem valB7_main_arg3 (V0 : Valuation τ sig (Elt F)) : valB7 V0 (no_index (Proc.devRef .tc main_arg3)) = V0 (Proc.devRef .tc main_arg3) := by
  unfold valB7
  simp only [opsB7]
  after_results_simp
  try simp only [valB6_main_arg0, valB6_main_arg1, valB6_main_arg2, valB6_main_arg3, valB6_main_arg4, valB6_main_arg5, valB6_main_v80, valB6_main_v83, valB6_main_v84]
  first | done | rfl
set_option maxRecDepth 8192 in
theorem valB7_main_arg4 (V0 : Valuation τ sig (Elt F)) : valB7 V0 (no_index (Proc.devRef .tc main_arg4)) = V0 (Proc.devRef .tc main_arg4) := by
  unfold valB7
  simp only [opsB7]
  after_results_simp
  try simp only [valB6_main_arg0, valB6_main_arg1, valB6_main_arg2, valB6_main_arg3, valB6_main_arg4, valB6_main_arg5, valB6_main_v80, valB6_main_v83, valB6_main_v84]
  first | done | rfl
set_option maxRecDepth 8192 in
theorem valB7_main_arg5 (V0 : Valuation τ sig (Elt F)) : valB7 V0 (no_index (Proc.devRef .tc main_arg5)) = V0 (Proc.devRef .tc main_arg5) := by
  unfold valB7
  simp only [opsB7]
  after_results_simp
  try simp only [valB6_main_arg0, valB6_main_arg1, valB6_main_arg2, valB6_main_arg3, valB6_main_arg4, valB6_main_arg5, valB6_main_v80, valB6_main_v83, valB6_main_v84]
  first | done | rfl
set_option maxRecDepth 8192 in
theorem valB7_main_v96 (V0 : Valuation τ sig (Elt F)) : valB7 V0 (no_index (Proc.devRef .tc main_v96)) = mulf (mulf (subf (outOf (aX V0) (tx1Of (aX V0) (aEi V0)) (tx2Of (aX V0) (aEi V0)) (aW V0) (aBias V0)) (rows (meanOf (outOf (aX V0) (tx1Of (aX V0) (aEi V0)) (tx2Of (aX V0) (aEi V0)) (aW V0) (aBias V0))))) (rows (Host.rsqrt (addf (varOf (outOf (aX V0) (tx1Of (aX V0) (aEi V0)) (tx2Of (aX V0) (aEi V0)) (aW V0) (aBias V0))) (broadcastInDim S96 ![] bcast_S_S96 (constant S_ .f32 0x3727C5AC#32 : C F S_ .f32)))))) (rows (aGamma V0)) := by
  unfold valB7
  simp only [opsB7]
  after_results_simp
  try simp only [valB6_main_arg0, valB6_main_arg1, valB6_main_arg2, valB6_main_arg3, valB6_main_arg4, valB6_main_arg5, valB6_main_v80, valB6_main_v83, valB6_main_v84]
  first | done | rfl
set_option maxRecDepth 8192 in
theorem valB7_main_v98 (V0 : Valuation τ sig (Elt F)) : valB7 V0 (no_index (Proc.devRef .tc main_v98)) = rows (aBeta V0) := by
  unfold valB7
  simp only [opsB7]
  after_results_simp
  try simp only [valB6_main_arg0, valB6_main_arg1, valB6_main_arg2, valB6_main_arg3, valB6_main_arg4, valB6_main_arg5, valB6_main_v80, valB6_main_v83, valB6_main_v84]
  first | done | rfl

/-- The buffer contents after the stretch `opsC`. -/
def valC (V0 : Valuation τ sig (Elt F)) : Valuation τ sig (Elt F) := after opsC (valB7 V0)
set_option maxRecDepth 8192 in
theorem valC_main_arg0 (V0 : Valuation τ sig (Elt F)) : valC V0 (no_index (Proc.devRef .tc main_arg0)) = V0 (Proc.devRef .tc main_arg0) := by
  unfold valC
  simp only [opsC]
  after_results_simp
  try simp only [valB7_main_arg0, valB7_main_arg1, valB7_main_arg2, valB7_main_arg3, valB7_main_arg4, valB7_main_arg5, valB7_main_v96, valB7_main_v98]
  first | done | rfl
set_option maxRecDepth 8192 in
theorem valC_main_arg1 (V0 : Valuation τ sig (Elt F)) : valC V0 (no_index (Proc.devRef .tc main_arg1)) = V0 (Proc.devRef .tc main_arg1) := by
  unfold valC
  simp only [opsC]
  after_results_simp
  try simp only [valB7_main_arg0, valB7_main_arg1, valB7_main_arg2, valB7_main_arg3, valB7_main_arg4, valB7_main_arg5, valB7_main_v96, valB7_main_v98]
  first | done | rfl
set_option maxRecDepth 8192 in
theorem valC_main_arg2 (V0 : Valuation τ sig (Elt F)) : valC V0 (no_index (Proc.devRef .tc main_arg2)) = V0 (Proc.devRef .tc main_arg2) := by
  unfold valC
  simp only [opsC]
  after_results_simp
  try simp only [valB7_main_arg0, valB7_main_arg1, valB7_main_arg2, valB7_main_arg3, valB7_main_arg4, valB7_main_arg5, valB7_main_v96, valB7_main_v98]
  first | done | rfl
set_option maxRecDepth 8192 in
theorem valC_main_arg3 (V0 : Valuation τ sig (Elt F)) : valC V0 (no_index (Proc.devRef .tc main_arg3)) = V0 (Proc.devRef .tc main_arg3) := by
  unfold valC
  simp only [opsC]
  after_results_simp
  try simp only [valB7_main_arg0, valB7_main_arg1, valB7_main_arg2, valB7_main_arg3, valB7_main_arg4, valB7_main_arg5, valB7_main_v96, valB7_main_v98]
  first | done | rfl
set_option maxRecDepth 8192 in
theorem valC_main_arg4 (V0 : Valuation τ sig (Elt F)) : valC V0 (no_index (Proc.devRef .tc main_arg4)) = V0 (Proc.devRef .tc main_arg4) := by
  unfold valC
  simp only [opsC]
  after_results_simp
  try simp only [valB7_main_arg0, valB7_main_arg1, valB7_main_arg2, valB7_main_arg3, valB7_main_arg4, valB7_main_arg5, valB7_main_v96, valB7_main_v98]
  first | done | rfl
set_option maxRecDepth 8192 in
theorem valC_main_arg5 (V0 : Valuation τ sig (Elt F)) : valC V0 (no_index (Proc.devRef .tc main_arg5)) = V0 (Proc.devRef .tc main_arg5) := by
  unfold valC
  simp only [opsC]
  after_results_simp
  try simp only [valB7_main_arg0, valB7_main_arg1, valB7_main_arg2, valB7_main_arg3, valB7_main_arg4, valB7_main_arg5, valB7_main_v96, valB7_main_v98]
  first | done | rfl
set_option maxRecDepth 8192 in
theorem valC_main_v99 (V0 : Valuation τ sig (Elt F)) : valC V0 (no_index (Proc.devRef .tc main_v99)) = refResult (aX V0) (aEi V0) (aW V0) (aBias V0) (aGamma V0) (aBeta V0) := by
  unfold valC
  simp only [opsC]
  after_results_simp
  try simp only [valB7_main_arg0, valB7_main_arg1, valB7_main_arg2, valB7_main_arg3, valB7_main_arg4, valB7_main_arg5, valB7_main_v96, valB7_main_v98]
  first | done | rfl

/-- The whole line's contents are the last stretch's. -/
theorem after_ops (V0 : Valuation τ sig (Elt F)) : after ops V0 = valC V0 := by
  simp only [ops, ops_part0, ops_part1, ops_part2, after_app]
  rfl

/-- On every device, for any float values, from any memory with zero counters: every weakly fair execution of
    `@main` terminates with the result buffer at `refResult` of the argument arrays and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v99) = refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v99).trans (by simp only [after_ops]; exact valC_main_v99 (launchContents m c)),
      (h c main_arg0).trans (by simp only [after_ops]; exact valC_main_arg0 (launchContents m c)),
      (h c main_arg1).trans (by simp only [after_ops]; exact valC_main_arg1 (launchContents m c)),
      (h c main_arg2).trans (by simp only [after_ops]; exact valC_main_arg2 (launchContents m c)),
      (h c main_arg3).trans (by simp only [after_ops]; exact valC_main_arg3 (launchContents m c)),
      (h c main_arg4).trans (by simp only [after_ops]; exact valC_main_arg4 (launchContents m c)),
      (h c main_arg5).trans (by simp only [after_ops]; exact valC_main_arg5 (launchContents m c))⟩)
    (run_seq scopedRefs_eq scopedSems_eq defs main (fun _ => ops) main_eq (fun _ => ops_sub) m ρ)

end Cert.ReferenceIdeal.Hand

end
-- ==== Proof.Finite.lean ====
import proofs.«166066_j71159018160656_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

/-!
What the precondition gives: the predicate `finite_inputs` answers `1` exactly when every entry of the five float
arguments has an absolute value below `+∞`; at the ideal values such an entry is a real number.
-/

noncomputable section

namespace Cert.Hand

open Idealize.ShloMosaic Cert.Pre_finite_inputs

/-- The shape of rank zero has one index. -/
instance subsingleton_S_ : Subsingleton S_.Idx := ⟨fun a b => funext fun d => d.elim0⟩

/-- The pattern of `+∞` denotes the top of the extended reals. -/
theorem ofBits_inf : Ideal.ofBits .f32 0x7F800000#32 = ⊤ := by
  simp [Ideal.ofBits, Ideal.ieee]

/-- An extended real whose absolute value is below `+∞` is a real number. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- An array every entry of which has an absolute value below `+∞` holds real numbers. -/
theorem real_of_all_abs_lt_inf {s : Shape} (x v : FVec Ideal s .f32) (hv : ∀ i, v i = Ideal.ofBits .f32 0x7F800000#32)
    (h : ∀ i, cmpf .olt (Host.absf x) v i = 1#1) : ∀ i, ∃ r : ℝ, x i = (r : EReal) := fun i =>
  real_of_abs_lt_inf (x i) (by rw [← hv i]; exact h i)

/-- Under the precondition every entry of the five float arguments is a real number. -/
theorem real_of_pre (x : (⟨S50000x96, .f32⟩ : BufTy).Contents (Elt Ideal))
    (ei : (⟨S2x800000, .i32⟩ : BufTy).Contents (Elt Ideal)) (W : (⟨S3x96x96, .f32⟩ : BufTy).Contents (Elt Ideal))
    (bias gamma beta : (⟨S96, .f32⟩ : BufTy).Contents (Elt Ideal))
    (h : Cert.Pre_finite_inputs.fn (F := Ideal) x ei W bias gamma beta = fun _ => 1#1) :
    (∀ i, ∃ r : ℝ, x i = (r : EReal)) ∧ (∀ i, ∃ r : ℝ, W i = (r : EReal)) ∧ (∀ i, ∃ r : ℝ, bias i = (r : EReal))
      ∧ (∀ i, ∃ r : ℝ, gamma i = (r : EReal)) ∧ (∀ i, ∃ r : ℝ, beta i = (r : EReal)) := by
  have h0 := congrFun h ValueIdx.ix0
  dsimp only [fn, fn_part1] at h0
  simp only [Idealize.ShloMosaic.andi, IntOp.andi_eq_one] at h0
  obtain ⟨⟨⟨⟨hx, hW⟩, hb⟩, hg⟩, hbe⟩ := h0
  exact ⟨real_of_all_abs_lt_inf _ _ (fun _ => rfl) (Host.reduce_andi_all _ _ _ _ _ hx),
    real_of_all_abs_lt_inf _ _ (fun _ => rfl) (Host.reduce_andi_all _ _ _ _ _ hW),
    real_of_all_abs_lt_inf _ _ (fun _ => rfl) (Host.reduce_andi_all _ _ _ _ _ hb),
    real_of_all_abs_lt_inf _ _ (fun _ => rfl) (Host.reduce_andi_all _ _ _ _ _ hg),
    real_of_all_abs_lt_inf _ _ (fun _ => rfl) (Host.reduce_andi_all _ _ _ _ _ hbe)⟩

end Cert.Hand

end
-- ==== Proof.lean ====
/-
  The certificate of a Chebyshev graph convolution of order three followed by a batch normalisation, over 50000 nodes,
  800000 edges and 96 features, against its reference.

  What both programs compute. From the edge list, with `row e` and `col e` an edge's two nodes: the weight `w e` is `1`
  between two different nodes and `0` on a self loop; `deg n` is the sum of `w e` over the edges with `row e = n`;
  `dis n` is `deg n ^ (-1/2)` where `deg n > 0` and `0` elsewhere; `norm e = -dis (row e) * w e * dis (col e)`. One
  propagation step is `(L h) n = ∑ {e | col e = n} norm e * h (row e)`, a gather of rows and a sum by target node. The
  Chebyshev terms are `T₁ = L x` and `T₂ = 2 L T₁ - x`; the combination is `o = x W₀ + T₁ W₁ + T₂ W₂ + bias`; the
  result is `(o - mean) * (var + ε)^(-1/2) * γ + β`, column by column, with `mean` the column means of `o` and `var`
  its column variances over the 50000 rows.

  How the kernel computes it. The edge weights and the two propagation steps are host operations, the same ones the
  reference applies, in the same order. The first kernel region walks the rows of `x`, `T₁`, `T₂` in ten blocks of
  5000: at each block it forms the block of `o` and adds the block's column sums of `o` and of `o * o` to two running
  rows, zeroed at the first block; at the last block it stores `mean = sum * (1/50000)` and
  `var = sumsq * (1/50000) - mean * mean`. The second region normalises `o` block by block with these two rows. The
  reference takes the column sum of `o` divided by `50000` for the mean and the column sum of the squared deviations
  from the mean divided by `50000` for the variance.

  Why they agree at the ideal values (floats extended reals, every operation exact). The host stages are one function of
  the arguments on both sides. A matrix product's rows depend only on the same rows of its left factor, so the ten
  blocks of `o` are the rows of the whole product; the ten block sums of a column add up to the column's sum. Under
  the precondition every entry of `x`, `W`, `bias`, `γ`, `β` is a real number, hence so is every entry of `o`: a sum of
  products of finitely many reals, the edge weights being real whatever the edge list. For real entries the mean of the
  squares less the square of the mean is the mean of the squared deviations, and dividing by `50000` is multiplying by
  `1/50000`: the constant the kernel multiplies by is named `"inv_50000"` and is the rational `1/50000` at the ideal
  values (the two ledger entries of `preserves_Kernel_KernelIdeal`), not the nearest binary fraction, against which
  the claim would be false. So both programs end with the result at `refResult` of the six arguments
  (Proof/Ref/Stages.lean) and the arguments unchanged.

  The parts: the reference's run (Proof/Ref/Run.lean); the idealized kernel's run and frame (Proof/KernelIdeal/Run.lean)
  and the word-level kernel's frame (Proof/Kernel/Run.lean); the precondition's consequence (Proof/Finite.lean); the
  kernel's result read as `refResult` (Proof/KernelIdeal/KernelValue.lean).
-/
import proofs.«166066_j71159018160656_1_alg».proof.Defs
import proofs.«166066_j71159018160656_1_alg».proof.Proof.Gen.Kernel
import proofs.«166066_j71159018160656_1_alg».proof.Proof.Gen.Kernel.Skeleton
import proofs.«166066_j71159018160656_1_alg».proof.Proof.Gen.Kernel.Launch
import proofs.«166066_j71159018160656_1_alg».proof.Proof.Gen.Kernel.Regions
import proofs.«166066_j71159018160656_1_alg».proof.Proof.Gen.Kernel.Points
import proofs.«166066_j71159018160656_1_alg».proof.Proof.Gen.KernelIdeal
import proofs.«166066_j71159018160656_1_alg».proof.Proof.Gen.KernelIdeal.Skeleton
import proofs.«166066_j71159018160656_1_alg».proof.Proof.Gen.KernelIdeal.Launch
import proofs.«166066_j71159018160656_1_alg».proof.Proof.Gen.KernelIdeal.Regions
import proofs.«166066_j71159018160656_1_alg».proof.Proof.Gen.KernelIdeal.Points
import proofs.«166066_j71159018160656_1_alg».proof.Proof.Gen.ReferenceIdeal
import proofs.«166066_j71159018160656_1_alg».proof.Proof.Gen.Pre_finite_inputs
import proofs.«166066_j71159018160656_1_alg».proof.Proof.Kernel.Run
import proofs.«166066_j71159018160656_1_alg».proof.Proof.KernelIdeal.Run
import proofs.«166066_j71159018160656_1_alg».proof.Proof.KernelIdeal.KernelValue
import proofs.«166066_j71159018160656_1_alg».proof.Proof.Ref.Run
import proofs.«166066_j71159018160656_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Hand.frame m ρ

/-- The idealized kernel runs and leaves its arguments as launched. -/
theorem frame_ki : Cert.frame_KernelIdeal := fun m ρ _ => Cert.KernelIdeal.Hand.frame m ρ

/-- The reference runs and leaves its arguments as launched: its run's post without the result's conjunct. -/
theorem frame_ri : Cert.frame_ReferenceIdeal := fun m ρ _ =>
  (θ_run Cert.ReferenceIdeal.defs _ _).mono (fun _ h c => (h c).2) (Cert.ReferenceIdeal.Hand.run (F := Ideal) m ρ)

/-- The ledger's two entries, one constant at two sites: the certificate's table gives `"inv_50000"` the value
    `1/50000`, and the printed constant is that value at the ideal values. -/
theorem preserves : Cert.preserves_Kernel_KernelIdeal :=
  ⟨IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl⟩

/-- At the ideal values, from memories that agree on the arguments, both programs end with the result at `refResult`
    of the kernel memory's six arguments and their own arguments unchanged: the kernel by its run read at the result
    buffer (the entries of `x`, `W`, `bias` real by the precondition), the reference by its run at the agreeing
    arguments. -/
theorem algebraic : Cert.algebraic_KernelIdeal_ReferenceIdeal := by
  intro m ρ m' ρ' hpre hagree
  refine ⟨fun c => Cert.ReferenceIdeal.Hand.refResult (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Hand.run m ρ)
    obtain ⟨hx, hW, hb, -, -⟩ := Cert.Hand.real_of_pre _ _ _ _ _ _ (hpre c)
    exact ⟨(h c _ (Cert.KernelIdeal.Hand.mem_uc Cert.KernelIdeal.main_v74 (by decide))).trans (Cert.KernelIdeal.Hand.result_eq m ρ c hx hW hb),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c)⟩
  · refine (θ_run Cert.ReferenceIdeal.defs _ _).mono (fun r h c => ?_) (Cert.ReferenceIdeal.Hand.run (F := Ideal) m' ρ')
    obtain ⟨h0, h1, h2, h3, h4, h5⟩ := hagree c
    exact ⟨(h c).1.trans (by rw [h0, h1, h2, h3, h4, h5]), (h c).2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
